-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x64 : Shape := ⟨2, ![8000, 64]⟩
abbrev S50000 : Shape := ⟨1, ![50000]⟩
abbrev S50000x3 : Shape := ⟨2, ![50000, 3]⟩
abbrev S20x64x64 : Shape := ⟨3, ![20, 64, 64]⟩
abbrev S64x64 : Shape := ⟨2, ![64, 64]⟩
abbrev S64 : Shape := ⟨1, ![64]⟩
abbrev S20 : Shape := ⟨1, ![20]⟩
abbrev S_ : Shape := ⟨0, ![]⟩

class Facts : Prop where
  bcast_S_S8000x64 : S_.BroadcastsInDim S8000x64 (![] : Fin 0 → Fin S8000x64.rank)
  reducesTo_S8000x64_S_d0_1 : S8000x64.ReducesTo [0, 1] S_
  h_S_ : 0 < S_.numel
  bcast_S_S50000 : S_.BroadcastsInDim S50000 (![] : Fin 0 → Fin S50000.rank)
  reducesTo_S50000_S_d0 : S50000.ReducesTo [0] S_
  bcast_S_S50000x3 : S_.BroadcastsInDim S50000x3 (![] : Fin 0 → Fin S50000x3.rank)
  reducesTo_S50000x3_S_d0_1 : S50000x3.ReducesTo [0, 1] S_
  bcast_S_S20x64x64 : S_.BroadcastsInDim S20x64x64 (![] : Fin 0 → Fin S20x64x64.rank)
  reducesTo_S20x64x64_S_d0_1_2 : S20x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S20 : S_.BroadcastsInDim S20 (![] : Fin 0 → Fin S20.rank)
  reducesTo_S20_S_d0 : S20.ReducesTo [0] S_

variable [Facts]

def fn_part2 {F : FTy → Type} [FloatOps F] (main_arg7 : FVec F S20 .f32) (main_arg8 : FVec F S20 .f32) (main_v33 : IVec S_ 1) : IVec S_ 1 :=
  let main_v34 : FVec F S20 .f32 := Host.absf main_arg7
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  main_v43

def fn_part1 {F : FTy → Type} [FloatOps F] (main_arg4 : FVec F S64x64 .f32) (main_arg5 : FVec F S64 .f32) (main_arg6 : FVec F S64 .f32) (main_arg7 : FVec F S20 .f32) (main_arg8 : FVec F S20 .f32) (main_v13 : IVec S_ 1) (main_v16 : IVec S20x64x64 1) : IVec S_ 1 :=
  let main_c_5 : IVec S_ 1 := constantI S_ 1 1#1
  let main_v17 : IVec S_ 1 := (fun x v => Host.reduce IntOp.andi x v reducesTo_S20x64x64_S_d0_1_2 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8000x64 .f32) (main_arg1 : FVec F S50000 .f32) (main_arg2 : FVec F S50000x3 .f32) (main_arg3 : FVec F S20x64x64 .f32) (main_arg4 : FVec F S64x64 .f32) (main_arg5 : FVec F S64 .f32) (main_arg6 : FVec F S64 .f32) (main_arg7 : FVec F S20 .f32) (main_arg8 : FVec F S20 .f32) (main_arg9 : IVec S50000 32) (main_arg10 : IVec S50000 32) : IVec S_ 1 :=
  let main_v0 : FVec F S8000x64 .f32 := Host.absf main_arg0
  let main_cst : FVec F S_ .f32 := constant S_ .f32 0x7F800000#32
  let main_v1 : FVec F S8000x64 .f32 := broadcastInDim S8000x64 ![] bcast_S_S8000x64 main_cst
  let main_v2 : IVec S8000x64 1 := cmpf .olt main_v0 main_v1
  let main_c : IVec S_ 1 := constantI S_ 1 1#1
  let main_v3 : IVec S_ 1 := (fun x v => Host.reduce IntOp.andi x v reducesTo_S8000x64_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S20x64x64 .f32 := Host.absf main_arg3
  let main_cst_4 : FVec F S_ .f32 := constant S_ .f32 0x7F800000#32
  let main_v15 : FVec F S20x64x64 .f32 := broadcastInDim S20x64x64 ![] bcast_S_S20x64x64 main_cst_4
  let main_v16 : IVec S20x64x64 1 := cmpf .olt main_v14 main_v15
  fn_part1 (F := F) main_arg4 main_arg5 main_arg6 main_arg7 main_arg8 main_v13 main_v16
-- ==== Kernel.lean ====
abbrev S8000x64 : Shape := ⟨2, ![8000, 64]⟩
abbrev S50000 : Shape := ⟨1, ![50000]⟩
abbrev S50000x3 : Shape := ⟨2, ![50000, 3]⟩
abbrev S20x64x64 : Shape := ⟨3, ![20, 64, 64]⟩
abbrev S64x64 : Shape := ⟨2, ![64, 64]⟩
abbrev S64 : Shape := ⟨1, ![64]⟩
abbrev S20 : Shape := ⟨1, ![20]⟩
abbrev S_ : Shape := ⟨0, ![]⟩
abbrev S50000x1 : Shape := ⟨2, ![50000, 1]⟩
abbrev S50000x64 : Shape := ⟨2, ![50000, 64]⟩
abbrev S1x20 : Shape := ⟨2, ![1, 20]⟩
abbrev S50000x4x64 : Shape := ⟨3, ![50000, 4, 64]⟩
abbrev S5000x64 : Shape := ⟨2, ![5000, 64]⟩
abbrev S5000x1 : Shape := ⟨2, ![5000, 1]⟩
abbrev S5000x3 : Shape := ⟨2, ![5000, 3]⟩
abbrev S5000x4x64 : Shape := ⟨3, ![5000, 4, 64]⟩
abbrev S5000x20 : Shape := ⟨2, ![5000, 20]⟩
abbrev S1x64x64 : Shape := ⟨3, ![1, 64, 64]⟩
abbrev S5000x1x64 : Shape := ⟨3, ![5000, 1, 64]⟩
abbrev S50000x256 : Shape := ⟨2, ![50000, 256]⟩
abbrev S8000x256 : Shape := ⟨2, ![8000, 256]⟩
abbrev S8000x4x64 : Shape := ⟨3, ![8000, 4, 64]⟩
abbrev S8000x1x64 : Shape := ⟨3, ![8000, 1, 64]⟩
abbrev S8000x3x64 : Shape := ⟨3, ![8000, 3, 64]⟩
abbrev S1x64 : Shape := ⟨2, ![1, 64]⟩
abbrev S2000x64 : Shape := ⟨2, ![2000, 64]⟩

abbrev nBuf : Space → Nat
  | .hbm => 47
  | .vmem => 17
  | .smem => 0
  | _ => 0

abbrev bufTy : (tb : Table) → Fin (tcTables nBuf tb) → BufTy
  | .hbm, ⟨0, _⟩ => ⟨S8000x64, .f32⟩
  | .hbm, ⟨1, _⟩ => ⟨S50000, .f32⟩
  | .hbm, ⟨2, _⟩ => ⟨S50000x3, .f32⟩
  | .hbm, ⟨3, _⟩ => ⟨S20x64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S20, .f32⟩
  | .hbm, ⟨8, _⟩ => ⟨S20, .f32⟩
  | .hbm, ⟨9, _⟩ => ⟨S50000, .i32⟩
  | .hbm, ⟨10, _⟩ => ⟨S50000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x64, .f32⟩
  | .hbm, ⟨20, _⟩ => ⟨S50000x1, .f32⟩
  | .hbm, ⟨21, _⟩ => ⟨S1x20, .f32⟩
  | .hbm, ⟨22, _⟩ => ⟨S1x20, .f32⟩
  | .hbm, ⟨23, _⟩ => ⟨S50000x4x64, .f32⟩
  | .hbm, ⟨24, _⟩ => ⟨S50000x256, .f32⟩
  | .hbm, ⟨25, _⟩ => ⟨S_, .f32⟩
  | .hbm, ⟨26, _⟩ => ⟨S8000x256, .f32⟩
  | .hbm, ⟨27, _⟩ => ⟨S50000x1, .i32⟩
  | .hbm, ⟨28, _⟩ => ⟨S8000x256, .f32⟩
  | .hbm, ⟨29, _⟩ => ⟨S8000x4x64, .f32⟩
  | .hbm, ⟨30, _⟩ => ⟨S8000x1x64, .f32⟩
  | .hbm, ⟨31, _⟩ => ⟨S8000x64, .f32⟩
  | .hbm, ⟨32, _⟩ => ⟨S8000x3x64, .f32⟩
  | .hbm, ⟨33, _⟩ => ⟨S8000x3x64, .f32⟩
  | .hbm, ⟨34, _⟩ => ⟨S_, .f32⟩
  | .hbm, ⟨35, _⟩ => ⟨S8000x64, .f32⟩
  | .hbm, ⟨36, _⟩ => ⟨S_, .f32⟩
  | .hbm, ⟨37, _⟩ => ⟨S8000x64, .f32⟩
  | .hbm, ⟨38, _⟩ => ⟨S8000x64, .f32⟩
  | .hbm, ⟨39, _⟩ => ⟨S8000x64, .f32⟩
  | .hbm, ⟨40, _⟩ => ⟨S1x64, .f32⟩
  | .hbm, ⟨41, _⟩ => ⟨S8000x64, .f32⟩
  | .hbm, ⟨42, _⟩ => ⟨S8000x64, .f32⟩
  | .hbm, ⟨43, _⟩ => ⟨S1x64, .f32⟩
  | .hbm, ⟨44, _⟩ => ⟨S8000x64, .f32⟩
  | .hbm, ⟨45, _⟩ => ⟨S8000x64, .f32⟩
  | .hbm, ⟨46, _⟩ => ⟨S8000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x3, .f32⟩
  | .local _ .vmem, ⟨5, _⟩ => ⟨S5000x3, .f32⟩
  | .local _ .vmem, ⟨6, _⟩ => ⟨S1x20, .f32⟩
  | .local _ .vmem, ⟨7, _⟩ => ⟨S1x20, .f32⟩
  | .local _ .vmem, ⟨8, _⟩ => ⟨S20x64x64, .f32⟩
  | .local _ .vmem, ⟨9, _⟩ => ⟨S5000x4x64, .f32⟩
  | .local _ .vmem, ⟨10, _⟩ => ⟨S5000x4x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | _, _ => ⟨S8000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x4x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  shapeCasts_S50000_S50000x1 : S50000.ShapeCasts S50000x1
  shapeCasts_S20_S1x20 : S20.ShapeCasts S1x20
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x3_S5000x3_0_0 : ∀ a, (![0, 0] : Fin 2 → Nat) a + S5000x3.size a ≤ S5000x3.size a
  h_S5000x3 : 0 < S5000x3.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S5000x1_S5000x20 : S5000x1.Broadcasts S5000x20
  broadcasts_S1x20_S5000x20 : S1x20.Broadcasts S5000x20
  broadcasts_S5000x1_S5000x3 : S5000x1.Broadcasts S5000x3
  bitsLt_bf16_f32 : FTy.bits .bf16 < FTy.bits .f32
  inb_S20x64x64_S1x64x64_0_0_0 : ∀ a, (![0, 0, 0] : Fin 3 → Nat) a + S1x64x64.size a ≤ S20x64x64.size a
  h_S1x64x64 : 0 < S1x64x64.numel
  shapeCasts_S1x64x64_S64x64 : S1x64x64.ShapeCasts S64x64
  transposes_S64x64_p1_0_S64x64 : S64x64.Transposes [1, 0] S64x64
  slices_S5000x20_o0_0_S5000x1 : S5000x20.Slices ![0, 0] S5000x1
  broadcasts_S5000x1_S5000x64 : S5000x1.Broadcasts S5000x64
  inb_S20x64x64_S1x64x64_1_0_0 : ∀ a, (![1, 0, 0] : Fin 3 → Nat) a + S1x64x64.size a ≤ S20x64x64.size a
  slices_S5000x20_o0_1_S5000x1 : S5000x20.Slices ![0, 1] S5000x1
  inb_S20x64x64_S1x64x64_2_0_0 : ∀ a, (![2, 0, 0] : Fin 3 → Nat) a + S1x64x64.size a ≤ S20x64x64.size a
  slices_S5000x20_o0_2_S5000x1 : S5000x20.Slices ![0, 2] S5000x1
  inb_S20x64x64_S1x64x64_3_0_0 : ∀ a, (![3, 0, 0] : Fin 3 → Nat) a + S1x64x64.size a ≤ S20x64x64.size a
  slices_S5000x20_o0_3_S5000x1 : S5000x20.Slices ![0, 3] S5000x1
  inb_S20x64x64_S1x64x64_4_0_0 : ∀ a, (![4, 0, 0] : Fin 3 → Nat) a + S1x64x64.size a ≤ S20x64x64.size a
  slices_S5000x20_o0_4_S5000x1 : S5000x20.Slices ![0, 4] S5000x1
  inb_S20x64x64_S1x64x64_5_0_0 : ∀ a, (![5, 0, 0] : Fin 3 → Nat) a + S1x64x64.size a ≤ S20x64x64.size a
  slices_S5000x20_o0_5_S5000x1 : S5000x20.Slices ![0, 5] S5000x1
  inb_S20x64x64_S1x64x64_6_0_0 : ∀ a, (![6, 0, 0] : Fin 3 → Nat) a + S1x64x64.size a ≤ S20x64x64.size a
  slices_S5000x20_o0_6_S5000x1 : S5000x20.Slices ![0, 6] S5000x1
  inb_S20x64x64_S1x64x64_7_0_0 : ∀ a, (![7, 0, 0] : Fin 3 → Nat) a + S1x64x64.size a ≤ S20x64x64.size a
  slices_S5000x20_o0_7_S5000x1 : S5000x20.Slices ![0, 7] S5000x1
  inb_S20x64x64_S1x64x64_8_0_0 : ∀ a, (![8, 0, 0] : Fin 3 → Nat) a + S1x64x64.size a ≤ S20x64x64.size a
  slices_S5000x20_o0_8_S5000x1 : S5000x20.Slices ![0, 8] S5000x1
  inb_S20x64x64_S1x64x64_9_0_0 : ∀ a, (![9, 0, 0] : Fin 3 → Nat) a + S1x64x64.size a ≤ S20x64x64.size a
  slices_S5000x20_o0_9_S5000x1 : S5000x20.Slices ![0, 9] S5000x1
  inb_S20x64x64_S1x64x64_10_0_0 : ∀ a, (![10, 0, 0] : Fin 3 → Nat) a + S1x64x64.size a ≤ S20x64x64.size a
  slices_S5000x20_o0_10_S5000x1 : S5000x20.Slices ![0, 10] S5000x1
  inb_S20x64x64_S1x64x64_11_0_0 : ∀ a, (![11, 0, 0] : Fin 3 → Nat) a + S1x64x64.size a ≤ S20x64x64.size a
  slices_S5000x20_o0_11_S5000x1 : S5000x20.Slices ![0, 11] S5000x1
  inb_S20x64x64_S1x64x64_12_0_0 : ∀ a, (![12, 0, 0] : Fin 3 → Nat) a + S1x64x64.size a ≤ S20x64x64.size a
  slices_S5000x20_o0_12_S5000x1 : S5000x20.Slices ![0, 12] S5000x1
  inb_S20x64x64_S1x64x64_13_0_0 : ∀ a, (![13, 0, 0] : Fin 3 → Nat) a + S1x64x64.size a ≤ S20x64x64.size a
  slices_S5000x20_o0_13_S5000x1 : S5000x20.Slices ![0, 13] S5000x1
  inb_S20x64x64_S1x64x64_14_0_0 : ∀ a, (![14, 0, 0] : Fin 3 → Nat) a + S1x64x64.size a ≤ S20x64x64.size a
  slices_S5000x20_o0_14_S5000x1 : S5000x20.Slices ![0, 14] S5000x1
  inb_S20x64x64_S1x64x64_15_0_0 : ∀ a, (![15, 0, 0] : Fin 3 → Nat) a + S1x64x64.size a ≤ S20x64x64.size a
  slices_S5000x20_o0_15_S5000x1 : S5000x20.Slices ![0, 15] S5000x1
  inb_S20x64x64_S1x64x64_16_0_0 : ∀ a, (![16, 0, 0] : Fin 3 → Nat) a + S1x64x64.size a ≤ S20x64x64.size a
  slices_S5000x20_o0_16_S5000x1 : S5000x20.Slices ![0, 16] S5000x1
  inb_S20x64x64_S1x64x64_17_0_0 : ∀ a, (![17, 0, 0] : Fin 3 → Nat) a + S1x64x64.size a ≤ S20x64x64.size a
  slices_S5000x20_o0_17_S5000x1 : S5000x20.Slices ![0, 17] S5000x1
  inb_S20x64x64_S1x64x64_18_0_0 : ∀ a, (![18, 0, 0] : Fin 3 → Nat) a + S1x64x64.size a ≤ S20x64x64.size a
  slices_S5000x20_o0_18_S5000x1 : S5000x20.Slices ![0, 18] S5000x1
  inb_S20x64x64_S1x64x64_19_0_0 : ∀ a, (![19, 0, 0] : Fin 3 → Nat) a + S1x64x64.size a ≤ S20x64x64.size a
  slices_S5000x20_o0_19_S5000x1 : S5000x20.Slices ![0, 19] S5000x1
  inb_S5000x4x64_S5000x1x64_0_0_0 : ∀ a, (![0, 0, 0] : Fin 3 → Nat) a + S5000x1x64.size a ≤ S5000x4x64.size a
  h_S5000x1x64 : 0 < S5000x1x64.numel
  shapeCasts_S5000x1x64_S5000x64 : S5000x1x64.ShapeCasts S5000x64
  shapeCasts_S5000x64_S5000x1x64 : S5000x64.ShapeCasts S5000x1x64
  slices_S5000x3_o0_0_S5000x1 : S5000x3.Slices ![0, 0] S5000x1
  inb_S5000x4x64_S5000x1x64_0_1_0 : ∀ a, (![0, 1, 0] : Fin 3 → Nat) a + S5000x1x64.size a ≤ S5000x4x64.size a
  slices_S5000x3_o0_1_S5000x1 : S5000x3.Slices ![0, 1] S5000x1
  inb_S5000x4x64_S5000x1x64_0_2_0 : ∀ a, (![0, 2, 0] : Fin 3 → Nat) a + S5000x1x64.size a ≤ S5000x4x64.size a
  slices_S5000x3_o0_2_S5000x1 : S5000x3.Slices ![0, 2] S5000x1
  inb_S5000x4x64_S5000x1x64_0_3_0 : ∀ a, (![0, 3, 0] : Fin 3 → Nat) a + S5000x1x64.size a ≤ S5000x4x64.size a
  shapeCasts_S50000x4x64_S50000x256 : S50000x4x64.ShapeCasts S50000x256
  bcast_S_S8000x256 : S_.BroadcastsInDim S8000x256 (![] : Fin 0 → Fin S8000x256.rank)
  shapeCasts_S8000x256_S8000x4x64 : S8000x256.ShapeCasts S8000x4x64
  slices_S8000x4x64_S8000x1x64_0_0_0 : S8000x4x64.Slices ![0, 0, 0] S8000x1x64
  shapeCasts_S8000x1x64_S8000x64 : S8000x1x64.ShapeCasts S8000x64
  slices_S8000x4x64_S8000x3x64_0_1_0 : S8000x4x64.Slices ![0, 1, 0] S8000x3x64
  reducesTo_S8000x3x64_S8000x64_d1 : S8000x3x64.ReducesTo [1] S8000x64
  h_S_ : 0 < S_.numel
  bcast_S_S8000x64 : S_.BroadcastsInDim S8000x64 (![] : Fin 0 → Fin S8000x64.rank)
  bcast_S64_S1x64_1 : S64.BroadcastsInDim S1x64 (![1] : Fin 1 → Fin S1x64.rank)
  bcast_S1x64_S8000x64_0_1 : S1x64.BroadcastsInDim S8000x64 (![0, 1] : Fin 2 → Fin S8000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S8000x64_S50000x1_S50000x64_1_0_n_n_0_1_164_wf : GatherDims.WF S8000x64 S50000x1 S50000x64 [1] [0] [] [0] [] 1 ![1, 64]
  dot_S5000x64_S64x64_S5000x64_1_0_0_1_n_n_wf : DotDims.WF S5000x64 S64x64 S5000x64 [1] [0] [0] [1] [] []
  scatter_S8000x256_S50000x1_S50000x256_1_0_0_1_wf : ScatterDims.WF S8000x256 S50000x1 S50000x256 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S50000x3.size a
  hwx0_2 : ∀ i : grid0.Coords, EltTy.bits .f32 = 32 ∨ (Rect.block (s := S50000x3) S5000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x64x64.size a ≤ S20x64x64.size a
  hwx0_5 : ∀ i : grid0.Coords, EltTy.bits .f32 = 32 ∨ (Rect.block (s := S20x64x64) S20x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x4x64.size a ≤ S50000x4x64.size a
  hwx0_6 : ∀ i : grid0.Coords, EltTy.bits .f32 = 32 ∨ (Rect.block (s := S50000x4x64) S5000x4x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S8000x64.size a
  hwx1_0 : ∀ i : grid1.Coords, EltTy.bits .f32 = 32 ∨ (Rect.block (s := S8000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S8000x64.size a
  hwx1_3 : ∀ i : grid1.Coords, EltTy.bits .f32 = 32 ∨ (Rect.block (s := S8000x64) S2000x64.size (cc1_transform_3 i) (hinb1_3 i)).WholeWords (EltTy.packing .f32)

variable [Facts₀]

def gather_S8000x64_S50000x1_S50000x64_1_0_n_n_0_1_164 : GatherDims S8000x64 S50000x1 S50000x64 where
  offsetDims := [1]
  collapsedSliceDims := [0]
  operandBatchingDims := []
  startIndicesBatchingDims := []
  startIndexMap := [0]
  indexVectorDim := 1
  sliceSizes := ![1, 64]
  wf := gather_S8000x64_S50000x1_S50000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S8000x256_S50000x1_S50000x256_1_0_0_1 : ScatterDims S8000x256 S50000x1 S50000x256 where
  updateWindowDims := [1]
  insertedWindowDims := [0]
  scatterDimsToOperandDims := [0]
  indexVectorDim := 1
  wf := scatter_S8000x256_S50000x1_S50000x256_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S20x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x4x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8000x64 : Shape := ⟨2, ![8000, 64]⟩
abbrev S50000 : Shape := ⟨1, ![50000]⟩
abbrev S50000x3 : Shape := ⟨2, ![50000, 3]⟩
abbrev S20x64x64 : Shape := ⟨3, ![20, 64, 64]⟩
abbrev S64x64 : Shape := ⟨2, ![64, 64]⟩
abbrev S64 : Shape := ⟨1, ![64]⟩
abbrev S20 : Shape := ⟨1, ![20]⟩
abbrev S50000x1 : Shape := ⟨2, ![50000, 1]⟩
abbrev S_ : Shape := ⟨0, ![]⟩
abbrev S1x20 : Shape := ⟨2, ![1, 20]⟩
abbrev S50000x20 : Shape := ⟨2, ![50000, 20]⟩
abbrev S50000x1x20 : Shape := ⟨3, ![50000, 1, 20]⟩
abbrev S50000x3x1 : Shape := ⟨3, ![50000, 3, 1]⟩
abbrev S50000x3x20 : Shape := ⟨3, ![50000, 3, 20]⟩
abbrev S50000x60 : Shape := ⟨2, ![50000, 60]⟩
abbrev S50000x80 : Shape := ⟨2, ![50000, 80]⟩
abbrev S50000x64 : Shape := ⟨2, ![50000, 64]⟩
abbrev S50000x80x1 : Shape := ⟨3, ![50000, 80, 1]⟩
abbrev S50000x1x64 : Shape := ⟨3, ![50000, 1, 64]⟩
abbrev S50000x80x64 : Shape := ⟨3, ![50000, 80, 64]⟩
abbrev S8000x80x64 : Shape := ⟨3, ![8000, 80, 64]⟩
abbrev S8000x4x20x64 : Shape := ⟨4, ![8000, 4, 20, 64]⟩
abbrev S8000x1x20x64 : Shape := ⟨4, ![8000, 1, 20, 64]⟩
abbrev S8000x20x64 : Shape := ⟨3, ![8000, 20, 64]⟩
abbrev S8000x1280 : Shape := ⟨2, ![8000, 1280]⟩
abbrev S8000x3x20x64 : Shape := ⟨4, ![8000, 3, 20, 64]⟩
abbrev S24000x1280 : Shape := ⟨2, ![24000, 1280]⟩
abbrev S1280x64 : Shape := ⟨2, ![1280, 64]⟩
abbrev S24000x64 : Shape := ⟨2, ![24000, 64]⟩
abbrev S8000x3x64 : Shape := ⟨3, ![8000, 3, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S8000x64, .f32⟩
  | .hbm, ⟨1, _⟩ => ⟨S50000, .f32⟩
  | .hbm, ⟨2, _⟩ => ⟨S50000x3, .f32⟩
  | .hbm, ⟨3, _⟩ => ⟨S20x64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S20, .f32⟩
  | .hbm, ⟨8, _⟩ => ⟨S20, .f32⟩
  | .hbm, ⟨9, _⟩ => ⟨S50000, .i32⟩
  | .hbm, ⟨10, _⟩ => ⟨S50000, .i32⟩
  | .hbm, ⟨11, _⟩ => ⟨S50000x1, .f32⟩
  | .hbm, ⟨12, _⟩ => ⟨S_, .f32⟩
  | .hbm, ⟨13, _⟩ => ⟨S50000x1, .f32⟩
  | .hbm, ⟨14, _⟩ => ⟨S50000x1, .f32⟩
  | .hbm, ⟨15, _⟩ => ⟨S1x20, .f32⟩
  | .hbm, ⟨16, _⟩ => ⟨S50000x20, .f32⟩
  | .hbm, ⟨17, _⟩ => ⟨S50000x20, .f32⟩
  | .hbm, ⟨18, _⟩ => ⟨S50000x20, .f32⟩
  | .hbm, ⟨19, _⟩ => ⟨S1x20, .f32⟩
  | .hbm, ⟨20, _⟩ => ⟨S50000x20, .f32⟩
  | .hbm, ⟨21, _⟩ => ⟨S50000x20, .f32⟩
  | .hbm, ⟨22, _⟩ => ⟨S50000x20, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S50000x20, .f32⟩
  | .hbm, ⟨40, _⟩ => ⟨S50000x20, .f32⟩
  | .hbm, ⟨41, _⟩ => ⟨S50000x20, .f32⟩
  | .hbm, ⟨42, _⟩ => ⟨S50000x1, .f32⟩
  | .hbm, ⟨43, _⟩ => ⟨S50000x20, .f32⟩
  | .hbm, ⟨44, _⟩ => ⟨S50000x20, .f32⟩
  | .hbm, ⟨45, _⟩ => ⟨S50000x1, .f32⟩
  | .hbm, ⟨46, _⟩ => ⟨S50000x3, .f32⟩
  | .hbm, ⟨47, _⟩ => ⟨S50000x3, .f32⟩
  | .hbm, ⟨48, _⟩ => ⟨S50000x1x20, .f32⟩
  | .hbm, ⟨49, _⟩ => ⟨S50000x3x1, .f32⟩
  | .hbm, ⟨50, _⟩ => ⟨S50000x3x20, .f32⟩
  | .hbm, ⟨51, _⟩ => ⟨S50000x3x20, .f32⟩
  | .hbm, ⟨52, _⟩ => ⟨S50000x3x20, .f32⟩
  | .hbm, ⟨53, _⟩ => ⟨S50000x60, .f32⟩
  | .hbm, ⟨54, _⟩ => ⟨S50000x80, .f32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S50000x64, .f32⟩
  | .hbm, ⟨64, _⟩ => ⟨S50000x80x1, .f32⟩
  | .hbm, ⟨65, _⟩ => ⟨S50000x1x64, .f32⟩
  | .hbm, ⟨66, _⟩ => ⟨S50000x80x64, .f32⟩
  | .hbm, ⟨67, _⟩ => ⟨S50000x80x64, .f32⟩
  | .hbm, ⟨68, _⟩ => ⟨S50000x80x64, .f32⟩
  | .hbm, ⟨69, _⟩ => ⟨S_, .f32⟩
  | .hbm, ⟨70, _⟩ => ⟨S8000x80x64, .f32⟩
  | .hbm, ⟨71, _⟩ => ⟨S50000x1, .i32⟩
  | .hbm, ⟨72, _⟩ => ⟨S8000x80x64, .f32⟩
  | .hbm, ⟨73, _⟩ => ⟨S8000x4x20x64, .f32⟩
  | .hbm, ⟨74, _⟩ => ⟨S8000x1x20x64, .f32⟩
  | .hbm, ⟨75, _⟩ => ⟨S8000x20x64, .f32⟩
  | .hbm, ⟨76, _⟩ => ⟨S8000x1280, .f32⟩
  | .hbm, ⟨77, _⟩ => ⟨S8000x3x20x64, .f32⟩
  | .hbm, ⟨78, _⟩ => ⟨S24000x1280, .f32⟩
  | .hbm, ⟨79, _⟩ => ⟨S20x64x64, .f32⟩
  | .hbm, ⟨80, _⟩ => ⟨S1280x64, .f32⟩
  | .hbm, ⟨81, _⟩ => ⟨S8000x64, .f32⟩
  | .hbm, ⟨82, _⟩ => ⟨S24000x64, .f32⟩
  | .hbm, ⟨83, _⟩ => ⟨S8000x3x64, .f32⟩
  | .hbm, ⟨84, _⟩ => ⟨S8000x3x64, .f32⟩
  | .hbm, ⟨85, _⟩ => ⟨S_, .f32⟩
  | .hbm, ⟨86, _⟩ => ⟨S8000x64, .f32⟩
  | .hbm, ⟨87, _⟩ => ⟨S_, .f32⟩
  | .hbm, ⟨88, _⟩ => ⟨S8000x64, .f32⟩
  | .hbm, ⟨89, _⟩ => ⟨S8000x64, .f32⟩
  | .hbm, ⟨90, _⟩ => ⟨S8000x64, .f32⟩
  | .hbm, ⟨91, _⟩ => ⟨S1x64, .f32⟩
  | .hbm, ⟨92, _⟩ => ⟨S8000x64, .f32⟩
  | .hbm, ⟨93, _⟩ => ⟨S8000x64, .f32⟩
  | .hbm, ⟨94, _⟩ => ⟨S64x64, .f32⟩
  | .hbm, ⟨95, _⟩ => ⟨S8000x64, .f32⟩
  | .hbm, ⟨96, _⟩ => ⟨S1x64, .f32⟩
  | .hbm, ⟨97, _⟩ => ⟨S8000x64, .f32⟩
  | .hbm, ⟨98, _⟩ => ⟨S8000x64, .f32⟩
  | .hbm, ⟨99, _⟩ => ⟨S8000x64, .f32⟩
  | .hbm, ⟨100, _⟩ => ⟨S8000x64, .f32⟩
  | _, _ => ⟨S8000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S20_S1x20_1 : S20.BroadcastsInDim S1x20 (![1] : Fin 1 → Fin S1x20.rank)
  bcast_S50000x1_S50000x20_0_1 : S50000x1.BroadcastsInDim S50000x20 (![0, 1] : Fin 2 → Fin S50000x20.rank)
  bcast_S1x20_S50000x20_0_1 : S1x20.BroadcastsInDim S50000x20 (![0, 1] : Fin 2 → Fin S50000x20.rank)
  bcast_S_S50000 : S_.BroadcastsInDim S50000 (![] : Fin 0 → Fin S50000.rank)
  bcast_S_S50000x20 : S_.BroadcastsInDim S50000x20 (![] : Fin 0 → Fin S50000x20.rank)
  bcast_S50000x1_S50000x3_0_1 : S50000x1.BroadcastsInDim S50000x3 (![0, 1] : Fin 2 → Fin S50000x3.rank)
  bcast_S50000x20_S50000x1x20_0_2 : S50000x20.BroadcastsInDim S50000x1x20 (![0, 2] : Fin 2 → Fin S50000x1x20.rank)
  bcast_S50000x3_S50000x3x1_0_1 : S50000x3.BroadcastsInDim S50000x3x1 (![0, 1] : Fin 2 → Fin S50000x3x1.rank)
  bcast_S50000x1x20_S50000x3x20_0_1_2 : S50000x1x20.BroadcastsInDim S50000x3x20 (![0, 1, 2] : Fin 3 → Fin S50000x3x20.rank)
  bcast_S50000x3x1_S50000x3x20_0_1_2 : S50000x3x1.BroadcastsInDim S50000x3x20 (![0, 1, 2] : Fin 3 → Fin S50000x3x20.rank)
  shapeCasts_S50000x3x20_S50000x60 : S50000x3x20.ShapeCasts S50000x60
  concatenates_S50000x20_S50000x60_S50000x80_d1 : Shape.Concatenates [S50000x20, S50000x60] S50000x80 1
  bcast_S50000x80_S50000x80x1_0_1 : S50000x80.BroadcastsInDim S50000x80x1 (![0, 1] : Fin 2 → Fin S50000x80x1.rank)
  bcast_S50000x64_S50000x1x64_0_2 : S50000x64.BroadcastsInDim S50000x1x64 (![0, 2] : Fin 2 → Fin S50000x1x64.rank)
  bcast_S50000x80x1_S50000x80x64_0_1_2 : S50000x80x1.BroadcastsInDim S50000x80x64 (![0, 1, 2] : Fin 3 → Fin S50000x80x64.rank)
  bcast_S50000x1x64_S50000x80x64_0_1_2 : S50000x1x64.BroadcastsInDim S50000x80x64 (![0, 1, 2] : Fin 3 → Fin S50000x80x64.rank)
  bcast_S_S8000x80x64 : S_.BroadcastsInDim S8000x80x64 (![] : Fin 0 → Fin S8000x80x64.rank)
  shapeCasts_S8000x80x64_S8000x4x20x64 : S8000x80x64.ShapeCasts S8000x4x20x64
  slices_S8000x4x20x64_S8000x1x20x64_0_0_0_0 : S8000x4x20x64.Slices ![0, 0, 0, 0] S8000x1x20x64
  shapeCasts_S8000x1x20x64_S8000x20x64 : S8000x1x20x64.ShapeCasts S8000x20x64
  shapeCasts_S8000x20x64_S8000x1280 : S8000x20x64.ShapeCasts S8000x1280
  slices_S8000x4x20x64_S8000x3x20x64_0_1_0_0 : S8000x4x20x64.Slices ![0, 1, 0, 0] S8000x3x20x64
  shapeCasts_S8000x3x20x64_S24000x1280 : S8000x3x20x64.ShapeCasts S24000x1280
  transposes_S20x64x64_S20x64x64_0_2_1 : S20x64x64.Transposes [0, 2, 1] S20x64x64
  shapeCasts_S20x64x64_S1280x64 : S20x64x64.ShapeCasts S1280x64
  shapeCasts_S24000x64_S8000x3x64 : S24000x64.ShapeCasts S8000x3x64
  reducesTo_S8000x3x64_S8000x64_d1 : S8000x3x64.ReducesTo [1] S8000x64
  h_S_ : 0 < S_.numel
  bcast_S_S8000x64 : S_.BroadcastsInDim S8000x64 (![] : Fin 0 → Fin S8000x64.rank)
  bcast_S64_S1x64_1 : S64.BroadcastsInDim S1x64 (![1] : Fin 1 → Fin S1x64.rank)
  bcast_S1x64_S8000x64_0_1 : S1x64.BroadcastsInDim S8000x64 (![0, 1] : Fin 2 → Fin S8000x64.rank)
  transposes_S64x64_S64x64_1_0 : S64x64.Transposes [1, 0] S64x64
  gather_S8000x64_S50000x1_S50000x64_1_0_n_n_0_1_164_wf : GatherDims.WF S8000x64 S50000x1 S50000x64 [1] [0] [] [0] [] 1 ![1, 64]
  scatter_S8000x80x64_S50000x1_S50000x80x64_12_0_0_1_wf : ScatterDims.WF S8000x80x64 S50000x1 S50000x80x64 [1, 2] [0] [0] 1
  dot_S8000x1280_S1280x64_S8000x64_1_0_0_1_n_n_wf : DotDims.WF S8000x1280 S1280x64 S8000x64 [1] [0] [0] [1] [] []
  dot_S24000x1280_S1280x64_S24000x64_1_0_0_1_n_n_wf : DotDims.WF S24000x1280 S1280x64 S24000x64 [1] [0] [0] [1] [] []
  dot_S8000x64_S64x64_S8000x64_1_0_0_1_n_n_wf : DotDims.WF S8000x64 S64x64 S8000x64 [1] [0] [0] [1] [] []

variable [Facts₀]

def gather_S8000x64_S50000x1_S50000x64_1_0_n_n_0_1_164 : GatherDims S8000x64 S50000x1 S50000x64 where
  offsetDims := [1]
  collapsedSliceDims := [0]
  operandBatchingDims := []
  startIndicesBatchingDims := []
  startIndexMap := [0]
  indexVectorDim := 1
  sliceSizes := ![1, 64]
  wf := gather_S8000x64_S50000x1_S50000x64_1_0_n_n_0_1_164_wf
def scatter_S8000x80x64_S50000x1_S50000x80x64_12_0_0_1 : ScatterDims S8000x80x64 S50000x1 S50000x80x64 where
  updateWindowDims := [1, 2]
  insertedWindowDims := [0]
  scatterDimsToOperandDims := [0]
  indexVectorDim := 1
  wf := scatter_S8000x80x64_S50000x1_S50000x80x64_12_0_0_1_wf
def dot_S8000x1280_S1280x64_S8000x64_1_0_0_1_n_n : DotDims S8000x1280 S1280x64 S8000x64 where
  lhsContracting := [1]
  rhsContracting := [0]
  lhsNonContracting := [0]
  rhsNonContracting := [1]
  lhsBatch := []
  rhsBatch := []
  wf := dot_S8000x1280_S1280x64_S8000x64_1_0_0_1_n_n_wf
def dot_S24000x1280_S1280x64_S24000x64_1_0_0_1_n_n : DotDims S24000x1280 S1280x64 S24000x64 where
  lhsContracting := [1]
  rhsContracting := [0]
  lhsNonContracting := [0]
  rhsNonContracting := [1]
  lhsBatch := []
  rhsBatch := []
  wf := dot_S24000x1280_S1280x64_S24000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

class Facts : Prop extends Facts₀ where

variable [Facts]
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.KernelEntry.lean ====
/-
  What the two regions of the kernel program find in their input arrays, read at an index, in terms of the launch
  memory. Before the first region the host wraps the source indices (a negative index has 8000 added), gathers the
  source atoms' feature rows, and lays the distances, the bin centres and the bin widths out as a column and two
  rows; the coordinates and the bins' matrices are passed as launched. Before the second region the self bias is
  laid out as a row; the features and the self matrix are passed as launched (the first region writes neither).
-/
import proofs.«170788_j3307124818155_1_alg».proof.Proof.Gen.KernelIdeal.Frame
import proofs.«170788_j3307124818155_1_alg».proof.Proof.LibRowGatherScatter
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The wrapped source index as a column: a negative index has the row count 8000 added, and the vector is laid out
    as a `[50000, 1]` column. -/
def idxCol (x10 : IVec S50000 32) : IVec S50000x1 32 :=
  broadcastInDim S50000x1 ![0] bcast_S50000_S50000x1_0
    (select (cmpi .slt x10 (broadcastInDim S50000 ![] bcast_S_S50000 (constantI S_ 32 0#32)))
      (addi x10 (broadcastInDim S50000 ![] bcast_S_S50000 (constantI S_ 32 8000#32))) x10)

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ### Region 0's input arrays -/

/-- The gathered features: the rows of the feature matrix at the wrapped source indices. -/
theorem V1_v6_eq : (V1 m ρ c main_v6 : S50000x64.Idx → EReal)
    = Host.gather gather_S8000x64_S50000x1_S50000x64_1_0_n_n_0_1_164
        (m ((c.tc : Thread nD τ).loc main_arg0) : S8000x64.Idx → EReal)
        (idxCol (m ((c.tc : Thread nD τ).loc main_arg10))) := by
  dsimp only [V1, W1, hostOps0]
  after_results
  rfl

/-- Row `p` of the gathered features is the feature row of the pair's source atom. -/
theorem V1_v6 (p : Fin 50000) (j : Fin 64) :
    (V1 m ρ c main_v6 : S50000x64.Idx → EReal) (ix2 p j)
      = (m ((c.tc : Thread nD τ).loc main_arg0) : S8000x64.Idx → EReal)
          (ix2 (Cert.RowOps.gatherRow (by decide : 0 < 8000) (idxCol (m ((c.tc : Thread nD τ).loc main_arg10))) p) j) :=
  (congrFun (V1_v6_eq m ρ c) (ix2 p j)).trans
    (Cert.RowOps.rowGather_apply (N := 8000) (E := 50000) (C := 64) (by decide)
      gather_S8000x64_S50000x1_S50000x64_1_0_n_n_0_1_164_wf _ _ p j)

/-- The distances as a column. -/
theorem V1_v7_eq : (V1 m ρ c main_v7 : S50000x1.Idx → EReal)
    = shapeCast S50000x1 (m ((c.tc : Thread nD τ).loc main_arg1) : S50000.Idx → EReal) shapeCasts_S50000_S50000x1 := by
  dsimp only [V1, W1, hostOps0]
  after_results
  rfl

theorem V1_v7 (p : Fin 50000) :
    (V1 m ρ c main_v7 : S50000x1.Idx → EReal) (ix2 p 0)
      = (m ((c.tc : Thread nD τ).loc main_arg1) : S50000.Idx → EReal) (ix1 p) :=
  (congrFun (V1_v7_eq m ρ c) (ix2 p 0)).trans (shapeCast_a_a1_apply _ _ p 0)

/-- The bin centres as a row. -/
theorem V1_v8_eq : (V1 m ρ c main_v8 : S1x20.Idx → EReal)
    = shapeCast S1x20 (m ((c.tc : Thread nD τ).loc main_arg7) : S20.Idx → EReal) shapeCasts_S20_S1x20 := by
  dsimp only [V1, W1, hostOps0]
  after_results
  rfl

theorem V1_v8 (s : Fin 20) :
    (V1 m ρ c main_v8 : S1x20.Idx → EReal) (ix2 0 s)
      = (m ((c.tc : Thread nD τ).loc main_arg7) : S20.Idx → EReal) (ix1 s) :=
  (congrFun (V1_v8_eq m ρ c) (ix2 0 s)).trans (shapeCast_a_1a_apply _ _ 0 s)

/-- The bin widths as a row. -/
theorem V1_v9_eq : (V1 m ρ c main_v9 : S1x20.Idx → EReal)
    = shapeCast S1x20 (m ((c.tc : Thread nD τ).loc main_arg8) : S20.Idx → EReal) shapeCasts_S20_S1x20 := by
  dsimp only [V1, W1, hostOps0]
  after_results
  rfl

theorem V1_v9 (s : Fin 20) :
    (V1 m ρ c main_v9 : S1x20.Idx → EReal) (ix2 0 s)
      = (m ((c.tc : Thread nD τ).loc main_arg8) : S20.Idx → EReal) (ix1 s) :=
  (congrFun (V1_v9_eq m ρ c) (ix2 0 s)).trans (shapeCast_a_1a_apply _ _ 0 s)

/-- The coordinates and the bins' matrices are the launch arrays. -/
theorem V1_arg2 : V1 m ρ c main_arg2 = m ((c.tc : Thread nD τ).loc main_arg2) := by
  dsimp only [V1, W1, hostOps0]
  after_results

theorem V1_arg3 : V1 m ρ c main_arg3 = m ((c.tc : Thread nD τ).loc main_arg3) := by
  dsimp only [V1, W1, hostOps0]
  after_results

/-! ### Region 1's input arrays -/

/-- The features and the self matrix are the launch arrays: no host operation and no window of region 0 writes them. -/
theorem V3_arg0 : V3 m ρ c main_arg0 = m ((c.tc : Thread nD τ).loc main_arg0) := by
  have e3 : V3 m ρ c main_arg0 = W2 m ρ c (Proc.devRef .tc main_arg0) := by
    dsimp only [V3, W3, hostOps1]
    after_results
  have e1 : W1 m ρ c (Proc.devRef .tc main_arg0) = m ((c.tc : Thread nD τ).loc main_arg0) := by
    dsimp only [W1, hostOps0]
    after_results
  exact e3.trans ((W2_of_ne m ρ c main_arg0 (by decide)).trans e1)

theorem V3_arg4 : V3 m ρ c main_arg4 = m ((c.tc : Thread nD τ).loc main_arg4) := by
  have e3 : V3 m ρ c main_arg4 = W2 m ρ c (Proc.devRef .tc main_arg4) := by
    dsimp only [V3, W3, hostOps1]
    after_results
  have e1 : W1 m ρ c (Proc.devRef .tc main_arg4) = m ((c.tc : Thread nD τ).loc main_arg4) := by
    dsimp only [W1, hostOps0]
    after_results
  exact e3.trans ((W2_of_ne m ρ c main_arg4 (by decide)).trans e1)

/-- The self bias as a row. -/
theorem V3_v27_eq : (V3 m ρ c main_v27 : S1x64.Idx → EReal)
    = shapeCast S1x64 (m ((c.tc : Thread nD τ).loc main_arg5) : S64.Idx → EReal) shapeCasts_S64_S1x64 := by
  have e3 : (V3 m ρ c main_v27 : S1x64.Idx → EReal)
      = shapeCast S1x64 (W2 m ρ c (Proc.devRef .tc main_arg5) : S64.Idx → EReal) shapeCasts_S64_S1x64 := by
    dsimp only [V3, W3, hostOps1]
    after_results
    rfl
  have e1 : W1 m ρ c (Proc.devRef .tc main_arg5) = m ((c.tc : Thread nD τ).loc main_arg5) := by
    dsimp only [W1, hostOps0]
    after_results
  rw [e3, W2_of_ne m ρ c main_arg5 (by decide), e1]

theorem V3_v27 (o : Fin 64) :
    (V3 m ρ c main_v27 : S1x64.Idx → EReal) (ix2 0 o)
      = (m ((c.tc : Thread nD τ).loc main_arg5) : S64.Idx → EReal) (ix1 o) :=
  (congrFun (V3_v27_eq m ρ c) (ix2 0 o)).trans (shapeCast_a_1a_apply _ _ 0 o)

end Cert.KernelIdeal.Entry

end
-- ==== Proof.Spec.lean ====
/-
  One interaction layer on atom pairs, as plain functions of the inputs.

  A pair `p` at distance `d` has, for each of 20 distance bins with centre `mu s` and width `sg s`, the sensitivity
  `sens d (mu s) (sg s)` = exp(-(1/2) ((1/d - mu)/sg)^2) times a cosine cut-off that vanishes from 5.5 on, and the unit
  vector `coord / d`. The source atom's 64 features, mixed by the bins' weight matrices and scaled by the sensitivities,
  are added up at the pair's target atom — once as they are and once per component of the unit vector; an atom's
  result is the scalar sum, plus the length of the three vector sums (regularised) times a per-channel scale, plus
  a dense self term.

  Two arrangements of that sum are stated here. The first mixes each pair's features first and adds the mixed rows
  (`envK`); the second adds the outer products sensitivity × feature and mixes the sums (`mixedEnv`). They agree when
  the inputs are real numbers (Proof/Algebra.lean): the sensitivities are then real, and a pair at distance 0,
  whose unit vector is infinite, has every sensitivity 0.
-/
import Idealize.ShloMosaic.Lib.ValueIdx
import Idealize.ShloMosaic.PureOps.Ideal
import Idealize.ShloMosaic.PureOps.Ideal.Laws

noncomputable section

open scoped BigOperators

namespace Cert.Interact

open Idealize.ShloMosaic

/-- The sensitivity of a pair at distance `d` in the bin with centre `mu` and width `sg`:
    exp(-(1/2) q²) · cut(d), q = (1/d − mu)/sg, cut(d) = cos²((π/2)·d / 5.5) below 5.5 and 0 from there on
    (the constants are the programs' f32 words for 1, −1/2, π/2, 5.5 and 0). -/
def sens (d mu sg : EReal) : EReal :=
  Ideal.exp (Ideal.ofBits .f32 0xBF000000#32 *
      (Ideal.div (Ideal.div (Ideal.ofBits .f32 0x3F800000#32) d - mu) sg *
        Ideal.div (Ideal.div (Ideal.ofBits .f32 0x3F800000#32) d - mu) sg))
    * Scalar.select (Ideal.cmp .olt d (Ideal.ofBits .f32 0x40B00000#32))
        (Ideal.cos (Ideal.div (Ideal.ofBits .f32 0x3FC90FDB#32 * d) (Ideal.ofBits .f32 0x40B00000#32)) *
          Ideal.cos (Ideal.div (Ideal.ofBits .f32 0x3FC90FDB#32 * d) (Ideal.ofBits .f32 0x40B00000#32)))
        (Ideal.ofBits .f32 0x00000000#32)

/-- A pair's features `f` mixed by the bins' matrices and weighted by the sensitivities:
    `∑ s, sens d (mu s) (sg s) · ∑ j, f j · W s o j`. -/
def mix (f : Fin 64 → EReal) (d : EReal) (mu sg : Fin 20 → EReal) (W : Fin 20 → Fin 64 → Fin 64 → EReal)
    (o : Fin 64) : EReal :=
  ∑ s : Fin 20, sens d (mu s) (sg s) * ∑ j : Fin 64, f j * W s o j

/-- What one pair contributes to its target atom, mixed first: channel 0 the mixed row, channels 1, 2, 3 the mixed row
    times the components of the unit vector `c3 / d`. -/
def stackedRow (f : Fin 64 → EReal) (d : EReal) (c3 : Fin 3 → EReal) (mu sg : Fin 20 → EReal)
    (W : Fin 20 → Fin 64 → Fin 64 → EReal) (kk : Fin 4) (o : Fin 64) : EReal :=
  Fin.cases (mix f d mu sg W o) (fun k => mix f d mu sg W o * Ideal.div (c3 k) d) kk

/-- The sum, over the pairs `p` whose target `tgt p` is the atom `a`, of the pairs' rows `stk p kk o`, onto zero. -/
def envK (stk : Fin 50000 → Fin 4 → Fin 64 → EReal) (tgt : Fin 50000 → Int) (a : Fin 8000) (kk : Fin 4)
    (o : Fin 64) : EReal :=
  Ideal.ofBits .f32 0x00000000#32
    + ∑ p ∈ Finset.univ.filter (fun p : Fin 50000 => tgt p = (a.val : Int)), stk p kk o

/-- The sensitivity of a pair in bin `s`, in channel 0 as it is and in channels 1, 2, 3 times the unit vector's
    components. -/
def rho (d : EReal) (c3 : Fin 3 → EReal) (mu sg : Fin 20 → EReal) (kk : Fin 4) (s : Fin 20) : EReal :=
  Fin.cases (sens d (mu s) (sg s)) (fun k => sens d (mu s) (sg s) * Ideal.div (c3 k) d) kk

/-- The outer products sensitivity × source feature added up at the target atom, onto zero. -/
def envR (x : Fin 8000 → Fin 64 → EReal) (dist : Fin 50000 → EReal) (coord : Fin 50000 → Fin 3 → EReal)
    (mu sg : Fin 20 → EReal) (src : Fin 50000 → Fin 8000) (tgt : Fin 50000 → Int)
    (a : Fin 8000) (kk : Fin 4) (s : Fin 20) (j : Fin 64) : EReal :=
  Ideal.ofBits .f32 0x00000000#32
    + ∑ p ∈ Finset.univ.filter (fun p : Fin 50000 => tgt p = (a.val : Int)),
        rho (dist p) (coord p) mu sg kk s * x (src p) j

/-- Those sums mixed by the bins' matrices: `∑ s, ∑ j, envR a kk s j · W s o j`. -/
def mixedEnv (x : Fin 8000 → Fin 64 → EReal) (dist : Fin 50000 → EReal) (coord : Fin 50000 → Fin 3 → EReal)
    (W : Fin 20 → Fin 64 → Fin 64 → EReal) (mu sg : Fin 20 → EReal) (src : Fin 50000 → Fin 8000)
    (tgt : Fin 50000 → Int) (a : Fin 8000) (kk : Fin 4) (o : Fin 64) : EReal :=
  ∑ s : Fin 20, ∑ j : Fin 64, envR x dist coord mu sg src tgt a kk s j * W s o j

/-- The dense self term of an atom with features `xa`: `∑ j, xa j · sw o j + sb o`. -/
def selfRow (xa : Fin 64 → EReal) (sw : Fin 64 → Fin 64 → EReal) (sb : Fin 64 → EReal) (o : Fin 64) : EReal :=
  (∑ j : Fin 64, xa j * sw o j) + sb o

/-- An atom's result in one channel from its four sums `e`: the scalar sum, plus the regularised length of the three
    vector sums times the channel's scale, plus the self term (the constants are the f32 words for 0 and 1e-30). -/
def outOf (e : Fin 4 → EReal) (vsO selfO : EReal) : EReal :=
  (e 0 + Ideal.sqrt ((Ideal.ofBits .f32 0x00000000#32 + ∑ k : Fin 3, e k.succ * e k.succ)
      + Ideal.ofBits .f32 0x0DA24260#32) * vsO) + selfO

/-- The layer, each pair's features mixed before the sum over pairs. -/
def resultK (x : Fin 8000 → Fin 64 → EReal) (dist : Fin 50000 → EReal) (coord : Fin 50000 → Fin 3 → EReal)
    (W : Fin 20 → Fin 64 → Fin 64 → EReal) (sw : Fin 64 → Fin 64 → EReal) (sb vs : Fin 64 → EReal)
    (mu sg : Fin 20 → EReal) (src : Fin 50000 → Fin 8000) (tgt : Fin 50000 → Int)
    (a : Fin 8000) (o : Fin 64) : EReal :=
  outOf (fun kk => envK (fun p => stackedRow (x (src p)) (dist p) (coord p) mu sg W) tgt a kk o) (vs o)
    (selfRow (x a) sw sb o)

/-- The layer, the outer products summed over pairs before they are mixed. -/
def resultR (x : Fin 8000 → Fin 64 → EReal) (dist : Fin 50000 → EReal) (coord : Fin 50000 → Fin 3 → EReal)
    (W : Fin 20 → Fin 64 → Fin 64 → EReal) (sw : Fin 64 → Fin 64 → EReal) (sb vs : Fin 64 → EReal)
    (mu sg : Fin 20 → EReal) (src : Fin 50000 → Fin 8000) (tgt : Fin 50000 → Int)
    (a : Fin 8000) (o : Fin 64) : EReal :=
  outOf (fun kk => mixedEnv x dist coord W mu sg src tgt a kk o) (vs o) (selfRow (x a) sw sb o)

end Cert.Interact

end
-- ==== Proof.PairBodyLayout.lean ====
/-
  Index lemmas for the pair kernel, over plain shapes.

  A column repeated along the second axis read at (p, c) is the column's entry (p, 0). The exponential, the cosine and
  a comparison of vectors act entry by entry. A [1, b, c] slab loaded from position k of the leading axis of an
  [n, b, c] array reads, at (0, i, j), the array at (k, i, j); an [n, 1, c] slab stored at position k of the middle axis
  of an [n, m, c] array places its entry (i, 0, j) at (i, k, j). A sum over twenty bins is the twenty terms added one
  after another onto zero.
-/
import Idealize.ShloMosaic.Lib.ValueLayout
import Idealize.ShloMosaic.PureOps.Ideal
import Idealize.ShloMosaic.PureOps.Ideal.Laws

noncomputable section

open scoped BigOperators

namespace Cert.KernelIdeal.Body

open Idealize.ShloMosaic Idealize.ShloMosaic.ValueIdx

/-- The zero offsets of a rank-2 whole-block rectangle, as the constant function. -/
theorem zero_off_rank2 : (![0, 0] : Fin 2 → Nat) = fun _ => 0 := funext fun a => by fin_cases a <;> rfl

/-- One column repeated along the second axis ([a, 1] to [a, b]) reads, at (p, c), the column's entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, at an index. -/
theorem exp_apply {s : Shape} {φ : FTy} (a : FVec Ideal s φ) (i : s.Idx) : exp a i = Ideal.exp (a i) := rfl

/-- The cosine of a vector, at an index. -/
theorem cos_apply {s : Shape} {φ : FTy} (a : FVec Ideal s φ) (i : s.Idx) : cos a i = Ideal.cos (a i) := rfl

/-- A comparison of vectors, at an index, at the exact-real instance. -/
theorem cmpf_ideal_apply {s : Shape} {φ : FTy} (p : CmpFPredicate) (a b : FVec Ideal s φ) (i : s.Idx) :
    cmpf p a b i = Ideal.cmp p (a i) (b i) := rfl

/-- A [1, b, c] slab loaded from position k of the leading axis reads, at (0, i, j), the array at (k, i, j). -/
theorem ld_slab_apply {Val : EltTy → Type} {e : EltTy} {n b c : ℕ} (X : (⟨3, ![n, b, c]⟩ : Shape).Idx → Val e) (k : ℕ)
    (inb : ∀ a, (![k, 0, 0] : Fin 3 → ℕ) a + (![1, b, c] : Fin 3 → ℕ) a ≤ (⟨3, ![n, b, c]⟩ : Shape).size a)
    (s : Fin n) (hs : s.val = k) (i : Fin b) (j : Fin c) :
    View.ld X (Rect.unit (s := ⟨3, ![n, b, c]⟩) ![k, 0, 0] ![1, b, c] inb) (ix3 (0 : Fin 1) i j) = X (ix3 s i j) := by
  show X _ = X _
  refine congrArg X (funext fun a => Fin.ext ?_)
  match a with
  | ⟨0, _⟩ => show k + 1 * 0 = s.val; omega
  | ⟨1, _⟩ => show 0 + 1 * i.val = i.val; omega
  | ⟨2, _⟩ => show 0 + 1 * j.val = j.val; omega

/-- An [n, 1, c] slab at position k of the middle axis places its entry (i, u, j) at (i, k, j). -/
theorem emb_mid_slab {n m c : ℕ} (k : ℕ)
    (inb : ∀ a, (![0, k, 0] : Fin 3 → ℕ) a + (![n, 1, c] : Fin 3 → ℕ) a ≤ (⟨3, ![n, m, c]⟩ : Shape).size a)
    (kk : Fin m) (hk : kk.val = k) (i : Fin n) (u : Fin 1) (j : Fin c) :
    (Rect.unit (s := ⟨3, ![n, m, c]⟩) ![0, k, 0] ![n, 1, c] inb).emb (ix3 i u j) = ix3 i kk j := by
  refine funext fun a => Fin.ext ?_
  match a with
  | ⟨0, _⟩ => show 0 + 1 * i.val = i.val; omega
  | ⟨1, _⟩ => show k + 1 * u.val = kk.val; have := u.isLt; omega
  | ⟨2, _⟩ => show 0 + 1 * j.val = j.val; omega

/-- A sum over twenty bins is the twenty terms added one after another onto zero. -/
theorem sum_fin20 {M : Type} [AddCommMonoid M] (f : Fin 20 → M) :
    ∑ s : Fin 20, f s = 0 + f 0 + f 1 + f 2 + f 3 + f 4 + f 5 + f 6 + f 7 + f 8 + f 9 + f 10 + f 11 + f 12 + f 13 + f 14 + f 15 + f 16 + f 17 + f 18 + f 19 := by
  simp only [Fin.sum_univ_castSucc, Fin.sum_univ_zero]
  rfl

end Cert.KernelIdeal.Body

end
-- ==== Proof.PairBodySens.lean ====
/-
  The pair kernel's per-pair quantities, read entry by entry.

  From a pair's distance d (one column), the bins' centres and widths (one row each) and the pair's coordinates, the
  kernel forms: the sensitivities exp(-(1/2) q²) · cut(d) with q = (1/d − mu)/sg, one per bin; the unit vector
  coord / d; and the features as they are (narrowing to bf16 is the identity at the exact-real instance). Each is
  pointwise once a column repeated along the second axis is read at (p, c) as the column's entry (p, 0), and a row
  repeated down the rows as the row's entry (0, c).
-/
import proofs.«170788_j3307124818155_1_alg».proof.Proof.Gen.KernelIdeal.Frame
import proofs.«170788_j3307124818155_1_alg».proof.Proof.Spec
import proofs.«170788_j3307124818155_1_alg».proof.Proof.PairBodyLayout

noncomputable section

namespace Cert.KernelIdeal.Body

open Cert.KernelIdeal Idealize.ShloMosaic Idealize.ShloMosaic.ValueIdx

/-- THE SENSITIVITIES at (r, s): the specification's sensitivity of pair r's distance in bin s. -/
theorem k0_pay7_apply (v2 : Vec Ideal S5000x1 .f32) (v5 v7 : Vec Ideal S1x20 .f32) (r : Fin 5000) (s : Fin 20) :
    Gen.k0_pay7 (F := Ideal) v2 v5 v7 (ix2 r s)
      = Cert.Interact.sens (v2 (ix2 r 0)) (v5 (ix2 0 s)) (v7 (ix2 0 s)) := by
  unfold Gen.k0_pay7 Gen.k0_pay6
  dsimp only
  simp only [shapeCast_self]
  simp only [mulf_apply, subf_apply, divf_apply, exp_apply, cos_apply, select_apply, cmpf_ideal_apply,
    broadcast_apply, broadcastTo_a1_ab_apply, broadcastTo_1b_ab_apply]
  rfl

/-- THE UNIT VECTOR at (r, k): coordinate k of pair r over its distance. -/
theorem k0_pay8_apply (v2 : Vec Ideal S5000x1 .f32) (v4 : Vec Ideal S5000x3 .f32) (r : Fin 5000) (k : Fin 3) :
    Gen.k0_pay8 (F := Ideal) v2 v4 (ix2 r k) = Ideal.div (v4 (ix2 r k)) (v2 (ix2 r 0)) := by
  unfold Gen.k0_pay8 Gen.k0_pay6
  dsimp only
  simp only [shapeCast_self]
  simp only [divf_apply, broadcastTo_a1_ab_apply]

/-- THE FEATURES at (r, j): as loaded. -/
theorem k0_pay9_apply (v0 : Vec Ideal S5000x64 .f32) (r : Fin 5000) (j : Fin 64) :
    Gen.k0_pay9 (F := Ideal) v0 (ix2 r j) = v0 (ix2 r j) := by
  unfold Gen.k0_pay9
  simp only [shapeCast_self, truncf_apply]

end Cert.KernelIdeal.Body

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.PairBodySum.lean ====
/-
  The pair kernel's sum over the twenty bins, read entry by entry.

  Bin s contributes, at pair r and output channel o, the pair's sensitivity in that bin times the pair's features
  against row o of the bin's weight matrix:  v31 (r, s) · ∑ j, v34 (r, j) · w (0, o, j)  — the kernel takes column s of
  the sensitivities, repeats it along the channels, and multiplies it into the product of the features with the
  transposed matrix (a transposed matrix read at (j, o) is the matrix at (o, j); a product into a zero accumulator is
  the textbook sum over the shared axis; narrowing to bf16 and dropping the slab's unit axis change no entry).
  The kernel adds the twenty contributions one after another onto a block of zeros, in five stretches; each
  stretch, read at (r, o), is what it started from plus its bins' contributions in order.
-/
import proofs.«170788_j3307124818155_1_alg».proof.Proof.Gen.KernelIdeal.Frame
import proofs.«170788_j3307124818155_1_alg».proof.Proof.LibPlainDot
import proofs.«170788_j3307124818155_1_alg».proof.Proof.PairBodyLayout

noncomputable section

open scoped BigOperators

namespace Cert.KernelIdeal.Body

open Cert.KernelIdeal Idealize.ShloMosaic Idealize.ShloMosaic.ValueIdx

/-- Bin s's contribution at pair r, channel o: the sensitivity times the features against row o of the bin's matrix. -/
def binTerm (v31 : FVec Ideal S5000x20 .f32) (v34 : FVec Ideal S5000x64 .bf16) (w : Vec Ideal S1x64x64 .f32)
    (s : Fin 20) (r : Fin 5000) (o : Fin 64) : EReal :=
  v31 (ix2 r s) * ∑ j : Fin 64, v34 (ix2 r j) * w (ix3 (0 : Fin 1) o j)

/-- ONE BIN's product as the kernel forms it, at (r, o), is that contribution. -/
theorem term_apply (v31 : FVec Ideal S5000x20 .f32) (v34 : FVec Ideal S5000x64 .bf16) (w : Vec Ideal S1x64x64 .f32)
    (off : ℕ) (hs : S5000x20.Slices ![0, off] S5000x1) (hb : S5000x1.Broadcasts S5000x64)
    (hc : S1x64x64.ShapeCasts S64x64) (hbits : FTy.bits .bf16 < FTy.bits .f32) (ht : S64x64.Transposes [1, 0] S64x64)
    (s : Fin 20) (hoff : s.val = off) (r : Fin 5000) (o : Fin 64) :
    mulf (broadcastTo S5000x64 (extractStridedSlice S5000x1 ![0, off] v31 hs) hb)
        (matmul dot_S5000x64_S64x64_S5000x64_1_0_0_1_n_n none v34
          (transpose S64x64 [1, 0] (truncf .bf16 (shapeCast S64x64 w hc) hbits) ht)
          (constant S5000x64 .f32 0x00000000#32)) (ix2 r o)
      = binTerm v31 v34 w s r o := by
  refine (mulf_apply _ _ _).trans ?_
  unfold binTerm
  refine congrArg₂ (· * ·) ?_ ?_
  · refine (broadcastTo_a1_ab_apply _ hb r o).trans ?_
    exact slice2_axis1_apply off v31 hs r (0 : Fin 1) s (hoff.trans (Nat.add_zero off).symm)
  · refine (PlainDot.matmul_zero_apply Gen.dot_S5000x64_S64x64_S5000x64_1_0_0_1_n_n_wf none _ _ r o).trans ?_
    refine Finset.sum_congr rfl fun j _ => ?_
    rw [transpose_ix2_apply, truncf_apply, shapeCast_1ab_ab_apply]

/-- A sum of two blocks at an index, from each block's entry. -/
theorem addf_step {acc t : FVec Ideal S5000x64 .f32} {i : S5000x64.Idx} {a b : EReal} (ha : acc i = a) (hb : t i = b) :
    addf acc t i = a + b := by
  rw [addf_apply, ha, hb]

/-- THE STARTING BLOCK at (r, o): zero. -/
theorem k0_pay10_apply (r : Fin 5000) (o : Fin 64) : Gen.k0_pay10 (F := Ideal) (ix2 r o) = 0 := by
  unfold Gen.k0_pay10
  exact Ideal.ofBits_zero_f32

/-- Bins 0 to 4 onto the block the stretch starts from. -/
theorem k0_pay12_apply (v31 : FVec Ideal S5000x20 .f32) (v34 : FVec Ideal S5000x64 .bf16) (v35 : FVec Ideal S5000x64 .f32)
    (w0 w1 w2 w3 w4 : Vec Ideal S1x64x64 .f32) (r : Fin 5000) (o : Fin 64) :
    Gen.k0_pay12 (F := Ideal) v31 v34 v35 (Gen.k0_pay11 w0) w1 w2 w3 w4 (ix2 r o)
      = v35 (ix2 r o) + binTerm v31 v34 w0 0 r o + binTerm v31 v34 w1 1 r o + binTerm v31 v34 w2 2 r o + binTerm v31 v34 w3 3 r o + binTerm v31 v34 w4 4 r o := by
  unfold Gen.k0_pay12 Gen.k0_pay11
  dsimp only
  exact (addf_step (addf_step (addf_step (addf_step (addf_step rfl (term_apply v31 v34 w0 0 _ _ _ _ _ 0 rfl r o)) (term_apply v31 v34 w1 1 _ _ _ _ _ 1 rfl r o)) (term_apply v31 v34 w2 2 _ _ _ _ _ 2 rfl r o)) (term_apply v31 v34 w3 3 _ _ _ _ _ 3 rfl r o)) (term_apply v31 v34 w4 4 _ _ _ _ _ 4 rfl r o))

/-- Bins 5 to 8. -/
theorem k0_pay13_apply (v31 : FVec Ideal S5000x20 .f32) (v34 : FVec Ideal S5000x64 .bf16) (v80 : FVec Ideal S5000x64 .f32)
    (w5 w6 w7 w8 : Vec Ideal S1x64x64 .f32) (r : Fin 5000) (o : Fin 64) :
    Gen.k0_pay13 (F := Ideal) v31 v34 v80 w5 w6 w7 w8 (ix2 r o)
      = v80 (ix2 r o) + binTerm v31 v34 w5 5 r o + binTerm v31 v34 w6 6 r o + binTerm v31 v34 w7 7 r o + binTerm v31 v34 w8 8 r o := by
  unfold Gen.k0_pay13
  dsimp only
  exact (addf_step (addf_step (addf_step (addf_step rfl (term_apply v31 v34 w5 5 _ _ _ _ _ 5 rfl r o)) (term_apply v31 v34 w6 6 _ _ _ _ _ 6 rfl r o)) (term_apply v31 v34 w7 7 _ _ _ _ _ 7 rfl r o)) (term_apply v31 v34 w8 8 _ _ _ _ _ 8 rfl r o))

/-- Bins 9 to 13 (bin 9's product is formed at the end of the stretch before). -/
theorem k0_pay15_apply (v31 : FVec Ideal S5000x20 .f32) (v34 : FVec Ideal S5000x64 .bf16) (v116 : FVec Ideal S5000x64 .f32)
    (w9 w10 w11 w12 w13 : Vec Ideal S1x64x64 .f32) (r : Fin 5000) (o : Fin 64) :
    Gen.k0_pay15 (F := Ideal) v31 v34 v116 (Gen.k0_pay14 v34 w9) w10 w11 w12 w13 (ix2 r o)
      = v116 (ix2 r o) + binTerm v31 v34 w9 9 r o + binTerm v31 v34 w10 10 r o + binTerm v31 v34 w11 11 r o + binTerm v31 v34 w12 12 r o + binTerm v31 v34 w13 13 r o := by
  unfold Gen.k0_pay15 Gen.k0_pay14
  dsimp only
  exact (addf_step (addf_step (addf_step (addf_step (addf_step rfl (term_apply v31 v34 w9 9 _ _ _ _ _ 9 rfl r o)) (term_apply v31 v34 w10 10 _ _ _ _ _ 10 rfl r o)) (term_apply v31 v34 w11 11 _ _ _ _ _ 11 rfl r o)) (term_apply v31 v34 w12 12 _ _ _ _ _ 12 rfl r o)) (term_apply v31 v34 w13 13 _ _ _ _ _ 13 rfl r o))

/-- Bins 14 to 17. -/
theorem k0_pay16_apply (v31 : FVec Ideal S5000x20 .f32) (v34 : FVec Ideal S5000x64 .bf16) (v161 : FVec Ideal S5000x64 .f32)
    (w14 w15 w16 w17 : Vec Ideal S1x64x64 .f32) (r : Fin 5000) (o : Fin 64) :
    Gen.k0_pay16 (F := Ideal) v31 v34 v161 w14 w15 w16 w17 (ix2 r o)
      = v161 (ix2 r o) + binTerm v31 v34 w14 14 r o + binTerm v31 v34 w15 15 r o + binTerm v31 v34 w16 16 r o + binTerm v31 v34 w17 17 r o := by
  unfold Gen.k0_pay16
  dsimp only
  exact (addf_step (addf_step (addf_step (addf_step rfl (term_apply v31 v34 w14 14 _ _ _ _ _ 14 rfl r o)) (term_apply v31 v34 w15 15 _ _ _ _ _ 15 rfl r o)) (term_apply v31 v34 w16 16 _ _ _ _ _ 16 rfl r o)) (term_apply v31 v34 w17 17 _ _ _ _ _ 17 rfl r o))

/-- Bin 18's contribution alone. -/
theorem k0_pay17_apply (v31 : FVec Ideal S5000x20 .f32) (v34 : FVec Ideal S5000x64 .bf16) (w18 : Vec Ideal S1x64x64 .f32)
    (r : Fin 5000) (o : Fin 64) :
    Gen.k0_pay17 (F := Ideal) v31 v34 w18 (ix2 r o) = binTerm v31 v34 w18 18 r o := by
  unfold Gen.k0_pay17
  dsimp only
  exact (term_apply v31 v34 w18 18 _ _ _ _ _ 18 rfl r o)

/-- The last two additions: bin 18's contribution, then bin 19's. -/
theorem k0_pay1_apply (v31 : FVec Ideal S5000x20 .f32) (v34 : FVec Ideal S5000x64 .bf16) (v197 v205 : FVec Ideal S5000x64 .f32)
    (w19 : Vec Ideal S1x64x64 .f32) (r : Fin 5000) (o : Fin 64) :
    Gen.k0_pay1 (F := Ideal) v31 v34 v197 v205 w19 (ix2 r o)
      = v197 (ix2 r o) + v205 (ix2 r o) + binTerm v31 v34 w19 19 r o := by
  unfold Gen.k0_pay1
  dsimp only
  exact addf_step (addf_step rfl rfl) (term_apply v31 v34 w19 19 _ _ _ _ _ 19 rfl r o)

/-- THE WHOLE SUM as the kernel nests it, at (r, o): the twenty contributions added in order onto zero. -/
theorem chain_apply (v31 : FVec Ideal S5000x20 .f32) (v34 : FVec Ideal S5000x64 .bf16)
    (w0 w1 w2 w3 w4 w5 w6 w7 w8 w9 w10 w11 w12 w13 w14 w15 w16 w17 w18 w19 : Vec Ideal S1x64x64 .f32) (r : Fin 5000) (o : Fin 64) :
    Gen.k0_pay1 (F := Ideal) v31 v34
        (Gen.k0_pay16 v31 v34
          (Gen.k0_pay15 v31 v34
            (Gen.k0_pay13 v31 v34
              (Gen.k0_pay12 v31 v34 (Gen.k0_pay10 (F := Ideal)) (Gen.k0_pay11 w0) w1 w2 w3 w4) w5 w6 w7 w8)
            (Gen.k0_pay14 v34 w9) w10 w11 w12 w13)
          w14 w15 w16 w17)
        (Gen.k0_pay17 v31 v34 w18) w19 (ix2 r o)
      = 0 + binTerm v31 v34 w0 0 r o + binTerm v31 v34 w1 1 r o + binTerm v31 v34 w2 2 r o + binTerm v31 v34 w3 3 r o + binTerm v31 v34 w4 4 r o + binTerm v31 v34 w5 5 r o + binTerm v31 v34 w6 6 r o + binTerm v31 v34 w7 7 r o + binTerm v31 v34 w8 8 r o + binTerm v31 v34 w9 9 r o + binTerm v31 v34 w10 10 r o + binTerm v31 v34 w11 11 r o + binTerm v31 v34 w12 12 r o + binTerm v31 v34 w13 13 r o + binTerm v31 v34 w14 14 r o + binTerm v31 v34 w15 15 r o + binTerm v31 v34 w16 16 r o + binTerm v31 v34 w17 17 r o + binTerm v31 v34 w18 18 r o + binTerm v31 v34 w19 19 r o := by
  rw [k0_pay1_apply, k0_pay16_apply, k0_pay15_apply, k0_pay13_apply, k0_pay12_apply, k0_pay17_apply, k0_pay10_apply]

end Cert.KernelIdeal.Body

end
-- ==== Proof.PairBodyCanon.lean ====
/-
  The four slab stores of the pair kernel's output block, read at an index.

  The [5000, 4, 64] block is written as four [5000, 1, 64] slabs, slab `k` at position `k` of the middle axis. The
  slabs tile the block, so the block at (r, kk, o) is slab `kk`'s payload at (r, 0, o).
-/
import proofs.«170788_j3307124818155_1_alg».proof.Proof.Gen.KernelIdeal.Frame
import proofs.«170788_j3307124818155_1_alg».proof.Proof.PairBodyLayout

noncomputable section

namespace Cert.KernelIdeal.Body

open Cert.KernelIdeal Idealize.ShloMosaic Idealize.ShloMosaic.ValueIdx

/-- The block after the four slab stores, at row `r`, slab `kk` and column `o`, is the payload of slab `kk` at
    (r, 0, o). -/
theorem canon4_apply (p5 p4 p3 p2 : Vec Ideal S5000x1x64 .f32) (r : Fin 5000) (kk : Fin 4) (o : Fin 64) :
    View.canon ([⟨Gen.r0_27, p5⟩, ⟨Gen.r0_26, p4⟩, ⟨Gen.r0_25, p3⟩, ⟨Gen.r0_24, p2⟩] :
        List (View.Piece (Elt Ideal) S5000x4x64 .f32)) (ix3 r kk o)
      = (![p2, p3, p4, p5] : Fin 4 → Vec Ideal S5000x1x64 .f32) kk (ix3 r (0 : Fin 1) o) := by
  -- the one function of the block index every slab's payload is a restriction of
  let G : S5000x4x64.Idx → Elt Ideal .f32 := fun y =>
    (![p2, p3, p4, p5] : Fin 4 → Vec Ideal S5000x1x64 .f32) (y 1) (ix3 (y 0) (0 : Fin 1) (y 2))
  refine View.canon_apply_of_pieces G _ ?_ (ix3 r kk o) (Gen.cover0_6 (F := Ideal) p5 p4 p3 p2 (ix3 r kk o))
  intro p hp
  simp only [List.mem_cons, List.mem_singleton, List.not_mem_nil, or_false] at hp
  rcases hp with rfl | rfl | rfl | rfl
  · intro x
    obtain ⟨a, u, b, rfl⟩ : ∃ (a : Fin 5000) (u : Fin 1) (b : Fin 64), x = ix3 a u b := ⟨x 0, x 1, x 2, eq_ix3 x⟩
    have hu : u = 0 := Fin.fin_one_eq_zero u
    subst hu
    show p5 (ix3 a 0 b) = G (Gen.r0_27.emb (ix3 a 0 b))
    rw [show Gen.r0_27.emb (ix3 a (0 : Fin 1) b) = ix3 a (3 : Fin 4) b from emb_mid_slab 3 _ 3 rfl a 0 b]
    rfl
  · intro x
    obtain ⟨a, u, b, rfl⟩ : ∃ (a : Fin 5000) (u : Fin 1) (b : Fin 64), x = ix3 a u b := ⟨x 0, x 1, x 2, eq_ix3 x⟩
    have hu : u = 0 := Fin.fin_one_eq_zero u
    subst hu
    show p4 (ix3 a 0 b) = G (Gen.r0_26.emb (ix3 a 0 b))
    rw [show Gen.r0_26.emb (ix3 a (0 : Fin 1) b) = ix3 a (2 : Fin 4) b from emb_mid_slab 2 _ 2 rfl a 0 b]
    rfl
  · intro x
    obtain ⟨a, u, b, rfl⟩ : ∃ (a : Fin 5000) (u : Fin 1) (b : Fin 64), x = ix3 a u b := ⟨x 0, x 1, x 2, eq_ix3 x⟩
    have hu : u = 0 := Fin.fin_one_eq_zero u
    subst hu
    show p3 (ix3 a 0 b) = G (Gen.r0_25.emb (ix3 a 0 b))
    rw [show Gen.r0_25.emb (ix3 a (0 : Fin 1) b) = ix3 a (1 : Fin 4) b from emb_mid_slab 1 _ 1 rfl a 0 b]
    rfl
  · intro x
    obtain ⟨a, u, b, rfl⟩ : ∃ (a : Fin 5000) (u : Fin 1) (b : Fin 64), x = ix3 a u b := ⟨x 0, x 1, x 2, eq_ix3 x⟩
    have hu : u = 0 := Fin.fin_one_eq_zero u
    subst hu
    show p2 (ix3 a 0 b) = G (Gen.r0_24.emb (ix3 a 0 b))
    rw [show Gen.r0_24.emb (ix3 a (0 : Fin 1) b) = ix3 a (0 : Fin 4) b from emb_mid_slab 0 _ 0 rfl a 0 b]
    rfl

end Cert.KernelIdeal.Body

end
-- ==== Proof.PairBody.lean ====
/-
  The pair kernel's block, read entry by entry.

  The kernel leaves a [5000, 4, 64] block written as four [5000, 1, 64] slabs along the middle axis. Slab 0 holds,
  for each pair r and channel o, the sum over the twenty bins of the pair's sensitivity times its features mixed by the
  bin's matrix; slabs 1, 2, 3 hold that sum times the three components of the pair's unit vector coord / d. With the
  kernel's own inputs a bin's contribution is  sens d (mu s) (sg s) · ∑ j, f j · W s o j , the twenty additions onto
  zero are the sum over the bins, and so entry (r, kk, o) of the block is the specification's stacked row.
-/
import proofs.«170788_j3307124818155_1_alg».proof.Proof.Gen.KernelIdeal.Frame
import proofs.«170788_j3307124818155_1_alg».proof.Proof.Spec
import proofs.«170788_j3307124818155_1_alg».proof.Proof.PairBodySens
import proofs.«170788_j3307124818155_1_alg».proof.Proof.PairBodySum
import proofs.«170788_j3307124818155_1_alg».proof.Proof.PairBodyCanon

noncomputable section

open scoped BigOperators

namespace Cert.KernelIdeal.Body

open Cert.KernelIdeal Idealize.ShloMosaic Idealize.ShloMosaic.ValueIdx

/-- An [a, b] array cast to [a, 1, b] reads, at (i, u, j), the operand at (i, j). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The four slabs, one per position of the middle axis. -/
theorem canon4_at0 (p5 p4 p3 p2 : Vec Ideal S5000x1x64 .f32) (r : Fin 5000) (o : Fin 64) :
    View.canon ([⟨Gen.r0_27, p5⟩, ⟨Gen.r0_26, p4⟩, ⟨Gen.r0_25, p3⟩, ⟨Gen.r0_24, p2⟩] : List (View.Piece (Elt Ideal) S5000x4x64 .f32)) (ix3 r (0 : Fin 4) o)
      = p2 (ix3 r (0 : Fin 1) o) := canon4_apply p5 p4 p3 p2 r 0 o
theorem canon4_at1 (p5 p4 p3 p2 : Vec Ideal S5000x1x64 .f32) (r : Fin 5000) (o : Fin 64) :
    View.canon ([⟨Gen.r0_27, p5⟩, ⟨Gen.r0_26, p4⟩, ⟨Gen.r0_25, p3⟩, ⟨Gen.r0_24, p2⟩] : List (View.Piece (Elt Ideal) S5000x4x64 .f32)) (ix3 r (1 : Fin 4) o)
      = p3 (ix3 r (0 : Fin 1) o) := canon4_apply p5 p4 p3 p2 r 1 o
theorem canon4_at2 (p5 p4 p3 p2 : Vec Ideal S5000x1x64 .f32) (r : Fin 5000) (o : Fin 64) :
    View.canon ([⟨Gen.r0_27, p5⟩, ⟨Gen.r0_26, p4⟩, ⟨Gen.r0_25, p3⟩, ⟨Gen.r0_24, p2⟩] : List (View.Piece (Elt Ideal) S5000x4x64 .f32)) (ix3 r (2 : Fin 4) o)
      = p4 (ix3 r (0 : Fin 1) o) := canon4_apply p5 p4 p3 p2 r 2 o
theorem canon4_at3 (p5 p4 p3 p2 : Vec Ideal S5000x1x64 .f32) (r : Fin 5000) (o : Fin 64) :
    View.canon ([⟨Gen.r0_27, p5⟩, ⟨Gen.r0_26, p4⟩, ⟨Gen.r0_25, p3⟩, ⟨Gen.r0_24, p2⟩] : List (View.Piece (Elt Ideal) S5000x4x64 .f32)) (ix3 r (3 : Fin 4) o)
      = p5 (ix3 r (0 : Fin 1) o) := canon4_apply p5 p4 p3 p2 r 3 o

/-- Slab 0's payload at (r, 0, o) is the sum block at (r, o). -/
theorem k0_pay2_apply (v31 : FVec Ideal S5000x20 .f32) (v34 : FVec Ideal S5000x64 .bf16) (v197 v205 : FVec Ideal S5000x64 .f32)
    (w19 : Vec Ideal S1x64x64 .f32) (r : Fin 5000) (o : Fin 64) :
    Gen.k0_pay2 (F := Ideal) v31 v34 v197 v205 w19 (ix3 r (0 : Fin 1) o) = Gen.k0_pay1 v31 v34 v197 v205 w19 (ix2 r o) := by
  unfold Gen.k0_pay2
  exact shapeCast_ab_a1b_apply _ _ r 0 o

/-- A block times column k of the unit vectors repeated along the channels, cast to a slab, at (r, 0, o). -/
theorem scaled_apply (c : FVec Ideal S5000x64 .f32) (v33 : FVec Ideal S5000x3 .f32) (off : ℕ)
    (hs : S5000x3.Slices ![0, off] S5000x1) (hb : S5000x1.Broadcasts S5000x64) (hc : S5000x64.ShapeCasts S5000x1x64)
    (k : Fin 3) (hk : k.val = off) (r : Fin 5000) (o : Fin 64) :
    shapeCast S5000x1x64 (mulf c (broadcastTo S5000x64 (extractStridedSlice S5000x1 ![0, off] v33 hs) hb)) hc
        (ix3 r (0 : Fin 1) o)
      = c (ix2 r o) * v33 (ix2 r k) := by
  refine (shapeCast_ab_a1b_apply _ hc r 0 o).trans ?_
  refine (mulf_apply _ _ _).trans ?_
  refine congrArg _ ?_
  refine (broadcastTo_a1_ab_apply _ hb r o).trans ?_
  exact slice2_axis1_apply off v33 hs r (0 : Fin 1) k (hk.trans (Nat.add_zero off).symm)

/-- Slabs 1, 2, 3's payloads at (r, 0, o): the sum block at (r, o) times component 0, 1, 2 of the unit vector. -/
theorem k0_pay3_apply (v31 : FVec Ideal S5000x20 .f32) (v33 : FVec Ideal S5000x3 .f32) (v34 : FVec Ideal S5000x64 .bf16)
    (v197 v205 : FVec Ideal S5000x64 .f32) (w19 : Vec Ideal S1x64x64 .f32) (r : Fin 5000) (o : Fin 64) :
    Gen.k0_pay3 (F := Ideal) v31 v33 v34 v197 v205 w19 (ix3 r (0 : Fin 1) o)
      = Gen.k0_pay1 v31 v34 v197 v205 w19 (ix2 r o) * v33 (ix2 r 0) := by
  unfold Gen.k0_pay3
  exact scaled_apply _ v33 0 _ _ _ 0 rfl r o
theorem k0_pay4_apply (v31 : FVec Ideal S5000x20 .f32) (v33 : FVec Ideal S5000x3 .f32) (v34 : FVec Ideal S5000x64 .bf16)
    (v197 v205 : FVec Ideal S5000x64 .f32) (w19 : Vec Ideal S1x64x64 .f32) (r : Fin 5000) (o : Fin 64) :
    Gen.k0_pay4 (F := Ideal) v31 v33 v34 v197 v205 w19 (ix3 r (0 : Fin 1) o)
      = Gen.k0_pay1 v31 v34 v197 v205 w19 (ix2 r o) * v33 (ix2 r 1) := by
  unfold Gen.k0_pay4
  exact scaled_apply _ v33 1 _ _ _ 1 rfl r o
theorem k0_pay5_apply (v31 : FVec Ideal S5000x20 .f32) (v33 : FVec Ideal S5000x3 .f32) (v34 : FVec Ideal S5000x64 .bf16)
    (v197 v205 : FVec Ideal S5000x64 .f32) (w19 : Vec Ideal S1x64x64 .f32) (r : Fin 5000) (o : Fin 64) :
    Gen.k0_pay5 (F := Ideal) v31 v33 v34 v197 v205 w19 (ix3 r (0 : Fin 1) o)
      = Gen.k0_pay1 v31 v34 v197 v205 w19 (ix2 r o) * v33 (ix2 r 2) := by
  unfold Gen.k0_pay5
  exact scaled_apply _ v33 2 _ _ _ 2 rfl r o

/-- A bin's contribution with the kernel's own inputs: the sensitivity of the pair's distance in the bin times the pair's
    features against row o of the bin's matrix. -/
theorem binTerm_inputs (x0 : Vec Ideal S5000x64 .f32) (x1 : Vec Ideal S5000x1 .f32) (x3 x4 : Vec Ideal S1x20 .f32)
    (x5 : Vec Ideal S20x64x64 .f32) (k : ℕ)
    (inb : ∀ a, (![k, 0, 0] : Fin 3 → ℕ) a + S1x64x64.size a ≤ S20x64x64.size a) (s : Fin 20) (hs : s.val = k)
    (r : Fin 5000) (o : Fin 64) :
    binTerm (Gen.k0_pay7 x1 x3 x4) (Gen.k0_pay9 x0) (View.ld x5 (Rect.unit (s := S20x64x64) ![k, 0, 0] S1x64x64.size inb)) s r o
      = Cert.Interact.sens (x1 (ix2 r 0)) (x3 (ix2 0 s)) (x4 (ix2 0 s)) * ∑ j : Fin 64, x0 (ix2 r j) * x5 (ix3 s o j) := by
  unfold binTerm
  rw [k0_pay7_apply]
  refine congrArg _ (Finset.sum_congr rfl fun j _ => ?_)
  rw [k0_pay9_apply]
  exact congrArg _ (ld_slab_apply x5 k inb s hs o j)

/-- Two sums agree when their summands do. -/
theorem add_step {a a' b b' : EReal} (h1 : a = a') (h2 : b = b') : a + b = a' + b' := by rw [h1, h2]

/-- THE SUM BLOCK at (r, o), with the kernel's own inputs, is the specification's mixed row of pair r. -/
theorem sumBlock_apply (x0 : Vec Ideal S5000x64 .f32) (x1 : Vec Ideal S5000x1 .f32) (x3 x4 : Vec Ideal S1x20 .f32)
    (x5 : Vec Ideal S20x64x64 .f32) (r : Fin 5000) (o : Fin 64) :
    Gen.k0_pay1 (F := Ideal) (Gen.k0_pay7 x1 x3 x4) (Gen.k0_pay9 x0)
        (Gen.k0_pay16 (Gen.k0_pay7 x1 x3 x4) (Gen.k0_pay9 x0)
          (Gen.k0_pay15 (Gen.k0_pay7 x1 x3 x4) (Gen.k0_pay9 x0)
            (Gen.k0_pay13 (Gen.k0_pay7 x1 x3 x4) (Gen.k0_pay9 x0)
              (Gen.k0_pay12 (Gen.k0_pay7 x1 x3 x4) (Gen.k0_pay9 x0) (Gen.k0_pay10 (F := Ideal)) (Gen.k0_pay11 (View.ld x5 Gen.r0_4)) (View.ld x5 Gen.r0_5) (View.ld x5 Gen.r0_6) (View.ld x5 Gen.r0_7) (View.ld x5 Gen.r0_8))
              (View.ld x5 Gen.r0_9) (View.ld x5 Gen.r0_10) (View.ld x5 Gen.r0_11) (View.ld x5 Gen.r0_12))
            (Gen.k0_pay14 (Gen.k0_pay9 x0) (View.ld x5 Gen.r0_13)) (View.ld x5 Gen.r0_14) (View.ld x5 Gen.r0_15) (View.ld x5 Gen.r0_16) (View.ld x5 Gen.r0_17))
          (View.ld x5 Gen.r0_18) (View.ld x5 Gen.r0_19) (View.ld x5 Gen.r0_20) (View.ld x5 Gen.r0_21))
        (Gen.k0_pay17 (Gen.k0_pay7 x1 x3 x4) (Gen.k0_pay9 x0) (View.ld x5 Gen.r0_22)) (View.ld x5 Gen.r0_23) (ix2 r o)
      = Cert.Interact.mix (fun j => x0 (ix2 r j)) (x1 (ix2 r 0)) (fun s => x3 (ix2 0 s)) (fun s => x4 (ix2 0 s)) (fun s o' j => x5 (ix3 s o' j)) o := by
  refine (chain_apply _ _ _ _ _ _ _ _ _ _ _ _ _ _ _ _ _ _ _ _ _ _ r o).trans ?_
  unfold Cert.Interact.mix
  rw [sum_fin20]
  exact (add_step (add_step (add_step (add_step (add_step (add_step (add_step (add_step (add_step (add_step (add_step (add_step (add_step (add_step (add_step (add_step (add_step (add_step (add_step (add_step rfl (binTerm_inputs x0 x1 x3 x4 x5 0 _ 0 rfl r o)) (binTerm_inputs x0 x1 x3 x4 x5 1 _ 1 rfl r o)) (binTerm_inputs x0 x1 x3 x4 x5 2 _ 2 rfl r o)) (binTerm_inputs x0 x1 x3 x4 x5 3 _ 3 rfl r o)) (binTerm_inputs x0 x1 x3 x4 x5 4 _ 4 rfl r o)) (binTerm_inputs x0 x1 x3 x4 x5 5 _ 5 rfl r o)) (binTerm_inputs x0 x1 x3 x4 x5 6 _ 6 rfl r o)) (binTerm_inputs x0 x1 x3 x4 x5 7 _ 7 rfl r o)) (binTerm_inputs x0 x1 x3 x4 x5 8 _ 8 rfl r o)) (binTerm_inputs x0 x1 x3 x4 x5 9 _ 9 rfl r o)) (binTerm_inputs x0 x1 x3 x4 x5 10 _ 10 rfl r o)) (binTerm_inputs x0 x1 x3 x4 x5 11 _ 11 rfl r o)) (binTerm_inputs x0 x1 x3 x4 x5 12 _ 12 rfl r o)) (binTerm_inputs x0 x1 x3 x4 x5 13 _ 13 rfl r o)) (binTerm_inputs x0 x1 x3 x4 x5 14 _ 14 rfl r o)) (binTerm_inputs x0 x1 x3 x4 x5 15 _ 15 rfl r o)) (binTerm_inputs x0 x1 x3 x4 x5 16 _ 16 rfl r o)) (binTerm_inputs x0 x1 x3 x4 x5 17 _ 17 rfl r o)) (binTerm_inputs x0 x1 x3 x4 x5 18 _ 18 rfl r o)) (binTerm_inputs x0 x1 x3 x4 x5 19 _ 19 rfl r o))

/-- Two products agree when their factors do. -/
theorem mul_step {a a' b b' : EReal} (h1 : a = a') (h2 : b = b') : a * b = a' * b' := by rw [h1, h2]

/-- THE PAIR BLOCK at (r, kk, o) is the specification's stacked row of pair r. -/
theorem out0_6_apply (x0 : Vec Ideal S5000x64 .f32) (x1 : Vec Ideal S5000x1 .f32) (x2 : Vec Ideal S5000x3 .f32)
    (x3 x4 : Vec Ideal S1x20 .f32) (x5 : Vec Ideal S20x64x64 .f32) (r : Fin 5000) (kk : Fin 4) (o : Fin 64) :
    Gen.out0_6 (F := Ideal) x0 x1 x2 x3 x4 x5 (ix3 r kk o)
      = Cert.Interact.stackedRow (fun j => x0 (ix2 r j)) (x1 (ix2 r 0)) (fun k => x2 (ix2 r k)) (fun s => x3 (ix2 0 s))
          (fun s => x4 (ix2 0 s)) (fun s o' j => x5 (ix3 s o' j)) kk o := by
  unfold Gen.out0_6
  simp only [View.ld_unit_zero (S := S5000x64) zero_off_rank2, View.ld_unit_zero (S := S5000x1) zero_off_rank2,
    View.ld_unit_zero (S := S5000x3) zero_off_rank2, View.ld_unit_zero (S := S1x20) zero_off_rank2]
  rcases kk with ⟨n, hn⟩
  match n, hn with
  | 0, _ =>
    refine (canon4_at0 _ _ _ _ r o).trans ?_
    refine (k0_pay2_apply _ _ _ _ _ r o).trans ?_
    exact sumBlock_apply x0 x1 x3 x4 x5 r o
  | 1, _ =>
    refine (canon4_at1 _ _ _ _ r o).trans ?_
    refine (k0_pay3_apply _ _ _ _ _ _ r o).trans ?_
    exact mul_step (sumBlock_apply x0 x1 x3 x4 x5 r o) (k0_pay8_apply x1 x2 r 0)
  | 2, _ =>
    refine (canon4_at2 _ _ _ _ r o).trans ?_
    refine (k0_pay4_apply _ _ _ _ _ _ r o).trans ?_
    exact mul_step (sumBlock_apply x0 x1 x3 x4 x5 r o) (k0_pay8_apply x1 x2 r 1)
  | 3, _ =>
    refine (canon4_at3 _ _ _ _ r o).trans ?_
    refine (k0_pay5_apply _ _ _ _ _ _ r o).trans ?_
    exact mul_step (sumBlock_apply x0 x1 x3 x4 x5 r o) (k0_pay8_apply x1 x2 r 2)
  | n + 4, h => exact absurd h (by omega)

end Cert.KernelIdeal.Body

end
-- ==== Proof.PairBlocks.lean ====
/-
  The pair kernel's region, from blocks to the array. The grid has ten points; point `t` reads pairs
  5000 t … 5000 t + 4999 of the gathered features, the distances and the displacement vectors, and the whole of the bins'
  centres, widths and weight matrices, and writes the same pairs' [4, 64] slabs of the output. What a point writes is
  the body's result of its blocks (Proof/PairBody.lean), and that is the block of ONE function of the six arrays,
  `stackedArr`. The ten blocks fill the output array, so after the region the array is `stackedArr` of the arrays the
  region found — whatever the buffers held at its entry (`V`).
-/
import proofs.«170788_j3307124818155_1_alg».proof.Proof.PairBody
import proofs.«170788_j3307124818155_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The pair kernel's region -/

/-- What every pair contributes, as one array of the six arrays the pair kernel reads: at `(p, kk, o)` the pair's
    mixed row in channel `kk`. -/
def stackedArr (A0 : S50000x64.Idx → EReal) (A1 : S50000x1.Idx → EReal) (A2 : S50000x3.Idx → EReal)
    (A3 A4 : S1x20.Idx → EReal) (A5 : S20x64x64.Idx → EReal) : S50000x4x64.Idx → EReal :=
  fun i => Cert.Interact.stackedRow (fun j => A0 (ix2 (⟨(i 0).val, (i 0).isLt⟩ : Fin 50000) j))
    (A1 (ix2 (⟨(i 0).val, (i 0).isLt⟩ : Fin 50000) 0)) (fun k => A2 (ix2 (⟨(i 0).val, (i 0).isLt⟩ : Fin 50000) k))
    (fun s => A3 (ix2 0 s)) (fun s => A4 (ix2 0 s)) (fun s o' j => A5 (ix3 s o' j))
    (⟨(i 1).val, (i 1).isLt⟩ : Fin 4) (⟨(i 2).val, (i 2).isLt⟩ : Fin 64)

/-- The printed index maps over the ten grid points: the three pair-indexed inputs and the output move together, one
    block of 5000 pairs per point; the bins' centres, widths and matrices stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- What grid point `t` writes back is block `t` of `stackedArr` of the arrays as the region finds them. -/
theorem flushed0_eq (c : Dev nD) (t : Fin cfg0.N) :
    (dat0 (F := Ideal) V c).flushed 6 t
      = ((cfg0.win 6).blk t).view.read (Elt Ideal)
          (stackedArr (V c main_v6) (V c main_v7) (V c main_arg2) (V c main_v8) (V c main_v9) (V c main_arg3)) := by
  show (cfg0.win 6).cut (grid0.coords t) ((dat0 V c).after 6 t) = _
  rw [after0_6]
  funext y
  obtain ⟨r, kk, o, rfl⟩ : ∃ (r : Fin 5000) (kk : Fin 4) (o : Fin 64), y = ix3 r kk o := ⟨y 0, y 1, y 2, eq_ix3 y⟩
  show out0_6 (iblk0 V c 0 t) (iblk0 V c 1 t) (iblk0 V c 2 t) (iblk0 V c 3 t) (iblk0 V c 4 t) (iblk0 V c 5 t) (ix3 r kk o)
      = stackedArr (V c main_v6) (V c main_v7) (V c main_arg2) (V c main_v8) (V c main_v9) (V c main_arg3)
          (((cfg0.win 6).blk t).view.emb (ix3 r kk o))
  rw [Cert.KernelIdeal.Body.out0_6_apply]
  unfold stackedArr
  have ht : t.val < 10 := by have h : t.val < grid0.N := t.isLt; rw [N_0] at h; exact h
  obtain ⟨e00, e01, e10, e11, e20, e21, e30, e31, e40, e41, e50, e51, e52, e60, e61, e62⟩ := idx_facts0 t
  have hrow : (⟨((((cfg0.win 6).blk t).view.emb (ix3 r kk o)) 0).val, ((((cfg0.win 6).blk t).view.emb (ix3 r kk o)) 0).isLt⟩ : Fin 50000)
      = ⟨t.val * 5000 + r.val, by omega⟩ := by
    refine Fin.ext ?_
    show win0_6.index t (0 : Fin 3) * 5000 + 1 * r.val = t.val * 5000 + r.val
    omega
  have hch : (⟨((((cfg0.win 6).blk t).view.emb (ix3 r kk o)) 1).val, ((((cfg0.win 6).blk t).view.emb (ix3 r kk o)) 1).isLt⟩ : Fin 4) = kk := by
    refine Fin.ext ?_
    show win0_6.index t (1 : Fin 3) * 4 + 1 * kk.val = kk.val
    omega
  have hcol : (⟨((((cfg0.win 6).blk t).view.emb (ix3 r kk o)) 2).val, ((((cfg0.win 6).blk t).view.emb (ix3 r kk o)) 2).isLt⟩ : Fin 64) = o := by
    refine Fin.ext ?_
    show win0_6.index t (2 : Fin 3) * 64 + 1 * o.val = o.val
    omega
  rw [hrow, hch, hcol]
  have h0 : ∀ j : Fin 64, iblk0 V c 0 t (ix2 r j) = V c main_v6 (ix2 (⟨t.val * 5000 + r.val, by omega⟩ : Fin 50000) j) := by
    intro j
    show V c main_v6 (((cfg0.win 0).blk t).view.emb (ix2 r j)) = _
    refine congrArg _ (funext fun a => Fin.ext ?_)
    match a with
    | ⟨0, _⟩ => show win0_0.index t (0 : Fin 2) * 5000 + 1 * r.val = t.val * 5000 + r.val; omega
    | ⟨1, _⟩ => show win0_0.index t (1 : Fin 2) * 64 + 1 * j.val = j.val; omega
  have h1 : iblk0 V c 1 t (ix2 r 0) = V c main_v7 (ix2 (⟨t.val * 5000 + r.val, by omega⟩ : Fin 50000) 0) := by
    show V c main_v7 (((cfg0.win 1).blk t).view.emb (ix2 r 0)) = _
    refine congrArg _ (funext fun a => Fin.ext ?_)
    match a with
    | ⟨0, _⟩ => show win0_1.index t (0 : Fin 2) * 5000 + 1 * r.val = t.val * 5000 + r.val; omega
    | ⟨1, _⟩ => show win0_1.index t (1 : Fin 2) * 1 + 1 * 0 = 0; omega
  have h2 : ∀ k : Fin 3, iblk0 V c 2 t (ix2 r k) = V c main_arg2 (ix2 (⟨t.val * 5000 + r.val, by omega⟩ : Fin 50000) k) := by
    intro k
    show V c main_arg2 (((cfg0.win 2).blk t).view.emb (ix2 r k)) = _
    refine congrArg _ (funext fun a => Fin.ext ?_)
    match a with
    | ⟨0, _⟩ => show win0_2.index t (0 : Fin 2) * 5000 + 1 * r.val = t.val * 5000 + r.val; omega
    | ⟨1, _⟩ => show win0_2.index t (1 : Fin 2) * 3 + 1 * k.val = k.val; omega
  have h3 : ∀ s : Fin 20, iblk0 V c 3 t (ix2 0 s) = V c main_v8 (ix2 0 s) := by
    intro s
    show V c main_v8 (((cfg0.win 3).blk t).view.emb (ix2 0 s)) = _
    refine congrArg _ (funext fun a => Fin.ext ?_)
    match a with
    | ⟨0, _⟩ => show win0_3.index t (0 : Fin 2) * 1 + 1 * 0 = 0; omega
    | ⟨1, _⟩ => show win0_3.index t (1 : Fin 2) * 20 + 1 * s.val = s.val; omega
  have h4 : ∀ s : Fin 20, iblk0 V c 4 t (ix2 0 s) = V c main_v9 (ix2 0 s) := by
    intro s
    show V c main_v9 (((cfg0.win 4).blk t).view.emb (ix2 0 s)) = _
    refine congrArg _ (funext fun a => Fin.ext ?_)
    match a with
    | ⟨0, _⟩ => show win0_4.index t (0 : Fin 2) * 1 + 1 * 0 = 0; omega
    | ⟨1, _⟩ => show win0_4.index t (1 : Fin 2) * 20 + 1 * s.val = s.val; omega
  have h5 : ∀ (s : Fin 20) (o' j : Fin 64), iblk0 V c 5 t (ix3 s o' j) = V c main_arg3 (ix3 s o' j) := by
    intro s o' j
    show V c main_arg3 (((cfg0.win 5).blk t).view.emb (ix3 s o' j)) = _
    refine congrArg _ (funext fun a => Fin.ext ?_)
    match a with
    | ⟨0, _⟩ => show win0_5.index t (0 : Fin 3) * 20 + 1 * s.val = s.val; omega
    | ⟨1, _⟩ => show win0_5.index t (1 : Fin 3) * 64 + 1 * o'.val = o'.val; omega
    | ⟨2, _⟩ => show win0_5.index t (2 : Fin 3) * 64 + 1 * j.val = j.val; omega
  simp only [h0, h1, h2, h3, h4, h5]

/-- An index of the output array is in point `t`'s block iff each coordinate is in the block's range on its axis. -/
theorem mem_blk0 (t : Fin cfg0.N) (i : S50000x4x64.Idx) :
    i ∈ ((cfg0.win 6).blk t).view.set ↔ ∀ a : Fin 3, win0_6.index t a * S5000x4x64.size a ≤ (i a).val ∧ (i a).val < win0_6.index t a * S5000x4x64.size a + S5000x4x64.size a := by
  show i ∈ ((View.whole main_v10).slice (win0_6.rect t)).set ↔ _
  rw [View.set_slice_whole, Rect.mem_set_unit]
  exact Iff.rfl

/-- The ten blocks of 5000 pairs fill the output array: pair `p` is in the block of point `p / 5000`. -/
theorem cover0 (i : S50000x4x64.Idx) : ∃ t : Fin cfg0.N, (cfg0.win 6).flush t = true ∧ i ∈ ((cfg0.win 6).blk t).view.set := by
  have hi0 : (i 0).val < 50000 := (i 0).isLt
  have hi1 : (i 1).val < 4 := (i 1).isLt
  have hi2 : (i 2).val < 64 := (i 2).isLt
  refine ⟨⟨(i 0).val / 5000, by rw [show cfg0.N = 10 from N_0]; omega⟩, flush0_6 _, ?_⟩
  rw [mem_blk0]
  obtain ⟨e00, e01, e10, e11, e20, e21, e30, e31, e40, e41, e50, e51, e52, e60, e61, e62⟩ := idx_facts0 ⟨(i 0).val / 5000, by rw [show cfg0.N = 10 from N_0]; omega⟩
  intro a
  match a with
  | ⟨0, _⟩ => show win0_6.index _ (0 : Fin 3) * 5000 ≤ (i 0).val ∧ (i 0).val < win0_6.index _ (0 : Fin 3) * 5000 + 5000; rw [e60]; show (i 0).val / 5000 * 5000 ≤ _ ∧ _ < (i 0).val / 5000 * 5000 + 5000; omega
  | ⟨1, _⟩ => show win0_6.index _ (1 : Fin 3) * 4 ≤ (i 1).val ∧ (i 1).val < win0_6.index _ (1 : Fin 3) * 4 + 4; rw [e61]; omega
  | ⟨2, _⟩ => show win0_6.index _ (2 : Fin 3) * 64 ≤ (i 2).val ∧ (i 2).val < win0_6.index _ (2 : Fin 3) * 64 + 64; rw [e62]; omega

/-- The pair kernel's output array after its region: `stackedArr` of the arrays the region found. -/
theorem final0 (c : Dev nD) : (dat0 (F := Ideal) V c).arrAt 6 cfg0.N
    = stackedArr (V c main_v6) (V c main_v7) (V c main_arg2) (V c main_v8) (V c main_v9) (V c main_arg3) :=
  (dat0 V c).arrAt_eq_of_cover 6 _ (fun t _ => flushed0_eq V c t) cover0

end Cert.KernelIdeal.Blocks

end
-- ==== Proof.SelfBody.lean ====
/-
  The dense self term's kernel, read entry by entry.

  The kernel stores one whole block: the atoms' features times the transposed weight matrix, plus the bias row
  repeated down the rows. At the exact-real instance the narrowing to bf16 is the identity, a transposed matrix read
  at (j, o) is the matrix at (o, j), and a product into a zero accumulator is the textbook sum over the shared axis;
  so entry (r, o) of the block is  ∑ j, x r j · w o j + b o , the specification's self row.
-/
import proofs.«170788_j3307124818155_1_alg».proof.Proof.Gen.KernelIdeal.Frame
import proofs.«170788_j3307124818155_1_alg».proof.Proof.Spec
import proofs.«170788_j3307124818155_1_alg».proof.Proof.LibPlainDot
import Idealize.ShloMosaic.Lib.ValueLayout

noncomputable section

namespace Cert.KernelIdeal.Body

open Cert.KernelIdeal Idealize.ShloMosaic Idealize.ShloMosaic.ValueIdx

/-- The zero offsets of a rank-2 whole-block rectangle, as the constant function. -/
theorem zero_off2 : (![0, 0] : Fin 2 → Nat) = fun _ => 0 := funext fun a => by fin_cases a <;> rfl

/-- The stored value of the self-term kernel at (r, o): the row of features against row o of the weights, plus the bias. -/
theorem k1_pay1_apply (v0 : Vec Ideal S2000x64 .f32) (v2 : Vec Ideal S64x64 .f32) (v6 : Vec Ideal S1x64 .f32)
    (r : Fin 2000) (o : Fin 64) :
    Gen.k1_pay1 (F := Ideal) v0 v2 v6 (ix2 r o)
      = (∑ j : Fin 64, v0 (ix2 r j) * v2 (ix2 o j)) + v6 (ix2 0 o) := by
  unfold Gen.k1_pay1
  dsimp only
  refine (addf_apply _ _ _).trans ?_
  refine congrArg₂ (· + ·) ?_ ?_
  · refine (PlainDot.matmul_zero_apply Gen.dot_S2000x64_S64x64_S2000x64_1_0_0_1_n_n_wf none _ _ r o).trans ?_
    refine Finset.sum_congr rfl fun j _ => ?_
    rw [truncf_apply, transpose_ix2_apply, truncf_apply]
  · rw [broadcastTo_1b_ab_apply, shapeCast_self]

/-- THE SELF-TERM BLOCK at (r, o) is the specification's self row of atom r's features. -/
theorem out1_3_apply (x0 : Vec Ideal S2000x64 .f32) (x1 : Vec Ideal S64x64 .f32) (x2 : Vec Ideal S1x64 .f32)
    (r : Fin 2000) (o : Fin 64) :
    Gen.out1_3 (F := Ideal) x0 x1 x2 (ix2 r o)
      = Cert.Interact.selfRow (fun j => x0 (ix2 r j)) (fun o' j => x1 (ix2 o' j)) (fun o' => x2 (ix2 0 o')) o := by
  unfold Gen.out1_3
  rw [View.canon_unit_zero zero_off2]
  simp only [View.ld_unit_zero (S := S2000x64) zero_off2, View.ld_unit_zero (S := S64x64) zero_off2,
    View.ld_unit_zero (S := S1x64) zero_off2]
  exact k1_pay1_apply x0 x1 x2 r o

end Cert.KernelIdeal.Body

end
-- ==== Proof.DenseBlocks.lean ====
/-
  The dense kernel's region, from blocks to the array. The grid has four points; point `t` reads rows
  2000 t … 2000 t + 1999 of the atoms' features, the whole weight matrix and the bias row, and writes the same rows of
  the output. What a point writes is the body's result of its blocks (Proof/SelfBody.lean), and that is the block of
  ONE function of the three arrays, `selfArr`: row `a` of the output is the self term of atom `a`. The four blocks
  fill the output array, so after the region the array is `selfArr` of the arrays the region found — whatever the
  buffers held at its entry (`V`).
-/
import proofs.«170788_j3307124818155_1_alg».proof.Proof.SelfBody
import proofs.«170788_j3307124818155_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The dense kernel's region -/

/-- The dense self term of every atom, as one array of the three arrays the dense kernel reads. -/
def selfArr (A0 : S8000x64.Idx → EReal) (A1 : S64x64.Idx → EReal) (A2 : S1x64.Idx → EReal) : S8000x64.Idx → EReal :=
  fun i => Cert.Interact.selfRow (fun j => A0 (ix2 (⟨(i 0).val, (i 0).isLt⟩ : Fin 8000) j)) (fun o' j => A1 (ix2 o' j))
    (fun o' => A2 (ix2 0 o')) (⟨(i 1).val, (i 1).isLt⟩ : Fin 64)

/-- The printed index maps over the four grid points: the atoms' features and the output move together, one block
    of 2000 atoms per point; the weight matrix and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of `selfArr` of the arrays as the region finds them. -/
theorem flushed1_eq (c : Dev nD) (t : Fin cfg1.N) :
    (dat1 (F := Ideal) V c).flushed 3 t
      = ((cfg1.win 3).blk t).view.read (Elt Ideal) (selfArr (V c main_arg0) (V c main_arg4) (V c main_v27)) := by
  show (cfg1.win 3).cut (grid1.coords t) ((dat1 V c).after 3 t) = _
  rw [after1_3]
  funext y
  obtain ⟨r, o, rfl⟩ : ∃ (r : Fin 2000) (o : Fin 64), y = ix2 r o := ⟨y 0, y 1, eq_ix2 y⟩
  show out1_3 (iblk1 V c 0 t) (iblk1 V c 1 t) (iblk1 V c 2 t) (ix2 r o)
      = selfArr (V c main_arg0) (V c main_arg4) (V c main_v27) (((cfg1.win 3).blk t).view.emb (ix2 r o))
  rw [Cert.KernelIdeal.Body.out1_3_apply]
  unfold selfArr
  have ht : t.val < 4 := by have h : t.val < grid1.N := t.isLt; rw [N_1] at h; exact h
  obtain ⟨e0, e1, e2, e3, e4, e5, e6, e7⟩ := idx_facts1 t
  have hrow : (⟨((((cfg1.win 3).blk t).view.emb (ix2 r o)) 0).val, ((((cfg1.win 3).blk t).view.emb (ix2 r o)) 0).isLt⟩ : Fin 8000)
      = ⟨t.val * 2000 + r.val, by omega⟩ := by
    refine Fin.ext ?_
    show win1_3.index t (0 : Fin 2) * 2000 + 1 * r.val = t.val * 2000 + r.val
    omega
  have hcol : (⟨((((cfg1.win 3).blk t).view.emb (ix2 r o)) 1).val, ((((cfg1.win 3).blk t).view.emb (ix2 r o)) 1).isLt⟩ : Fin 64) = o := by
    refine Fin.ext ?_
    show win1_3.index t (1 : Fin 2) * 64 + 1 * o.val = o.val
    omega
  rw [hrow, hcol]
  have h0 : ∀ j : Fin 64, iblk1 V c 0 t (ix2 r j) = V c main_arg0 (ix2 (⟨t.val * 2000 + r.val, by omega⟩ : Fin 8000) j) := by
    intro j
    show V c main_arg0 (((cfg1.win 0).blk t).view.emb (ix2 r j)) = _
    refine congrArg _ (funext fun a => Fin.ext ?_)
    match a with
    | ⟨0, _⟩ => show win1_0.index t (0 : Fin 2) * 2000 + 1 * r.val = t.val * 2000 + r.val; omega
    | ⟨1, _⟩ => show win1_0.index t (1 : Fin 2) * 64 + 1 * j.val = j.val; omega
  have h1 : ∀ (o' j : Fin 64), iblk1 V c 1 t (ix2 o' j) = V c main_arg4 (ix2 o' j) := by
    intro o' j
    show V c main_arg4 (((cfg1.win 1).blk t).view.emb (ix2 o' j)) = _
    refine congrArg _ (funext fun a => Fin.ext ?_)
    match a with
    | ⟨0, _⟩ => show win1_1.index t (0 : Fin 2) * 64 + 1 * o'.val = o'.val; omega
    | ⟨1, _⟩ => show win1_1.index t (1 : Fin 2) * 64 + 1 * j.val = j.val; omega
  have h2 : ∀ (o' : Fin 64), iblk1 V c 2 t (ix2 0 o') = V c main_v27 (ix2 0 o') := by
    intro o'
    show V c main_v27 (((cfg1.win 2).blk t).view.emb (ix2 0 o')) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * o'.val = o'.val; omega
  simp only [h0, h1, h2]

/-- An index of the output array is in point `t`'s block iff each coordinate is in the block's range on its axis. -/
theorem mem_blk1 (t : Fin cfg1.N) (i : S8000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v28).slice (win1_3.rect t)).set ↔ _
  rw [View.set_slice_whole, Rect.mem_set_unit]
  exact Iff.rfl

/-- The four blocks of 2000 atoms fill the output array: atom `a` is in the block of point `a / 2000`. -/
theorem cover1 (i : S8000x64.Idx) : ∃ t : Fin cfg1.N, (cfg1.win 3).flush t = true ∧ i ∈ ((cfg1.win 3).blk t).view.set := by
  have hi0 : (i 0).val < 8000 := (i 0).isLt
  have hi1 : (i 1).val < 64 := (i 1).isLt
  refine ⟨⟨(i 0).val / 2000, by rw [show cfg1.N = 4 from N_1]; omega⟩, flush1_3 _, ?_⟩
  rw [mem_blk1]
  obtain ⟨e0, e1, e2, e3, e4, e5, e6, e7⟩ := idx_facts1 ⟨(i 0).val / 2000, by rw [show cfg1.N = 4 from N_1]; omega⟩
  intro a
  match a with
  | ⟨0, _⟩ => show win1_3.index _ (0 : Fin 2) * 2000 ≤ (i 0).val ∧ (i 0).val < win1_3.index _ (0 : Fin 2) * 2000 + 2000; rw [e6]; show (i 0).val / 2000 * 2000 ≤ _ ∧ _ < (i 0).val / 2000 * 2000 + 2000; omega
  | ⟨1, _⟩ => show win1_3.index _ (1 : Fin 2) * 64 ≤ (i 1).val ∧ (i 1).val < win1_3.index _ (1 : Fin 2) * 64 + 64; rw [e7]; omega

/-- The dense kernel's result array after its region. -/
theorem final1 (c : Dev nD) : (dat1 (F := Ideal) V c).arrAt 3 cfg1.N = selfArr (V c main_arg0) (V c main_arg4) (V c main_v27) :=
  (dat1 V c).arrAt_eq_of_cover 3 _ (fun t _ => flushed1_eq V c t) (cover1)

end Cert.KernelIdeal.Blocks

end
-- ==== Proof.KernelBlocks.lean ====
/-
  The two kernels' output arrays after their regions, each as one function of the arrays its region found:
  the pair kernel's (Proof/PairBlocks.lean) and the dense kernel's (Proof/DenseBlocks.lean).
-/
import proofs.«170788_j3307124818155_1_alg».proof.Proof.PairBlocks
import proofs.«170788_j3307124818155_1_alg».proof.Proof.DenseBlocks
-- ==== Proof.KernelHost.lean ====
/-
  The kernel program's host side: from the two regions' output arrays to the program's result.

  After region 0 the program holds the pair rows `Y : [50000, 4, 64]` (per pair: the mixed row, and the mixed row times
  each component of the unit vector). The host then flattens them to [50000, 256], adds them into a zero [8000, 256]
  array at the rows the target input names (read signed; a pair whose target is no atom contributes nothing), and reads
  the result as [8000, 4, 64]: entry (a, kk, o) is the zero word plus the sum over the pairs with target a of
  Y (p, kk, o). Channel 0 is the scalar sum; channels 1, 2, 3 are squared and summed onto the zero word, the regulariser
  added, the square root taken and the result scaled per feature by the scale vector; the program's result is the sum
  of the two plus region 1's output `Z : [8000, 64]` (the dense self term).

  `hostTerm` is that computation as one term over Y, Z, the target column and the scale vector; `hostTerm_apply`
  reads it at an index (a, o) as the specification's `outOf` of `envK`; `result_eq_hostTerm` identifies the buffer the
  program returns with it, walking the host operations back through the two regions; `result_of_regions` joins them.
-/
import proofs.«170788_j3307124818155_1_alg».proof.Proof.Gen.KernelIdeal.Frame
import proofs.«170788_j3307124818155_1_alg».proof.Proof.Spec
import proofs.«170788_j3307124818155_1_alg».proof.Proof.LibRowGatherScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem

/-- The four sums over pairs of every atom, as the host operations compute them from the pair rows `Y` and the
    target column `i9`: the rows flattened to [50000, 256], added into a zero [8000, 256] array at the rows the
    target column names, and the result read as [8000, 4, 64]. -/
def envT (Y : S50000x4x64.Idx → EReal) (i9 : IVec S50000x1 32) : S8000x4x64.Idx → EReal :=
  shapeCast S8000x4x64
    (Host.scatterAdd (F := Ideal) (φ := .f32) scatter_S8000x256_S50000x1_S50000x256_1_0_0_1
      (broadcastInDim S8000x256 ![] bcast_S_S8000x256 (constant (F := Ideal) S_ .f32 0x00000000#32))
      i9 (shapeCast S50000x256 Y shapeCasts_S50000x4x64_S50000x256))
    shapeCasts_S8000x256_S8000x4x64

/-- At atom `a`, channel `kk` and feature `o` it is the zero word plus the sum, over the pairs whose target is
    `a`, of the pairs' rows at `(kk, o)`: column `64·kk + o` of the flattened arrays. -/
theorem envT_apply (Y : S50000x4x64.Idx → EReal) (i9 : IVec S50000x1 32) (a : Fin 8000) (kk : Fin 4) (o : Fin 64) :
    envT Y i9 (ix3 a kk o)
      = Ideal.ofBits .f32 0x00000000#32
        + ∑ p ∈ Finset.univ.filter (fun p : Fin 50000 => (i9 (ix2 p 0)).toInt = (a.val : Int)), Y (ix3 p kk o) := by
  have hkk := kk.isLt
  have ho := o.isLt
  have hc : 64 * kk.val + o.val < 256 := by omega
  unfold envT
  refine (shapeCast_apply _ _ (ix3 a kk o) (ix2 a (⟨64 * kk.val + o.val, hc⟩ : Fin 256)) (by
    rw [Shape.rowMajor_val_two, Shape.rowMajor_val_three]
    show a.val * 256 + (64 * kk.val + o.val) = (a.val * 4 + kk.val) * 64 + o.val
    omega)).trans ?_
  refine (Cert.RowOps.rowScatterAdd_apply (N := 8000) (E := 50000) (C := 256)
    scatter_S8000x256_S50000x1_S50000x256_1_0_0_1_wf _ i9 _ a ⟨64 * kk.val + o.val, hc⟩).trans ?_
  refine congrArg₂ (· + ·) ?_ (Finset.sum_congr rfl fun p _ => ?_)
  · exact broadcastInDim_scalar_apply _ _ _
  · exact shapeCast_apply _ _ (ix2 p (⟨64 * kk.val + o.val, hc⟩ : Fin 256)) (ix3 p kk o) (by
      rw [Shape.rowMajor_val_two, Shape.rowMajor_val_three]
      show (p.val * 4 + kk.val) * 64 + o.val = p.val * 256 + (64 * kk.val + o.val)
      omega)

/-- The scalar sums: channel 0 of `envT`, sliced out and read as [8000, 64]. -/
def scalarT (Y : S50000x4x64.Idx → EReal) (i9 : IVec S50000x1 32) : S8000x64.Idx → EReal :=
  shapeCast S8000x64
    (extractStridedSlice S8000x1x64 ![0, 0, 0] (envT Y i9) slices_S8000x4x64_S8000x1x64_0_0_0)
    shapeCasts_S8000x1x64_S8000x64

/-- The vector term: channels 1, 2, 3 of `envT` sliced out, squared, summed over the channel axis onto the zero word,
    the regulariser added, the square root taken, and the result scaled per feature by `v6`. -/
def vecT (Y : S50000x4x64.Idx → EReal) (i9 : IVec S50000x1 32) (v6 : S64.Idx → EReal) : S8000x64.Idx → EReal :=
  mulf (F := Ideal) (s := S8000x64) (φ := .f32)
    (Host.sqrt (F := Ideal) (s := S8000x64) (φ := .f32)
      (addf (F := Ideal) (s := S8000x64) (φ := .f32)
        (Host.reduceAdd (F := Ideal) (φ := .f32)
          (mulf (F := Ideal) (s := S8000x3x64) (φ := .f32)
            (extractStridedSlice S8000x3x64 ![0, 1, 0] (envT Y i9) slices_S8000x4x64_S8000x3x64_0_1_0)
            (extractStridedSlice S8000x3x64 ![0, 1, 0] (envT Y i9) slices_S8000x4x64_S8000x3x64_0_1_0))
          (constant (F := Ideal) S_ .f32 0x00000000#32) reducesTo_S8000x3x64_S8000x64_d1 h_S_)
        (broadcastInDim S8000x64 ![] bcast_S_S8000x64 (constant (F := Ideal) S_ .f32 0x0DA24260#32))))
    (broadcastInDim S8000x64 ![0, 1] bcast_S1x64_S8000x64_0_1 (broadcastInDim S1x64 ![1] bcast_S64_S1x64_1 v6))

/-- The program's result from the two regions' outputs `Y`, `Z`, the target column and the scale vector. -/
def hostTerm (Y : S50000x4x64.Idx → EReal) (Z : S8000x64.Idx → EReal) (i9 : IVec S50000x1 32)
    (v6 : S64.Idx → EReal) : S8000x64.Idx → EReal :=
  addf (F := Ideal) (s := S8000x64) (φ := .f32)
    (addf (F := Ideal) (s := S8000x64) (φ := .f32) (scalarT Y i9) (vecT Y i9 v6)) Z

theorem scalarT_apply (Y : S50000x4x64.Idx → EReal) (i9 : IVec S50000x1 32) (a : Fin 8000) (o : Fin 64) :
    scalarT Y i9 (ix2 a o) = envT Y i9 (ix3 a 0 o) := by
  unfold scalarT
  refine (shapeCast_apply _ _ (ix2 a o) (ix3 a (0 : Fin 1) o) (by
    rw [Shape.rowMajor_val_two, Shape.rowMajor_val_three]
    show (a.val * 1 + 0) * 64 + o.val = a.val * 64 + o.val
    omega)).trans ?_
  exact extractStridedSlice_apply _ _ _ (ix3 a (0 : Fin 1) o) (ix3 a (0 : Fin 4) o) (fun b => match b with
    | ⟨0, _⟩ => by show a.val = 0 + a.val; omega
    | ⟨1, _⟩ => by show 0 = 0 + 0; omega
    | ⟨2, _⟩ => by show o.val = 0 + o.val; omega)

theorem vecT_apply (Y : S50000x4x64.Idx → EReal) (i9 : IVec S50000x1 32) (v6 : S64.Idx → EReal) (a : Fin 8000) (o : Fin 64) :
    vecT Y i9 v6 (ix2 a o)
      = Ideal.sqrt ((Ideal.ofBits .f32 0x00000000#32
            + ∑ k : Fin 3, envT Y i9 (ix3 a k.succ o) * envT Y i9 (ix3 a k.succ o))
          + Ideal.ofBits .f32 0x0DA24260#32) * v6 (ix1 o) := by
  have hred : S8000x3x64.Reduces [1] S8000x64 := by decide
  unfold vecT
  rw [mulf_apply]
  refine congrArg₂ (· * ·) ?_ ?_
  · show Ideal.sqrt (_ + _) = _
    refine congrArg Ideal.sqrt (congrArg₂ (· + ·) ?_ ?_)
    · rw [hostReduceAdd_apply, Ideal.hostReduceAdd_single _ hred]
      refine congrArg₂ (· + ·) rfl (Finset.sum_congr rfl fun k _ => ?_)
      rw [mulf_apply]
      have e : extractStridedSlice S8000x3x64 ![0, 1, 0] (envT Y i9) slices_S8000x4x64_S8000x3x64_0_1_0 (hred.lift (ix2 a o) k)
          = envT Y i9 (ix3 a k.succ o) :=
        extractStridedSlice_apply _ _ _ _ (ix3 a k.succ o) (fun b => match b with
          | ⟨0, _⟩ => by show a.val = 0 + a.val; omega
          | ⟨1, _⟩ => by show k.val + 1 = 1 + k.val; omega
          | ⟨2, _⟩ => by show o.val = 0 + o.val; omega)
      exact congrArg₂ (· * ·) e e
    · exact broadcastInDim_scalar_apply _ _ _
  · refine (broadcastInDim_apply _ _ _ (ix2 a o) (ix2 (0 : Fin 1) o) (fun b => match b with
      | ⟨0, _⟩ => rfl
      | ⟨1, _⟩ => rfl)).trans ?_
    exact broadcastInDim_apply _ _ _ (ix2 (0 : Fin 1) o) (ix1 o) (fun b => match b with
      | ⟨0, _⟩ => rfl)

/-- THE HOST SIDE AT AN INDEX: the program's result at atom `a`, feature `o`. -/
theorem hostTerm_apply (Y : S50000x4x64.Idx → EReal) (Z : S8000x64.Idx → EReal) (i9 : IVec S50000x1 32)
    (v6 : S64.Idx → EReal) (a : Fin 8000) (o : Fin 64) :
    hostTerm Y Z i9 v6 (ix2 a o)
      = Cert.Interact.outOf
          (fun kk => Cert.Interact.envK (fun p kk' o' => Y (ix3 p kk' o')) (fun p => (i9 (ix2 p 0)).toInt) a kk o)
          (v6 (ix1 o)) (Z (ix2 a o)) := by
  unfold hostTerm Cert.Interact.outOf Cert.Interact.envK
  rw [addf_apply, addf_apply, scalarT_apply, vecT_apply]
  simp only [envT_apply]

/-! ## The program's result as that term: the fold of the host operations walked back to the regions' outputs -/

section Fold

variable (m : (ℓ : Loc nD τ sig) → Buf (Elt Ideal) ℓ) (ρ : Dev nD → PrngReg) (c : Dev nD)

/-- The target input is, at region 0's exit, as launched: region 0 has no window on it and no host operation before
    region 0 writes it. -/
theorem W2_main_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c : Thread nD τ).loc main_arg9) := rfl

/-- The same for the scale vector. -/
theorem W2_main_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c : Thread nD τ).loc main_arg6) := rfl

/-- The last stretch: the result is the scalar sums plus the vector term, plus region 1's output. -/
theorem W5_main_v30 : (W5 m ρ c (Proc.devRef .tc main_v30) : S8000x64.Idx → EReal)
    = addf (F := Ideal) (s := S8000x64) (φ := .f32)
        (addf (F := Ideal) (s := S8000x64) (φ := .f32) (W4 m ρ c (Proc.devRef .tc main_v17)) (W4 m ρ c (Proc.devRef .tc main_v26)))
        (W4 m ρ c (Proc.devRef .tc main_v28)) := by
  show StableHlo.after hostOps2 (W4 m ρ c) (Proc.devRef .tc main_v30) = _
  after_results

/-- The middle stretch at the scalar sums: the operations' term over region 0's output and the target input. -/
theorem W3_main_v17 : (W3 m ρ c (Proc.devRef .tc main_v17) : S8000x64.Idx → EReal)
    = scalarT (W2 m ρ c (Proc.devRef .tc main_v10))
        (broadcastInDim S50000x1 ![0] bcast_S50000_S50000x1_0 (W2 m ρ c (Proc.devRef .tc main_arg9))) := by
  show StableHlo.after hostOps1 (W2 m ρ c) (Proc.devRef .tc main_v17) = _
  after_results
  rfl

/-- The middle stretch at the vector term. -/
theorem W3_main_v26 : (W3 m ρ c (Proc.devRef .tc main_v26) : S8000x64.Idx → EReal)
    = vecT (W2 m ρ c (Proc.devRef .tc main_v10))
        (broadcastInDim S50000x1 ![0] bcast_S50000_S50000x1_0 (W2 m ρ c (Proc.devRef .tc main_arg9)))
        (W2 m ρ c (Proc.devRef .tc main_arg6)) := by
  show StableHlo.after hostOps1 (W2 m ρ c) (Proc.devRef .tc main_v26) = _
  after_results
  rfl

/-- THE FOLD: the program's result is `hostTerm` of the two regions' outputs, the target input as a column, and the
    scale vector. -/
theorem result_eq_hostTerm (Y : S50000x4x64.Idx → EReal) (Z : S8000x64.Idx → EReal)
    (hY : (dat0 (F := Ideal) (V1 m ρ) c).arrAt 6 cfg0.N = Y)
    (hZ : (dat1 (F := Ideal) (V3 m ρ) c).arrAt 3 cfg1.N = Z) :
    (W5 m ρ c (Proc.devRef .tc main_v30) : S8000x64.Idx → EReal)
      = hostTerm Y Z
          (broadcastInDim S50000x1 ![0] bcast_S50000_S50000x1_0 (m ((c : Thread nD τ).loc main_arg9)))
          (m ((c : Thread nD τ).loc main_arg6)) := by
  have e10 : (W2 m ρ c (Proc.devRef .tc main_v10) : S50000x4x64.Idx → EReal) = Y := (W2_arr m ρ c 6).trans hY
  have e28 : (W4 m ρ c (Proc.devRef .tc main_v28) : S8000x64.Idx → EReal) = Z := (W4_arr m ρ c 3).trans hZ
  have e9 : (broadcastInDim S50000x1 ![0] bcast_S50000_S50000x1_0 (W2 m ρ c (Proc.devRef .tc main_arg9)) : IVec S50000x1 32)
      = broadcastInDim S50000x1 ![0] bcast_S50000_S50000x1_0 (m ((c : Thread nD τ).loc main_arg9)) :=
    congrArg (broadcastInDim S50000x1 ![0] bcast_S50000_S50000x1_0) (W2_main_arg9 m ρ c)
  have e17 : (W4 m ρ c (Proc.devRef .tc main_v17) : S8000x64.Idx → EReal) = scalarT Y _ :=
    ((W4_of_ne m ρ c main_v17 (by decide)).trans (W3_main_v17 m ρ c)).trans (congrArg₂ scalarT e10 e9)
  have e26 : (W4 m ρ c (Proc.devRef .tc main_v26) : S8000x64.Idx → EReal) = vecT Y _ _ :=
    ((W4_of_ne m ρ c main_v26 (by decide)).trans (W3_main_v26 m ρ c)).trans
      (congr (congrArg₂ vecT e10 e9) (W2_main_arg6 m ρ c))
  rw [W5_main_v30, e17, e26, e28]
  rfl

end Fold

/-- THE HOST SIDE: the program's result at atom `a`, feature `o`, from the two regions' outputs. -/
theorem result_of_regions (m : (ℓ : Loc nD τ sig) → Buf (Elt Ideal) ℓ) (ρ : Dev nD → PrngReg) (c : Dev nD)
    (Y : S50000x4x64.Idx → EReal) (Z : S8000x64.Idx → EReal)
    (hY : (dat0 (F := Ideal) (V1 m ρ) c).arrAt 6 cfg0.N = Y)
    (hZ : (dat1 (F := Ideal) (V3 m ρ) c).arrAt 3 cfg1.N = Z)
    (a : Fin 8000) (o : Fin 64) :
    (W5 m ρ c (Proc.devRef .tc main_v30) : S8000x64.Idx → EReal) (ix2 a o)
      = Cert.Interact.outOf
          (fun kk => Cert.Interact.envK (fun p kk' o' => Y (ix3 p kk' o'))
            (fun p => ((broadcastInDim S50000x1 ![0] bcast_S50000_S50000x1_0 (m ((c.tc : Thread nD τ).loc main_arg9)) : IVec S50000x1 32) (ix2 p 0)).toInt) a kk o)
          ((m ((c.tc : Thread nD τ).loc main_arg6) : S64.Idx → EReal) (ix1 o)) (Z (ix2 a o)) :=
  (congrFun (result_eq_hostTerm m ρ c Y Z hY hZ) (ix2 a o)).trans (hostTerm_apply Y Z _ _ a o)

end Cert.KernelIdeal.HostSide

end
-- ==== Proof.KernelValue.lean ====
/-
  The kernel program's result, entry by entry, as the layer `resultK` of the launch arrays (Proof/Spec.lean).

  The host side gives the result at `(a, o)` as `outOf` of the sums, over the pairs whose target is `a`, of what
  the first region leaves, with the per-channel scale and what the second region leaves. The first region leaves the
  pairs' stacked rows and the second the atoms' self terms, both over the arrays the regions find at entry; those
  arrays are the launch arrays gathered at the wrapped source index, or laid out as a column or a row, or unchanged.
-/
import proofs.«170788_j3307124818155_1_alg».proof.Proof.KernelEntry
import proofs.«170788_j3307124818155_1_alg».proof.Proof.KernelBlocks
import proofs.«170788_j3307124818155_1_alg».proof.Proof.KernelHost
import proofs.«170788_j3307124818155_1_alg».proof.Proof.Spec

noncomputable section

namespace Cert.KernelIdeal.Value2

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A stacked row depends only on the values of its arguments. -/
theorem stackedRow_congr {f f' : Fin 64 → EReal} {d d' : EReal} {c3 c3' : Fin 3 → EReal} {mu mu' sg sg' : Fin 20 → EReal}
    {W W' : Fin 20 → Fin 64 → Fin 64 → EReal} (hf : f = f') (hd : d = d') (hc : c3 = c3') (hmu : mu = mu')
    (hsg : sg = sg') (hW : W = W') (kk : Fin 4) (o : Fin 64) :
    Cert.Interact.stackedRow f d c3 mu sg W kk o = Cert.Interact.stackedRow f' d' c3' mu' sg' W' kk o := by
  subst hf hd hc hmu hsg hW
  rfl

/-- A self term depends only on the values of its arguments. -/
theorem selfRow_congr {xa xa' : Fin 64 → EReal} {sw sw' : Fin 64 → Fin 64 → EReal} {sb sb' : Fin 64 → EReal}
    (hx : xa = xa') (hw : sw = sw') (hb : sb = sb') (o : Fin 64) :
    Cert.Interact.selfRow xa sw sb o = Cert.Interact.selfRow xa' sw' sb' o := by
  subst hx hw hb
  rfl

/-- What the first region leaves, row by row: the stacked row of the pair over the launch arrays. -/
theorem stacked_apply (p : Fin 50000) (kk : Fin 4) (o : Fin 64) :
    Blocks.stackedArr (V1 m ρ c main_v6) (V1 m ρ c main_v7) (V1 m ρ c main_arg2) (V1 m ρ c main_v8) (V1 m ρ c main_v9)
        (V1 m ρ c main_arg3) (ix3 p kk o)
      = Cert.Interact.stackedRow
          (fun j => (m ((c.tc : Thread nD τ).loc main_arg0) : S8000x64.Idx → EReal)
            (ix2 (Cert.RowOps.gatherRow (by decide : 0 < 8000) (Entry.idxCol (m ((c.tc : Thread nD τ).loc main_arg10))) p) j))
          ((m ((c.tc : Thread nD τ).loc main_arg1) : S50000.Idx → EReal) (ix1 p))
          (fun k => (m ((c.tc : Thread nD τ).loc main_arg2) : S50000x3.Idx → EReal) (ix2 p k))
          (fun s => (m ((c.tc : Thread nD τ).loc main_arg7) : S20.Idx → EReal) (ix1 s))
          (fun s => (m ((c.tc : Thread nD τ).loc main_arg8) : S20.Idx → EReal) (ix1 s))
          (fun s o' j => (m ((c.tc : Thread nD τ).loc main_arg3) : S20x64x64.Idx → EReal) (ix3 s o' j)) kk o := by
  show Cert.Interact.stackedRow
      (fun j => (V1 m ρ c main_v6 : S50000x64.Idx → EReal) (ix2 p j))
      ((V1 m ρ c main_v7 : S50000x1.Idx → EReal) (ix2 p 0))
      (fun k => (V1 m ρ c main_arg2 : S50000x3.Idx → EReal) (ix2 p k))
      (fun s => (V1 m ρ c main_v8 : S1x20.Idx → EReal) (ix2 0 s))
      (fun s => (V1 m ρ c main_v9 : S1x20.Idx → EReal) (ix2 0 s))
      (fun s o' j => (V1 m ρ c main_arg3 : S20x64x64.Idx → EReal) (ix3 s o' j)) kk o = _
  exact stackedRow_congr (funext fun j => Entry.V1_v6 m ρ c p j) (Entry.V1_v7 m ρ c p)
    (funext fun k => congrFun (Entry.V1_arg2 m ρ c) (ix2 p k)) (funext fun s => Entry.V1_v8 m ρ c s)
    (funext fun s => Entry.V1_v9 m ρ c s)
    (funext fun s => funext fun o' => funext fun j => congrFun (Entry.V1_arg3 m ρ c) (ix3 s o' j)) kk o

/-- What the second region leaves, entry by entry: the self term of the atom over the launch arrays. -/
theorem self_apply (a : Fin 8000) (o : Fin 64) :
    Blocks.selfArr (V3 m ρ c main_arg0) (V3 m ρ c main_arg4) (V3 m ρ c main_v27) (ix2 a o)
      = Cert.Interact.selfRow
          (fun j => (m ((c.tc : Thread nD τ).loc main_arg0) : S8000x64.Idx → EReal) (ix2 a j))
          (fun o' j => (m ((c.tc : Thread nD τ).loc main_arg4) : S64x64.Idx → EReal) (ix2 o' j))
          (fun o' => (m ((c.tc : Thread nD τ).loc main_arg5) : S64.Idx → EReal) (ix1 o')) o := by
  show Cert.Interact.selfRow
      (fun j => (V3 m ρ c main_arg0 : S8000x64.Idx → EReal) (ix2 a j))
      (fun o' j => (V3 m ρ c main_arg4 : S64x64.Idx → EReal) (ix2 o' j))
      (fun o' => (V3 m ρ c main_v27 : S1x64.Idx → EReal) (ix2 0 o')) o = _
  exact selfRow_congr (funext fun j => congrFun (Entry.V3_arg0 m ρ c) (ix2 a j))
    (funext fun o' => funext fun j => congrFun (Entry.V3_arg4 m ρ c) (ix2 o' j))
    (funext fun o' => Entry.V3_v27 m ρ c o') o

/-- The kernel program's result at an entry is the layer `resultK` of the launch arrays: the pairs' features mixed
    first, the mixed rows added at the target atoms, then the length of the vector part and the self term. -/
theorem kernel_result_apply (a : Fin 8000) (o : Fin 64) :
    (W5 m ρ c (Proc.devRef .tc main_v30) : S8000x64.Idx → EReal) (ix2 a o)
      = Cert.Interact.resultK
          (fun a' j => (m ((c.tc : Thread nD τ).loc main_arg0) : S8000x64.Idx → EReal) (ix2 a' j))
          (fun p => (m ((c.tc : Thread nD τ).loc main_arg1) : S50000.Idx → EReal) (ix1 p))
          (fun p k => (m ((c.tc : Thread nD τ).loc main_arg2) : S50000x3.Idx → EReal) (ix2 p k))
          (fun s o' j => (m ((c.tc : Thread nD τ).loc main_arg3) : S20x64x64.Idx → EReal) (ix3 s o' j))
          (fun o' j => (m ((c.tc : Thread nD τ).loc main_arg4) : S64x64.Idx → EReal) (ix2 o' j))
          (fun o' => (m ((c.tc : Thread nD τ).loc main_arg5) : S64.Idx → EReal) (ix1 o'))
          (fun o' => (m ((c.tc : Thread nD τ).loc main_arg6) : S64.Idx → EReal) (ix1 o'))
          (fun s => (m ((c.tc : Thread nD τ).loc main_arg7) : S20.Idx → EReal) (ix1 s))
          (fun s => (m ((c.tc : Thread nD τ).loc main_arg8) : S20.Idx → EReal) (ix1 s))
          (fun p => Cert.RowOps.gatherRow (by decide : 0 < 8000) (Entry.idxCol (m ((c.tc : Thread nD τ).loc main_arg10))) p)
          (fun p => ((broadcastInDim S50000x1 ![0] bcast_S50000_S50000x1_0 (m ((c.tc : Thread nD τ).loc main_arg9)) :
            IVec S50000x1 32) (ix2 p 0)).toInt) a o := by
  refine (HostSide.result_of_regions m ρ c _ _ (Blocks.final0 (V1 m ρ) c) (Blocks.final1 (V3 m ρ) c) a o).trans ?_
  unfold Cert.Interact.resultK
  rw [self_apply m ρ c a o]
  simp only [stacked_apply m ρ c]

end Cert.KernelIdeal.Value2

end
-- ==== Proof.IndexBridge.lean ====
/-
  The two programs compute their index columns by the same operations: the wrapped source index (a negative index has
  8000 added) laid out as a `[50000, 1]` column, and the target index laid out as such a column. The two printed terms
  differ only in which program's shape names and side facts they mention, so each equation holds by unfolding.
-/
import proofs.«170788_j3307124818155_1_alg».proof.Proof.KernelEntry
import proofs.«170788_j3307124818155_1_alg».proof.Proof.Gen.ReferenceIdeal.Read

noncomputable section

namespace Cert.Bridge

open Idealize.ShloMosaic

/-- The kernel program's wrapped source-index column is the reference program's. -/
theorem idxCol_eq (x10 : IVec Cert.KernelIdeal.S50000 32) :
    Cert.KernelIdeal.Entry.idxCol x10 = Cert.ReferenceIdeal.Read.val_main_v41 (F := Ideal) x10 := rfl

/-- The kernel program's target-index column is the reference program's. -/
theorem tgtCol_eq (x9 : IVec Cert.KernelIdeal.S50000 32) :
    (broadcastInDim Cert.KernelIdeal.S50000x1 ![0] Cert.KernelIdeal.Gen.bcast_S50000_S50000x1_0 x9 :
        IVec Cert.KernelIdeal.S50000x1 32)
      = Cert.ReferenceIdeal.Read.val_main_v49 (F := Ideal) x9 := rfl

end Cert.Bridge

end
-- ==== Proof.LibSlabGatherScatter.lean ====
/-
  Row gather and row scatter-add of a rank-3 array, read at an index.

  `x[idx]` of `x : [N, H, D]` at an integer vector `idx : [E]` (carried as `[E, 1]`) lowers to a `stablehlo.gather`
  of whole `[H, D]` slabs: result element `(e, h, d)` is `x` at slab `idx[e]` (read signed, clamped into
  `[0, N − 1]`) and position `(h, d)`. A segment sum of slabs `upd : [E, H, D]` into `[N, H, D]` lowers to a
  `stablehlo.scatter` with an `add` body: operand element `(n, h, d)` receives every `upd (e, h, d)` whose index
  `idx[e]`, read signed and not clamped, is exactly `n`.
-/
import Idealize.ShloMosaic.Lib.ValueIdx
import Idealize.ShloMosaic.PureOps.Ideal

noncomputable section

open scoped BigOperators

namespace Cert.SlabOps

open Idealize.ShloMosaic Idealize.ShloMosaic.ValueIdx

/-! ## The slab gather -/

/-- The dimension numbers of a slab gather: operand `[N, H, D]`, start indices `[E, 1]`, result `[E, H, D]`; offset
    axes `1, 2`, collapsed operand axis `0`, the start index naming operand axis `0`, slices of one whole slab. -/
abbrev slabGatherDims (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- The slab the gather reads for edge `e`: the start index read signed and clamped into `[0, N − 1]`. -/
def gatherSlab {N E w : Nat} (hN : 0 < N) (idx : IVec ⟨2, ![E, 1]⟩ w) (e : Fin E) : Fin N :=
  ⟨min (idx (ix2 e 0)).toInt.toNat (N - 1), by omega⟩

/-- The slab gather at `(e, h, d)` is the operand at slab `gatherSlab e` and position `(h, d)`. -/
theorem slabGather_apply {α : Type} {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (slabGatherDims N E H D wf) x idx (ix3 e h d) = x (ix3 (gatherSlab hN idx e) h d) := by
  unfold Host.gather
  congr 1
  funext a
  refine Fin.ext ?_
  match a with
  | ⟨0, _⟩ =>
    show (slabGatherDims N E H D wf).start (ix3 e h d) idx 0 + (slabGatherDims N E H D wf).batchCoord (ix3 e h d) 0
      + (slabGatherDims N E H D wf).offCoord (ix3 e h d) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ (slabGatherDims N E H D wf).startIndexMap from List.mem_singleton.mpr rfl)]
    have hsi : (slabGatherDims N E H D wf).siIdx (ix3 e h d) ⟨List.idxOf (0 : Fin 3) (slabGatherDims N E H D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (slabGatherDims N E H D wf).start (ix3 e h d) idx 1 + (slabGatherDims N E H D wf).batchCoord (ix3 e h d) 1
      + (slabGatherDims N E H D wf).offCoord (ix3 e h d) 1 = h.val
    rw [GatherDims.batchCoord_eq_zero _ _ _ List.not_mem_nil]
    have hst : (slabGatherDims N E H D wf).start (ix3 e h d) idx 1 = 0 := by
      unfold GatherDims.start
      rw [dif_neg (fun hh => absurd (List.mem_singleton.mp hh) (show (1 : Fin 3) ≠ 0 by decide))]
    rw [hst]
    simp only [Nat.add_zero, Nat.zero_add]
    unfold GatherDims.offCoord
    rw [dif_pos ((GatherDims.mem_sKept _ _).mpr
      ⟨fun hh => absurd (List.mem_singleton.mp hh) (show (1 : Fin 3) ≠ 0 by decide), List.not_mem_nil⟩)]
    rfl
  | ⟨2, _⟩ =>
    show (slabGatherDims N E H D wf).start (ix3 e h d) idx 2 + (slabGatherDims N E H D wf).batchCoord (ix3 e h d) 2
      + (slabGatherDims N E H D wf).offCoord (ix3 e h d) 2 = d.val
    rw [GatherDims.batchCoord_eq_zero _ _ _ List.not_mem_nil]
    have hst : (slabGatherDims N E H D wf).start (ix3 e h d) idx 2 = 0 := by
      unfold GatherDims.start
      rw [dif_neg (fun hh => absurd (List.mem_singleton.mp hh) (show (2 : Fin 3) ≠ 0 by decide))]
    rw [hst]
    simp only [Nat.add_zero, Nat.zero_add]
    unfold GatherDims.offCoord
    rw [dif_pos ((GatherDims.mem_sKept _ _).mpr
      ⟨fun hh => absurd (List.mem_singleton.mp hh) (show (2 : Fin 3) ≠ 0 by decide), List.not_mem_nil⟩)]
    rfl

/-! ## The slab scatter-add -/

/-- The dimension numbers of a slab scatter: operand `[N, H, D]`, scatter indices `[E, 1]`, updates `[E, H, D]`;
    update window axes `1, 2`, inserted operand axis `0`, the scatter index naming operand axis `0`. -/
abbrev slabScatterDims (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section Scatter
variable {N E H D w : Nat} (wf : ScatterDims.WF ⟨3, ![N, H, D]⟩ ⟨2, ![E, 1]⟩ ⟨3, ![E, H, D]⟩ [1, 2] [0] [0] 1)

theorem slabScatter_mem_sKept (a : Fin 3) :
    a ∈ (slabScatterDims N E H D wf).sKept ↔ a ∉ (slabScatterDims N E H D wf).insertedWindowDims := by
  simp [ScatterDims.sKept, Shape.kept, List.mem_filter, List.mem_finRange]

/-- On the slab axis the window of update `(e, h, d)` starts at the scatter index `idx[e]`, read signed. -/
theorem slabScatter_start0 (idx : IVec ⟨2, ![E, 1]⟩ w) (e : Fin E) (h : Fin H) (d : Fin D) :
    (slabScatterDims N E H D wf).start (ix3 e h d) idx 0 = (idx (ix2 e 0)).toInt := by
  unfold ScatterDims.start
  rw [dif_pos (show (0 : Fin 3) ∈ (slabScatterDims N E H D wf).scatterDimsToOperandDims from List.mem_singleton.mpr rfl)]
  have hsi : (slabScatterDims N E H D wf).siIdx (ix3 e h d)
      ⟨List.idxOf (0 : Fin 3) (slabScatterDims N E H D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem slabScatter_start1 (idx : IVec ⟨2, ![E, 1]⟩ w) (e : Fin E) (h : Fin H) (d : Fin D) :
    (slabScatterDims N E H D wf).start (ix3 e h d) idx 1 = 0 := by
  unfold ScatterDims.start
  rw [dif_neg (fun hh => absurd (List.mem_singleton.mp hh) (show (1 : Fin 3) ≠ 0 by decide))]

theorem slabScatter_start2 (idx : IVec ⟨2, ![E, 1]⟩ w) (e : Fin E) (h : Fin H) (d : Fin D) :
    (slabScatterDims N E H D wf).start (ix3 e h d) idx 2 = 0 := by
  unfold ScatterDims.start
  rw [dif_neg (fun hh => absurd (List.mem_singleton.mp hh) (show (2 : Fin 3) ≠ 0 by decide))]

theorem slabScatter_window0 (e : Fin E) (h : Fin H) (d : Fin D) :
    (slabScatterDims N E H D wf).window (ix3 e h d) 0 = 0 := by
  unfold ScatterDims.window
  rw [dif_neg (fun hh => ((slabScatter_mem_sKept wf 0).mp hh) (List.mem_singleton.mpr rfl))]

theorem slabScatter_window1 (e : Fin E) (h : Fin H) (d : Fin D) :
    (slabScatterDims N E H D wf).window (ix3 e h d) 1 = h.val := by
  unfold ScatterDims.window
  rw [dif_pos ((slabScatter_mem_sKept wf 1).mpr
    (fun hh => absurd (List.mem_singleton.mp hh) (show (1 : Fin 3) ≠ 0 by decide)))]
  rfl

theorem slabScatter_window2 (e : Fin E) (h : Fin H) (d : Fin D) :
    (slabScatterDims N E H D wf).window (ix3 e h d) 2 = d.val := by
  unfold ScatterDims.window
  rw [dif_pos ((slabScatter_mem_sKept wf 2).mpr
    (fun hh => absurd (List.mem_singleton.mp hh) (show (2 : Fin 3) ≠ 0 by decide)))]
  rfl

end Scatter

/-- Update `(e, h, d)` lands on operand element `(n, h', d')` exactly when the positions agree and the scatter index
    `idx[e]`, read signed, is the slab `n`. -/
theorem slabScatter_resultIdx_iff {N E H D w : Nat}
    (wf : ScatterDims.WF ⟨3, ![N, H, D]⟩ ⟨2, ![E, 1]⟩ ⟨3, ![E, H, D]⟩ [1, 2] [0] [0] 1)
    (idx : IVec ⟨2, ![E, 1]⟩ w) (e : Fin E) (h : Fin H) (d : Fin D) (n : Fin N) (h' : Fin H) (d' : Fin D) :
    (slabScatterDims N E H D wf).resultIdx? (ix3 e h d) idx = some (ix3 n h' d')
      ↔ (h = h' ∧ d = d' ∧ (idx (ix2 e 0)).toInt = (n.val : Int)) := by
  have hh := h.isLt
  have hd := d.isLt
  have hn := n.isLt
  unfold ScatterDims.resultIdx?
  constructor
  · intro hyp
    by_cases hall : ∀ a, 0 ≤ (slabScatterDims N E H D wf).start (ix3 e h d) idx a + (slabScatterDims N E H D wf).window (ix3 e h d) a
        ∧ (slabScatterDims N E H D wf).start (ix3 e h d) idx a + (slabScatterDims N E H D wf).window (ix3 e h d) a
          < (⟨3, ![N, H, D]⟩ : Shape).size a
    · rw [dif_pos hall] at hyp
      have heq := Option.some.inj hyp
      have h0 : ((slabScatterDims N E H D wf).start (ix3 e h d) idx 0 + (slabScatterDims N E H D wf).window (ix3 e h d) 0).toNat
          = n.val := congrArg (fun f => (f 0).val) heq
      have h1 : ((slabScatterDims N E H D wf).start (ix3 e h d) idx 1 + (slabScatterDims N E H D wf).window (ix3 e h d) 1).toNat
          = h'.val := congrArg (fun f => (f 1).val) heq
      have h2 : ((slabScatterDims N E H D wf).start (ix3 e h d) idx 2 + (slabScatterDims N E H D wf).window (ix3 e h d) 2).toNat
          = d'.val := congrArg (fun f => (f 2).val) heq
      have b0 := (hall 0).1
      rw [slabScatter_start0, slabScatter_window0] at h0 b0
      rw [slabScatter_start1, slabScatter_window1] at h1
      rw [slabScatter_start2, slabScatter_window2] at h2
      refine ⟨Fin.ext ?_, Fin.ext ?_, ?_⟩
      · omega
      · omega
      · omega
    · rw [dif_neg hall] at hyp
      exact absurd hyp (by simp)
  · rintro ⟨rfl, rfl, hi⟩
    have hall : ∀ a, 0 ≤ (slabScatterDims N E H D wf).start (ix3 e h d) idx a + (slabScatterDims N E H D wf).window (ix3 e h d) a
        ∧ (slabScatterDims N E H D wf).start (ix3 e h d) idx a + (slabScatterDims N E H D wf).window (ix3 e h d) a
          < (⟨3, ![N, H, D]⟩ : Shape).size a := by
      intro a
      match a with
      | ⟨0, _⟩ =>
        show 0 ≤ (slabScatterDims N E H D wf).start (ix3 e h d) idx 0 + (slabScatterDims N E H D wf).window (ix3 e h d) 0
          ∧ (slabScatterDims N E H D wf).start (ix3 e h d) idx 0 + (slabScatterDims N E H D wf).window (ix3 e h d) 0 < (N : Int)
        rw [slabScatter_start0, slabScatter_window0, hi]
        omega
      | ⟨1, _⟩ =>
        show 0 ≤ (slabScatterDims N E H D wf).start (ix3 e h d) idx 1 + (slabScatterDims N E H D wf).window (ix3 e h d) 1
          ∧ (slabScatterDims N E H D wf).start (ix3 e h d) idx 1 + (slabScatterDims N E H D wf).window (ix3 e h d) 1 < (H : Int)
        rw [slabScatter_start1, slabScatter_window1]
        omega
      | ⟨2, _⟩ =>
        show 0 ≤ (slabScatterDims N E H D wf).start (ix3 e h d) idx 2 + (slabScatterDims N E H D wf).window (ix3 e h d) 2
          ∧ (slabScatterDims N E H D wf).start (ix3 e h d) idx 2 + (slabScatterDims N E H D wf).window (ix3 e h d) 2 < (D : Int)
        rw [slabScatter_start2, slabScatter_window2]
        omega
    rw [dif_pos hall]
    congr 1
    funext a
    refine Fin.ext ?_
    match a with
    | ⟨0, _⟩ =>
      show ((slabScatterDims N E H D wf).start (ix3 e h d) idx 0 + (slabScatterDims N E H D wf).window (ix3 e h d) 0).toNat = n.val
      rw [slabScatter_start0, slabScatter_window0, hi]
      omega
    | ⟨1, _⟩ =>
      show ((slabScatterDims N E H D wf).start (ix3 e h d) idx 1 + (slabScatterDims N E H D wf).window (ix3 e h d) 1).toNat = h.val
      rw [slabScatter_start1, slabScatter_window1]
      omega
    | ⟨2, _⟩ =>
      show ((slabScatterDims N E H D wf).start (ix3 e h d) idx 2 + (slabScatterDims N E H D wf).window (ix3 e h d) 2).toNat = d.val
      rw [slabScatter_start2, slabScatter_window2]
      omega

/-- THE SLAB SCATTER-ADD AT `(n, h, d)`: the operand element plus the sum of the update elements `upd (e, h, d)` over
    the edges `e` whose scatter index `idx[e]`, read signed and not clamped, is the slab `n`. -/
theorem slabScatterAdd_apply {N E H D w : Nat}
    (wf : ScatterDims.WF ⟨3, ![N, H, D]⟩ ⟨2, ![E, 1]⟩ ⟨3, ![E, H, D]⟩ [1, 2] [0] [0] 1)
    (x : (⟨3, ![N, H, D]⟩ : Shape).Idx → EReal) (idx : IVec ⟨2, ![E, 1]⟩ w)
    (upd : (⟨3, ![E, H, D]⟩ : Shape).Idx → EReal) (n : Fin N) (h : Fin H) (d : Fin D) :
    Ideal.hostScatterAdd (slabScatterDims N E H D wf) x idx upd (ix3 n h d)
      = x (ix3 n h d)
        + ∑ e ∈ Finset.univ.filter (fun e : Fin E => (idx (ix2 e 0)).toInt = (n.val : Int)), upd (ix3 e h d) := by
  unfold Ideal.hostScatterAdd
  congr 1
  refine Finset.sum_nbij' (fun j => (j 0 : Fin E)) (fun e => ix3 e h d) ?_ ?_ ?_ ?_ ?_
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    exact Finset.mem_filter.mpr ⟨Finset.mem_univ _, hyp.2.2⟩
  · intro e he
    exact Finset.mem_filter.mpr ⟨Finset.mem_univ _,
      (slabScatter_resultIdx_iff wf idx e h d n h d).mpr ⟨rfl, rfl, (Finset.mem_filter.mp he).2⟩⟩
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    show ix3 a h d = ix3 a b c
    rw [hyp.1, hyp.2.1]
  · intro e _
    rfl
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    show upd (ix3 a b c) = upd (ix3 a h d)
    rw [hyp.1, hyp.2.1]

end Cert.SlabOps

end
-- ==== Proof.RefSense.lean ====
/-
  The sensitivities of the reference, read at an index.

  The reference computes, for each pair `p` and bin `s`, the sensitivity of the pair's distance in that bin; for each
  pair and axis `k` the component `coord / dist` of the unit vector; their products; and lays the four families side by
  side in one row of 80 columns: column `20 kk + s` holds channel `kk` (0 the sensitivity itself, `k + 1` the
  sensitivity times the `k`-th component) of bin `s`.
-/
import proofs.«170788_j3307124818155_1_alg».proof.Proof.Gen.ReferenceIdeal.Read
import proofs.«170788_j3307124818155_1_alg».proof.Proof.Spec

noncomputable section

open scoped BigOperators

namespace Cert.ReferenceIdeal.RefValue

open Cert.ReferenceIdeal Idealize.ShloMosaic Idealize.ShloMosaic.ValueIdx

/-- Column `20 kk + s` of the stacked row: channel `kk`, bin `s`. -/
abbrev col80 (kk : Fin 4) (s : Fin 20) : Fin 80 :=
  ⟨20 * kk.val + s.val, by have h0 := kk.isLt; have h1 := s.isLt; omega⟩

/-- Column `20 k + s` of the three vector channels laid side by side. -/
abbrev col60 (k : Fin 3) (s : Fin 20) : Fin 60 :=
  ⟨20 * k.val + s.val, by have h0 := k.isLt; have h1 := s.isLt; omega⟩

/-- The sensitivity array at pair `p` and bin `s` is the specification's `sens` of the pair's distance and the bin's
    centre and width. -/
theorem sense_apply (x1 : (⟨S50000, .f32⟩ : BufTy).Contents (Elt Ideal)) (x7 x8 : (⟨S20, .f32⟩ : BufTy).Contents (Elt Ideal))
    (p : Fin 50000) (s : Fin 20) :
    Read.val_main_v25 (F := Ideal) x1 x7 x8 (ix2 p s)
      = Cert.Interact.sens (x1 (ix1 p)) (x7 (ix1 s)) (x8 (ix1 s)) := by
  simp only [Read.val_main_v25_apply, Read.val_main_v22_apply, Read.val_main_v21_apply, Read.val_main_v20_apply,
    Read.val_main_cst_4_apply, Read.val_main_v10_apply, Read.val_main_v9_apply, Read.val_main_v6_apply,
    Read.val_main_v4_apply, Read.val_main_v2_apply, Read.val_main_v1_apply, Read.val_main_cst_apply,
    Read.val_main_v0_apply, Read.val_main_v5_apply, Read.val_main_v3_apply, Read.val_main_v8_apply,
    Read.val_main_v7_apply, Read.val_main_v24_apply, Read.val_main_v23_apply, Read.val_main_v19_apply,
    Read.val_main_v18_apply, Read.val_main_v17_apply, Read.val_main_cst_2_apply, Read.val_main_v16_apply,
    Read.val_main_v15_apply, Read.val_main_v14_apply, Read.val_main_v12_apply, Read.val_main_v11_apply,
    Read.val_main_cst_0_apply, Read.val_main_v13_apply, Read.val_main_cst_1_apply, Read.val_main_call0_v1_apply,
    Read.val_main_call0_v0_apply, Read.val_main_cst_3_apply]
  have e1 : Read.idx_main_v0 (Read.idx_main_v4 (ix2 p s)) = ix1 p :=
    funext fun d => Fin.ext (by match d with | ⟨0, _⟩ => rfl)
  have e2 : Read.idx_main_v3 (Read.idx_main_v5 (ix2 p s)) = ix1 s :=
    funext fun d => Fin.ext (by match d with | ⟨0, _⟩ => rfl)
  have e3 : Read.idx_main_v7 (Read.idx_main_v8 (ix2 p s)) = ix1 s :=
    funext fun d => Fin.ext (by match d with | ⟨0, _⟩ => rfl)
  have e4 : Read.idx_main_v23 (Read.idx_main_v24 (ix2 p s)) = ix1 p :=
    funext fun d => Fin.ext (by match d with | ⟨0, _⟩ => rfl)
  rw [e1, e2, e3, e4]
  rfl

/-- The unit-vector array at pair `p` and axis `k` is the coordinate divided by the distance. -/
theorem unit_apply (x1 : (⟨S50000, .f32⟩ : BufTy).Contents (Elt Ideal)) (x2 : (⟨S50000x3, .f32⟩ : BufTy).Contents (Elt Ideal))
    (p : Fin 50000) (k : Fin 3) :
    Read.val_main_v28 (F := Ideal) x1 x2 (ix2 p k) = Ideal.div (x2 (ix2 p k)) (x1 (ix1 p)) := by
  simp only [Read.val_main_v28_apply, Read.val_main_v27_apply, Read.val_main_v26_apply]
  have e1 : Read.idx_main_v26 (Read.idx_main_v27 (ix2 p k)) = ix1 p :=
    funext fun d => Fin.ext (by match d with | ⟨0, _⟩ => rfl)
  rw [e1]
  rfl

/-- The products sensitivity × unit-vector component, at pair `p`, axis `k`, bin `s`. -/
theorem senseVec_apply (x1 : (⟨S50000, .f32⟩ : BufTy).Contents (Elt Ideal)) (x2 : (⟨S50000x3, .f32⟩ : BufTy).Contents (Elt Ideal))
    (x7 x8 : (⟨S20, .f32⟩ : BufTy).Contents (Elt Ideal)) (p : Fin 50000) (k : Fin 3) (s : Fin 20) :
    Read.val_main_v33 (F := Ideal) x1 x2 x7 x8 (ix3 p k s)
      = Cert.Interact.sens (x1 (ix1 p)) (x7 (ix1 s)) (x8 (ix1 s)) * Ideal.div (x2 (ix2 p k)) (x1 (ix1 p)) := by
  rw [Read.val_main_v33_apply, Read.val_main_v31_apply, Read.val_main_v29_apply, Read.val_main_v32_apply,
    Read.val_main_v30_apply]
  have e1 : Read.idx_main_v29 (Read.idx_main_v31 (ix3 p k s)) = ix2 p s :=
    funext fun d => Fin.ext (by match d with | ⟨0, _⟩ => rfl | ⟨1, _⟩ => rfl)
  have e2 : Read.idx_main_v30 (Read.idx_main_v32 (ix3 p k s)) = ix2 p k :=
    funext fun d => Fin.ext (by match d with | ⟨0, _⟩ => rfl | ⟨1, _⟩ => rfl)
  rw [e1, e2, sense_apply, unit_apply]
  rfl

/-- The same products with the axis and the bin flattened into one column `20 k + s`. -/
theorem senseVecFlat_apply (x1 : (⟨S50000, .f32⟩ : BufTy).Contents (Elt Ideal)) (x2 : (⟨S50000x3, .f32⟩ : BufTy).Contents (Elt Ideal))
    (x7 x8 : (⟨S20, .f32⟩ : BufTy).Contents (Elt Ideal)) (p : Fin 50000) (k : Fin 3) (s : Fin 20) :
    Read.val_main_v34 (F := Ideal) x1 x2 x7 x8 (ix2 p (col60 k s))
      = Cert.Interact.sens (x1 (ix1 p)) (x7 (ix1 s)) (x8 (ix1 s)) * Ideal.div (x2 (ix2 p k)) (x1 (ix1 p)) := by
  rw [Read.val_main_v34_apply]
  have e1 : Read.idx_main_v34 (ix2 p (col60 k s)) = ix3 p k s := by
    have hp := p.isLt; have hk := k.isLt; have hs := s.isLt
    funext d
    refine Fin.ext ?_
    match d with
    | ⟨0, _⟩ => show (p.val * 60 + (20 * k.val + s.val)) / 60 = p.val; omega
    | ⟨1, _⟩ => show (p.val * 60 + (20 * k.val + s.val)) / 20 % 3 = k.val; omega
    | ⟨2, _⟩ => show (p.val * 60 + (20 * k.val + s.val)) % 20 = s.val; omega
  rw [e1, senseVec_apply]

/-- THE STACKED ROW: column `20 kk + s` of pair `p` holds the specification's `rho` at channel `kk` and bin `s`. -/
theorem stacked_apply (x1 : (⟨S50000, .f32⟩ : BufTy).Contents (Elt Ideal)) (x2 : (⟨S50000x3, .f32⟩ : BufTy).Contents (Elt Ideal))
    (x7 x8 : (⟨S20, .f32⟩ : BufTy).Contents (Elt Ideal)) (p : Fin 50000) (kk : Fin 4) (s : Fin 20) :
    Read.val_main_v35 (F := Ideal) x1 x2 x7 x8 (ix2 p (col80 kk s))
      = Cert.Interact.rho (x1 (ix1 p)) (fun k => x2 (ix2 p k)) (fun s' => x7 (ix1 s')) (fun s' => x8 (ix1 s')) kk s := by
  unfold Read.val_main_v35 Cert.Interact.rho
  refine Fin.cases ?_ (fun k => ?_) kk
  · rw [Fin.cases_zero]
    refine (concatenate_pair_apply_left (s₁ := S50000x20) (s₂ := S50000x60) (1 : Fin S50000x80.rank) _ _ _ (ix2 p (col80 0 s)) rfl (ix2 p s)
      (fun b => ?_)).trans (sense_apply x1 x7 x8 p s)
    match b with
    | ⟨0, _⟩ => rfl
    | ⟨1, _⟩ => show s.val = 20 * 0 + s.val; omega
  · rw [Fin.cases_succ]
    refine (concatenate_pair_apply_right (s₁ := S50000x20) (s₂ := S50000x60) (1 : Fin S50000x80.rank) _ _ _ (ix2 p (col80 k.succ s)) rfl rfl
      (ix2 p (col60 k s)) (fun b hb => ?_) ?_).trans (senseVecFlat_apply x1 x2 x7 x8 p k s)
    · match b with
      | ⟨0, _⟩ => rfl
      | ⟨1, _⟩ => exact absurd rfl hb
    · show (20 * k.val + s.val) + 20 = 20 * (k.val + 1) + s.val
      omega

end Cert.ReferenceIdeal.RefValue

end
-- ==== Proof.RefEnv.lean ====
/-
  The environment sums of the reference, read at an index.

  Each pair `p` gathers the 64 features of its source atom (the start index clamped into the atoms' range), multiplies
  them by the 80 entries of its stacked sensitivity row, and the products are added up at the pair's target atom: the
  entry `(a, 20 kk + s, j)` of the result is zero plus the sum, over the pairs whose target index is exactly `a`, of
  channel `kk` of bin `s` times feature `j` of the source atom.
-/
import proofs.«170788_j3307124818155_1_alg».proof.Proof.Gen.ReferenceIdeal.Read
import proofs.«170788_j3307124818155_1_alg».proof.Proof.Spec
import proofs.«170788_j3307124818155_1_alg».proof.Proof.LibRowGatherScatter
import proofs.«170788_j3307124818155_1_alg».proof.Proof.LibSlabGatherScatter
import proofs.«170788_j3307124818155_1_alg».proof.Proof.RefSense

noncomputable section

open scoped BigOperators

namespace Cert.ReferenceIdeal.RefValue

open Cert.ReferenceIdeal Idealize.ShloMosaic Idealize.ShloMosaic.ValueIdx

/-- The gathered features at pair `p` and feature `j`: the features of the pair's source atom. -/
theorem feat_apply (x0 : (⟨S8000x64, .f32⟩ : BufTy).Contents (Elt Ideal)) (x10 : (⟨S50000, .i32⟩ : BufTy).Contents (Elt Ideal))
    (p : Fin 50000) (j : Fin 64) :
    Read.val_main_v42 (F := Ideal) x0 x10 (ix2 p j)
      = x0 (ix2 (Cert.RowOps.gatherRow (by decide : 0 < 8000) (Read.val_main_v41 (F := Ideal) x10) p) j) := by
  unfold Read.val_main_v42
  exact Cert.RowOps.rowGather_apply (N := 8000) (E := 50000) (C := 64) (by decide)
    Facts₀.gather_S8000x64_S50000x1_S50000x64_1_0_n_n_0_1_164_wf x0 (Read.val_main_v41 (F := Ideal) x10) p j

/-- A pair's contribution at column `20 kk + s` and feature `j`. -/
theorem contrib_apply (x0 : (⟨S8000x64, .f32⟩ : BufTy).Contents (Elt Ideal)) (x1 : (⟨S50000, .f32⟩ : BufTy).Contents (Elt Ideal))
    (x2 : (⟨S50000x3, .f32⟩ : BufTy).Contents (Elt Ideal)) (x7 x8 : (⟨S20, .f32⟩ : BufTy).Contents (Elt Ideal))
    (x10 : (⟨S50000, .i32⟩ : BufTy).Contents (Elt Ideal)) (p : Fin 50000) (kk : Fin 4) (s : Fin 20) (j : Fin 64) :
    Read.val_main_v47 (F := Ideal) x0 x1 x2 x7 x8 x10 (ix3 p (col80 kk s) j)
      = Cert.Interact.rho (x1 (ix1 p)) (fun k => x2 (ix2 p k)) (fun s' => x7 (ix1 s')) (fun s' => x8 (ix1 s')) kk s
        * x0 (ix2 (Cert.RowOps.gatherRow (by decide : 0 < 8000) (Read.val_main_v41 (F := Ideal) x10) p) j) := by
  rw [Read.val_main_v47_apply, Read.val_main_v45_apply, Read.val_main_v43_apply, Read.val_main_v46_apply,
    Read.val_main_v44_apply]
  have e1 : Read.idx_main_v43 (Read.idx_main_v45 (ix3 p (col80 kk s) j)) = ix2 p (col80 kk s) :=
    funext fun d => Fin.ext (by match d with | ⟨0, _⟩ => rfl | ⟨1, _⟩ => rfl)
  have e2 : Read.idx_main_v44 (Read.idx_main_v46 (ix3 p (col80 kk s) j)) = ix2 p j :=
    funext fun d => Fin.ext (by match d with | ⟨0, _⟩ => rfl | ⟨1, _⟩ => rfl)
  rw [e1, e2, stacked_apply, feat_apply]
  rfl

/-- THE ENVIRONMENT SUMS: entry `(a, 20 kk + s, j)` is the specification's `envR` at atom `a`, channel `kk`, bin `s`,
    feature `j`. -/
theorem env_apply (x0 : (⟨S8000x64, .f32⟩ : BufTy).Contents (Elt Ideal)) (x1 : (⟨S50000, .f32⟩ : BufTy).Contents (Elt Ideal))
    (x2 : (⟨S50000x3, .f32⟩ : BufTy).Contents (Elt Ideal)) (x7 x8 : (⟨S20, .f32⟩ : BufTy).Contents (Elt Ideal))
    (x9 x10 : (⟨S50000, .i32⟩ : BufTy).Contents (Elt Ideal)) (a : Fin 8000) (kk : Fin 4) (s : Fin 20) (j : Fin 64) :
    Read.val_main_v50 (F := Ideal) x0 x1 x2 x7 x8 x9 x10 (ix3 a (col80 kk s) j)
      = Cert.Interact.envR (fun a' j' => x0 (ix2 a' j')) (fun p => x1 (ix1 p)) (fun p k => x2 (ix2 p k))
          (fun s' => x7 (ix1 s')) (fun s' => x8 (ix1 s'))
          (fun p => Cert.RowOps.gatherRow (by decide : 0 < 8000) (Read.val_main_v41 (F := Ideal) x10) p)
          (fun p => (Read.val_main_v49 (F := Ideal) x9 (ix2 p 0)).toInt) a kk s j := by
  unfold Read.val_main_v50 Cert.Interact.envR
  refine (Cert.SlabOps.slabScatterAdd_apply (N := 8000) (E := 50000) (H := 80) (D := 64)
    Facts₀.scatter_S8000x80x64_S50000x1_S50000x80x64_12_0_0_1_wf (Read.val_main_v48 (F := Ideal))
    (Read.val_main_v49 (F := Ideal) x9) (Read.val_main_v47 (F := Ideal) x0 x1 x2 x7 x8 x10) a (col80 kk s) j).trans ?_
  refine congrArg₂ (· + ·) ?_ (Finset.sum_congr rfl fun p _ => contrib_apply x0 x1 x2 x7 x8 x10 p kk s j)
  rw [Read.val_main_v48_apply, Read.val_main_cst_6_apply]
  rfl

end Cert.ReferenceIdeal.RefValue

end
-- ==== Proof.RefMix.lean ====
/-
  The mixed environment sums of the reference, read at an index.

  The environment sums are cut into the scalar channel and the three vector channels, each flattened so that bin `s`
  and feature `j` share one column `64 s + j` (the vector channels also share the row `3 a + k` with the atom), and
  contracted with the bins' weight matrices flattened the same way. A sum over the 1280 columns is a sum over the
  20 bins of a sum over the 64 features.
-/
import proofs.«170788_j3307124818155_1_alg».proof.Proof.Gen.ReferenceIdeal.Read
import proofs.«170788_j3307124818155_1_alg».proof.Proof.Spec
import proofs.«170788_j3307124818155_1_alg».proof.Proof.LibRowGatherScatter
import proofs.«170788_j3307124818155_1_alg».proof.Proof.LibSlabGatherScatter
import proofs.«170788_j3307124818155_1_alg».proof.Proof.RefSense
import proofs.«170788_j3307124818155_1_alg».proof.Proof.RefEnv

noncomputable section

open scoped BigOperators

namespace Cert.ReferenceIdeal.RefValue

open Cert.ReferenceIdeal Idealize.ShloMosaic Idealize.ShloMosaic.ValueIdx

/-! ## A sum over `n` runs of `b` -/

/-- Position `j` of run `s` lies below `n · b`. -/
theorem run_lt {n b : Nat} (s : Fin n) (j : Fin b) : b * s.val + j.val < n * b := by
  have h1 : b * (s.val + 1) ≤ b * n := Nat.mul_le_mul_left b (Nat.succ_le_of_lt s.isLt)
  have h2 := j.isLt
  rw [Nat.mul_succ] at h1
  rw [Nat.mul_comm n b]
  omega

/-- A sum over `Fin (n · b)` is the sum over the `n` runs of the sums over the `b` positions of a run. -/
theorem sum_runs {M : Type*} [AddCommMonoid M] (n b : Nat) (f : Fin (n * b) → M) :
    ∑ q : Fin (n * b), f q = ∑ s : Fin n, ∑ j : Fin b, f ⟨b * s.val + j.val, run_lt s j⟩ := by
  rw [← Equiv.sum_comp finProdFinEquiv f, Fintype.sum_prod_type]
  refine Finset.sum_congr rfl fun s _ => Finset.sum_congr rfl fun j _ => congrArg f (Fin.ext ?_)
  show j.val + b * s.val = b * s.val + j.val
  omega

/-- Column `64 s + j` of a flattened [20, 64] block: bin `s`, feature `j`. -/
abbrev col1280 (s : Fin 20) (j : Fin 64) : Fin 1280 :=
  ⟨64 * s.val + j.val, by have h0 := s.isLt; have h1 := j.isLt; omega⟩

/-- Row `3 a + k` of the flattened vector channels: atom `a`, axis `k`. -/
abbrev row24000 (a : Fin 8000) (k : Fin 3) : Fin 24000 :=
  ⟨3 * a.val + k.val, by have h0 := a.isLt; have h1 := k.isLt; omega⟩

/-- A sum over the 1280 columns as a sum over bins of a sum over features. -/
theorem sum_col1280 {M : Type*} [AddCommMonoid M] (f : Fin 1280 → M) :
    ∑ q : Fin 1280, f q = ∑ s : Fin 20, ∑ j : Fin 64, f (col1280 s j) :=
  sum_runs 20 64 f

/-! ## The pieces of the contraction -/

section
variable (x0 : (⟨S8000x64, .f32⟩ : BufTy).Contents (Elt Ideal)) (x1 : (⟨S50000, .f32⟩ : BufTy).Contents (Elt Ideal))
  (x2 : (⟨S50000x3, .f32⟩ : BufTy).Contents (Elt Ideal)) (x3 : (⟨S20x64x64, .f32⟩ : BufTy).Contents (Elt Ideal))
  (x7 x8 : (⟨S20, .f32⟩ : BufTy).Contents (Elt Ideal)) (x9 x10 : (⟨S50000, .i32⟩ : BufTy).Contents (Elt Ideal))

/-- The specification's environment sum at the reference's arguments. -/
abbrev envAt (a : Fin 8000) (kk : Fin 4) (s : Fin 20) (j : Fin 64) : EReal :=
  Cert.Interact.envR (fun a' j' => x0 (ix2 a' j')) (fun p => x1 (ix1 p)) (fun p k => x2 (ix2 p k))
    (fun s' => x7 (ix1 s')) (fun s' => x8 (ix1 s'))
    (fun p => Cert.RowOps.gatherRow (by decide : 0 < 8000) (Read.val_main_v41 (F := Ideal) x10) p)
    (fun p => (Read.val_main_v49 (F := Ideal) x9 (ix2 p 0)).toInt) a kk s j

/-- The environment sums with the 80 columns split into channel and bin. -/
theorem env4_apply (a : Fin 8000) (kk : Fin 4) (s : Fin 20) (j : Fin 64) :
    Read.val_main_v51 (F := Ideal) x0 x1 x2 x7 x8 x9 x10 (ix4 a kk s j) = envAt x0 x1 x2 x7 x8 x9 x10 a kk s j := by
  rw [Read.val_main_v51_apply]
  have e : Read.idx_main_v51 (ix4 a kk s j) = ix3 a (col80 kk s) j := by
    have ha := a.isLt; have hk := kk.isLt; have hs := s.isLt; have hj := j.isLt
    funext d
    refine Fin.ext ?_
    match d with
    | ⟨0, _⟩ => show (((a.val * 4 + kk.val) * 20 + s.val) * 64 + j.val) / 5120 = a.val; omega
    | ⟨1, _⟩ => show (((a.val * 4 + kk.val) * 20 + s.val) * 64 + j.val) / 64 % 80 = 20 * kk.val + s.val; omega
    | ⟨2, _⟩ => show (((a.val * 4 + kk.val) * 20 + s.val) * 64 + j.val) % 64 = j.val; omega
  rw [e]
  exact env_apply x0 x1 x2 x7 x8 x9 x10 a kk s j

/-- The scalar channel, bin and feature flattened into one column. -/
theorem envScalarFlat_apply (a : Fin 8000) (s : Fin 20) (j : Fin 64) :
    Read.val_main_v54 (F := Ideal) x0 x1 x2 x7 x8 x9 x10 (ix2 a (col1280 s j)) = envAt x0 x1 x2 x7 x8 x9 x10 a 0 s j := by
  rw [Read.val_main_v54_apply]
  have e1 : Read.idx_main_v54 (ix2 a (col1280 s j)) = ix3 a s j := by
    have ha := a.isLt; have hs := s.isLt; have hj := j.isLt
    funext d
    refine Fin.ext ?_
    match d with
    | ⟨0, _⟩ => show (a.val * 1280 + (64 * s.val + j.val)) / 1280 = a.val; omega
    | ⟨1, _⟩ => show (a.val * 1280 + (64 * s.val + j.val)) / 64 % 20 = s.val; omega
    | ⟨2, _⟩ => show (a.val * 1280 + (64 * s.val + j.val)) % 64 = j.val; omega
  rw [e1, Read.val_main_v53_apply]
  have e2 : Read.idx_main_v53 (ix3 a s j) = ix4 a (0 : Fin 1) s j := by
    have ha := a.isLt; have hs := s.isLt; have hj := j.isLt
    funext d
    refine Fin.ext ?_
    match d with
    | ⟨0, _⟩ => show ((a.val * 20 + s.val) * 64 + j.val) / 1280 = a.val; omega
    | ⟨1, _⟩ => rfl
    | ⟨2, _⟩ => show ((a.val * 20 + s.val) * 64 + j.val) / 64 % 20 = s.val; omega
    | ⟨3, _⟩ => show ((a.val * 20 + s.val) * 64 + j.val) % 64 = j.val; omega
  rw [e2, Read.val_main_v52_apply]
  have e3 : Read.idx_main_v52 (ix4 a (0 : Fin 1) s j) = ix4 a (0 : Fin 4) s j :=
    funext fun d => Fin.ext (by match d with | ⟨0, _⟩ => rfl | ⟨1, _⟩ => rfl | ⟨2, _⟩ => rfl | ⟨3, _⟩ => rfl)
  rw [e3]
  exact env4_apply x0 x1 x2 x7 x8 x9 x10 a 0 s j

/-- The vector channels: row `3 a + k`, column `64 s + j`. -/
theorem envVecFlat_apply (a : Fin 8000) (k : Fin 3) (s : Fin 20) (j : Fin 64) :
    Read.val_main_v56 (F := Ideal) x0 x1 x2 x7 x8 x9 x10 (ix2 (row24000 a k) (col1280 s j))
      = envAt x0 x1 x2 x7 x8 x9 x10 a k.succ s j := by
  rw [Read.val_main_v56_apply]
  have e1 : Read.idx_main_v56 (ix2 (row24000 a k) (col1280 s j)) = ix4 a k s j := by
    have ha := a.isLt; have hk := k.isLt; have hs := s.isLt; have hj := j.isLt
    funext d
    refine Fin.ext ?_
    match d with
    | ⟨0, _⟩ => show ((3 * a.val + k.val) * 1280 + (64 * s.val + j.val)) / 3840 = a.val; omega
    | ⟨1, _⟩ => show ((3 * a.val + k.val) * 1280 + (64 * s.val + j.val)) / 1280 % 3 = k.val; omega
    | ⟨2, _⟩ => show ((3 * a.val + k.val) * 1280 + (64 * s.val + j.val)) / 64 % 20 = s.val; omega
    | ⟨3, _⟩ => show ((3 * a.val + k.val) * 1280 + (64 * s.val + j.val)) % 64 = j.val; omega
  rw [e1, Read.val_main_v55_apply]
  have e2 : Read.idx_main_v55 (ix4 a k s j) = ix4 a k.succ s j := by
    funext d
    refine Fin.ext ?_
    match d with
    | ⟨0, _⟩ => rfl
    | ⟨1, _⟩ => show 1 + k.val = k.val + 1; omega
    | ⟨2, _⟩ => rfl
    | ⟨3, _⟩ => rfl
  rw [e2]
  exact env4_apply x0 x1 x2 x7 x8 x9 x10 a k.succ s j

/-- The flattened weights: row `64 s + j`, column `o` holds bin `s`'s weight from feature `j` to channel `o`. -/
theorem weights_apply (s : Fin 20) (j : Fin 64) (o : Fin 64) :
    Read.val_main_v58 (F := Ideal) x3 (ix2 (col1280 s j) o) = x3 (ix3 s o j) := by
  rw [Read.val_main_v58_apply]
  have e1 : Read.idx_main_v58 (ix2 (col1280 s j) o) = ix3 s j o := by
    have hs := s.isLt; have hj := j.isLt; have ho := o.isLt
    funext d
    refine Fin.ext ?_
    match d with
    | ⟨0, _⟩ => show ((64 * s.val + j.val) * 64 + o.val) / 4096 = s.val; omega
    | ⟨1, _⟩ => show ((64 * s.val + j.val) * 64 + o.val) / 64 % 64 = j.val; omega
    | ⟨2, _⟩ => show ((64 * s.val + j.val) * 64 + o.val) % 64 = o.val; omega
  rw [e1, Read.val_main_v57_apply]
  exact congrArg x3 (funext fun d => Fin.ext (by match d with | ⟨0, _⟩ => rfl | ⟨1, _⟩ => rfl | ⟨2, _⟩ => rfl))

/-- The specification's mixed environment sum at the reference's arguments. -/
abbrev mixedAt (a : Fin 8000) (kk : Fin 4) (o : Fin 64) : EReal :=
  Cert.Interact.mixedEnv (fun a' j' => x0 (ix2 a' j')) (fun p => x1 (ix1 p)) (fun p k => x2 (ix2 p k))
    (fun s' o' j' => x3 (ix3 s' o' j')) (fun s' => x7 (ix1 s')) (fun s' => x8 (ix1 s'))
    (fun p => Cert.RowOps.gatherRow (by decide : 0 < 8000) (Read.val_main_v41 (F := Ideal) x10) p)
    (fun p => (Read.val_main_v49 (F := Ideal) x9 (ix2 p 0)).toInt) a kk o

/-- THE SCALAR CHANNEL MIXED: the first contraction at atom `a` and channel `o`. -/
theorem mixScalar_apply (a : Fin 8000) (o : Fin 64) :
    Read.val_main_v59 (F := Ideal) x0 x1 x2 x3 x7 x8 x9 x10 (ix2 a o) = mixedAt x0 x1 x2 x3 x7 x8 x9 x10 a 0 o := by
  rw [Read.val_main_v59_apply, sum_col1280]
  refine Finset.sum_congr rfl fun s _ => Finset.sum_congr rfl fun j _ => ?_
  have el : Read.lidx_main_v59 (ix2 a o) (col1280 s j) = ix2 a (col1280 s j) :=
    funext fun d => Fin.ext (by match d with | ⟨0, _⟩ => rfl | ⟨1, _⟩ => rfl)
  have er : Read.ridx_main_v59 (ix2 a o) (col1280 s j) = ix2 (col1280 s j) o :=
    funext fun d => Fin.ext (by match d with | ⟨0, _⟩ => rfl | ⟨1, _⟩ => rfl)
  rw [el, er, envScalarFlat_apply, weights_apply]

/-- THE VECTOR CHANNELS MIXED: the second contraction, regrouped by atom and axis, at atom `a`, axis `k`, channel `o`. -/
theorem mixVec_apply (a : Fin 8000) (k : Fin 3) (o : Fin 64) :
    Read.val_main_v61 (F := Ideal) x0 x1 x2 x3 x7 x8 x9 x10 (ix3 a k o) = mixedAt x0 x1 x2 x3 x7 x8 x9 x10 a k.succ o := by
  rw [Read.val_main_v61_apply]
  have e : Read.idx_main_v61 (ix3 a k o) = ix2 (row24000 a k) o := by
    have ha := a.isLt; have hk := k.isLt; have ho := o.isLt
    funext d
    refine Fin.ext ?_
    match d with
    | ⟨0, _⟩ => show ((a.val * 3 + k.val) * 64 + o.val) / 64 = 3 * a.val + k.val; omega
    | ⟨1, _⟩ => show ((a.val * 3 + k.val) * 64 + o.val) % 64 = o.val; omega
  rw [e, Read.val_main_v60_apply, sum_col1280]
  refine Finset.sum_congr rfl fun s _ => Finset.sum_congr rfl fun j _ => ?_
  have el : Read.lidx_main_v60 (ix2 (row24000 a k) o) (col1280 s j) = ix2 (row24000 a k) (col1280 s j) :=
    funext fun d => Fin.ext (by match d with | ⟨0, _⟩ => rfl | ⟨1, _⟩ => rfl)
  have er : Read.ridx_main_v60 (ix2 (row24000 a k) o) (col1280 s j) = ix2 (col1280 s j) o :=
    funext fun d => Fin.ext (by match d with | ⟨0, _⟩ => rfl | ⟨1, _⟩ => rfl)
  rw [el, er, envVecFlat_apply, weights_apply]

end

end Cert.ReferenceIdeal.RefValue

end
-- ==== Proof.RefValue.lean ====
/-
  The reference's result, read at an index.

  At atom `a` and channel `o` the reference adds three terms: the scalar channel's mixed environment sum; the square
  root of (zero plus the three squared vector-channel sums, plus a small constant) times the channel's scale; and the
  dense self term, the atom's features against row `o` of the self weights plus the bias. That is the
  specification's `resultR` at the reference's arguments, the source atom of a pair being its clamped start index
  and its target the scatter index read signed.
-/
import proofs.«170788_j3307124818155_1_alg».proof.Proof.Gen.ReferenceIdeal.Read
import proofs.«170788_j3307124818155_1_alg».proof.Proof.Spec
import proofs.«170788_j3307124818155_1_alg».proof.Proof.LibRowGatherScatter
import proofs.«170788_j3307124818155_1_alg».proof.Proof.LibSlabGatherScatter
import proofs.«170788_j3307124818155_1_alg».proof.Proof.RefSense
import proofs.«170788_j3307124818155_1_alg».proof.Proof.RefEnv
import proofs.«170788_j3307124818155_1_alg».proof.Proof.RefMix

noncomputable section

open scoped BigOperators

namespace Cert.ReferenceIdeal.RefValue

open Cert.ReferenceIdeal Idealize.ShloMosaic Idealize.ShloMosaic.ValueIdx

/-- The dense self term at atom `a` and channel `o`. -/
theorem self_apply (x0 : (⟨S8000x64, .f32⟩ : BufTy).Contents (Elt Ideal)) (x4 : (⟨S64x64, .f32⟩ : BufTy).Contents (Elt Ideal))
    (x5 : (⟨S64, .f32⟩ : BufTy).Contents (Elt Ideal)) (a : Fin 8000) (o : Fin 64) :
    Read.val_main_v74 (F := Ideal) x0 x4 x5 (ix2 a o)
      = Cert.Interact.selfRow (fun j => x0 (ix2 a j)) (fun o' j => x4 (ix2 o' j)) (fun o' => x5 (ix1 o')) o := by
  rw [Read.val_main_v74_apply, Read.val_main_v71_apply, Read.val_main_v73_apply, Read.val_main_v72_apply]
  have e1 : Read.idx_main_v72 (Read.idx_main_v73 (ix2 a o)) = ix1 o :=
    funext fun d => Fin.ext (by match d with | ⟨0, _⟩ => rfl)
  have hs : ∀ j : Fin 64, x0 (Read.lidx_main_v71 (ix2 a o) j) * Read.val_main_v70 (F := Ideal) x4 (Read.ridx_main_v71 (ix2 a o) j)
      = x0 (ix2 a j) * x4 (ix2 o j) := by
    intro j
    rw [Read.val_main_v70_apply]
    have el : Read.lidx_main_v71 (ix2 a o) j = ix2 a j :=
      funext fun d => Fin.ext (by match d with | ⟨0, _⟩ => rfl | ⟨1, _⟩ => rfl)
    have er : Read.idx_main_v70 (Read.ridx_main_v71 (ix2 a o) j) = ix2 o j :=
      funext fun d => Fin.ext (by match d with | ⟨0, _⟩ => rfl | ⟨1, _⟩ => rfl)
    rw [el, er]
  rw [e1, Finset.sum_congr rfl (fun j _ => hs j)]
  rfl

/-- The squared vector-channel sums added up over the three axes, onto zero. -/
theorem sumSquares_apply (x0 : (⟨S8000x64, .f32⟩ : BufTy).Contents (Elt Ideal)) (x1 : (⟨S50000, .f32⟩ : BufTy).Contents (Elt Ideal))
    (x2 : (⟨S50000x3, .f32⟩ : BufTy).Contents (Elt Ideal)) (x3 : (⟨S20x64x64, .f32⟩ : BufTy).Contents (Elt Ideal))
    (x7 x8 : (⟨S20, .f32⟩ : BufTy).Contents (Elt Ideal)) (x9 x10 : (⟨S50000, .i32⟩ : BufTy).Contents (Elt Ideal))
    (a : Fin 8000) (o : Fin 64) :
    Read.val_main_v63 (F := Ideal) x0 x1 x2 x3 x7 x8 x9 x10 (ix2 a o)
      = Ideal.ofBits .f32 0x00000000#32
        + ∑ k : Fin 3, mixedAt x0 x1 x2 x3 x7 x8 x9 x10 a k.succ o * mixedAt x0 x1 x2 x3 x7 x8 x9 x10 a k.succ o := by
  rw [Read.val_main_v63_apply, Read.val_main_cst_7_apply]
  refine congrArg₂ (· + ·) rfl (Finset.sum_congr rfl fun k _ => ?_)
  have e : Read.idx_main_v63 (ix2 a o) k = ix3 a k o :=
    funext fun d => Fin.ext (by match d with | ⟨0, _⟩ => rfl | ⟨1, _⟩ => rfl | ⟨2, _⟩ => rfl)
  rw [e, Read.val_main_v62_apply, mixVec_apply]
  rfl

/-- THE REFERENCE'S RESULT at atom `a` and channel `o` is the specification's `resultR`. -/
theorem result_apply (x0 : (⟨S8000x64, .f32⟩ : BufTy).Contents (Elt Ideal)) (x1 : (⟨S50000, .f32⟩ : BufTy).Contents (Elt Ideal))
    (x2 : (⟨S50000x3, .f32⟩ : BufTy).Contents (Elt Ideal)) (x3 : (⟨S20x64x64, .f32⟩ : BufTy).Contents (Elt Ideal))
    (x4 : (⟨S64x64, .f32⟩ : BufTy).Contents (Elt Ideal)) (x5 x6 : (⟨S64, .f32⟩ : BufTy).Contents (Elt Ideal))
    (x7 x8 : (⟨S20, .f32⟩ : BufTy).Contents (Elt Ideal)) (x9 x10 : (⟨S50000, .i32⟩ : BufTy).Contents (Elt Ideal))
    (a : Fin 8000) (o : Fin 64) :
    Read.val_main_v76 (F := Ideal) x0 x1 x2 x3 x4 x5 x6 x7 x8 x9 x10 (ix2 a o)
      = Cert.Interact.resultR (fun a' j => x0 (ix2 a' j)) (fun p => x1 (ix1 p)) (fun p k => x2 (ix2 p k))
          (fun s o' j => x3 (ix3 s o' j)) (fun o' j => x4 (ix2 o' j)) (fun o' => x5 (ix1 o')) (fun o' => x6 (ix1 o'))
          (fun s => x7 (ix1 s)) (fun s => x8 (ix1 s))
          (fun p => Cert.RowOps.gatherRow (by decide : 0 < 8000) (Read.val_main_v41 (F := Ideal) x10) p)
          (fun p => (Read.val_main_v49 (F := Ideal) x9 (ix2 p 0)).toInt) a o := by
  rw [Read.val_main_v76_apply, Read.val_main_v75_apply, Read.val_main_v69_apply, Read.val_main_v66_apply,
    Read.val_main_v65_apply, Read.val_main_v64_apply, Read.val_main_cst_8_apply, Read.val_main_v68_apply,
    Read.val_main_v67_apply, self_apply, mixScalar_apply, sumSquares_apply]
  have e1 : Read.idx_main_v67 (Read.idx_main_v68 (ix2 a o)) = ix1 o :=
    funext fun d => Fin.ext (by match d with | ⟨0, _⟩ => rfl)
  rw [e1]
  simp only [Ideal.addf_def, Ideal.mulf_def, Ideal.hostUnary_sqrt_def, Ideal.ofBits_def]
  rfl

end Cert.ReferenceIdeal.RefValue

end
-- ==== Proof.SensFacts.lean ====
/-
  Facts about the sensitivity `sens` of Proof/Spec.lean and about the quotient `Ideal.div` on real arguments.

  For real distance, centre and width the sensitivity is a real number: with q = (1/d − mu)/sg an arbitrary extended
  real, q·q is a real or ⊤, so (−1/2)·(q·q) is a real or ⊥ and its exponential is a real; the cut-off factor is the square
  of the cosine of a real, or 0. At distance 0 the quotient 1/0 is ⊤, so q is ⊤ or ⊥, q·q = ⊤, (−1/2)·⊤ = ⊥, and the
  exponential of ⊥ is 0: the sensitivity of a pair at distance 0 vanishes. A quotient of reals by a nonzero real is real.
-/
import proofs.«170788_j3307124818155_1_alg».proof.Proof.Spec

noncomputable section

namespace Cert.Interact

open Idealize.ShloMosaic

/-! ### The constants -/

/-- The word `0x3F800000` denotes `1`. -/
theorem ofBits_one : Ideal.ofBits .f32 0x3F800000#32 = 1 := by
  simp [Ideal.ofBits, Ideal.ieee, -EReal.coe_mul]; norm_num

/-- The word `0xBF000000` denotes the real `−1/2`. -/
theorem ofBits_neg_half : Ideal.ofBits .f32 0xBF000000#32 = ((-(1 / 2) : ℝ) : EReal) := by
  simp [Ideal.ofBits, Ideal.ieee, -EReal.coe_mul]; norm_num

/-- The word `0x40B00000` denotes the real `11/2`. -/
theorem ofBits_eleven_halves : Ideal.ofBits .f32 0x40B00000#32 = ((11 / 2 : ℝ) : EReal) := by
  simp [Ideal.ofBits, Ideal.ieee, -EReal.coe_mul]; norm_num

/-- The word `0x3FC90FDB` (the single-precision value nearest π/2) denotes a real number. -/
theorem ofBits_pi_half_real : ∃ r : ℝ, Ideal.ofBits .f32 0x3FC90FDB#32 = (r : EReal) := by
  simp [Ideal.ofBits, Ideal.ieee, -EReal.coe_mul]

/-! ### Quotients -/

/-- The quotient of a real by a nonzero real is a real. -/
theorem div_real (c d : ℝ) (hd : d ≠ 0) : ∃ r : ℝ, Ideal.div (c : EReal) (d : EReal) = (r : EReal) :=
  ⟨c * (1 / d), by rw [Ideal.div_coe hd, EReal.coe_mul]⟩

/-- `⊤` divided by a real is `⊤` or `⊥` (by zero: the infinity of the sign of `⊤`). -/
theorem top_div_real (sg : ℝ) : Ideal.div ⊤ (sg : EReal) = ⊤ ∨ Ideal.div ⊤ (sg : EReal) = ⊥ := by
  by_cases h : sg = 0
  · left
    subst h
    rw [Ideal.div, EReal.coe_zero, if_pos rfl, if_pos EReal.zero_lt_top]
  · rw [Ideal.div_coe h]
    rcases lt_or_gt_of_ne h with hlt | hgt
    · right
      exact EReal.top_mul_coe_of_neg (one_div_neg.2 hlt)
    · left
      exact EReal.top_mul_coe_of_pos (one_div_pos.2 hgt)

/-! ### The Gaussian factor -/

/-- For every extended real `q`, `exp((−1/2)·(q·q))` is a real number. -/
theorem exp_neg_half_sq_real (q : EReal) : ∃ r : ℝ, Ideal.exp (((-(1 / 2) : ℝ) : EReal) * (q * q)) = (r : EReal) := by
  have hneg : (-(1 / 2) : ℝ) < 0 := by norm_num
  induction q using EReal.rec with
  | bot => exact ⟨0, by rw [EReal.bot_mul_bot, EReal.coe_mul_top_of_neg hneg, Ideal.exp_bot, EReal.coe_zero]⟩
  | coe r => exact ⟨Real.exp (-(1 / 2) * (r * r)), by rw [← EReal.coe_mul, ← EReal.coe_mul, Ideal.exp_coe]⟩
  | top => exact ⟨0, by rw [EReal.top_mul_top, EReal.coe_mul_top_of_neg hneg, Ideal.exp_bot, EReal.coe_zero]⟩

/-- When `q` is infinite, `exp((−1/2)·(q·q))` is `0`. -/
theorem exp_neg_half_sq_inf (q : EReal) (hq : q = ⊤ ∨ q = ⊥) :
    Ideal.exp (((-(1 / 2) : ℝ) : EReal) * (q * q)) = 0 := by
  have hneg : (-(1 / 2) : ℝ) < 0 := by norm_num
  rcases hq with rfl | rfl
  · rw [EReal.top_mul_top, EReal.coe_mul_top_of_neg hneg, Ideal.exp_bot]
  · rw [EReal.bot_mul_bot, EReal.coe_mul_top_of_neg hneg, Ideal.exp_bot]

/-! ### The cut-off factor -/

/-- At a real distance the cut-off factor is a real number. -/
theorem cut_real (d : ℝ) : ∃ r : ℝ,
    Scalar.select (Ideal.cmp .olt (d : EReal) (Ideal.ofBits .f32 0x40B00000#32))
        (Ideal.cos (Ideal.div (Ideal.ofBits .f32 0x3FC90FDB#32 * (d : EReal)) (Ideal.ofBits .f32 0x40B00000#32)) *
          Ideal.cos (Ideal.div (Ideal.ofBits .f32 0x3FC90FDB#32 * (d : EReal)) (Ideal.ofBits .f32 0x40B00000#32)))
        (Ideal.ofBits .f32 0x00000000#32) = (r : EReal) := by
  obtain ⟨c, hc⟩ := ofBits_pi_half_real
  have h55 : (11 / 2 : ℝ) ≠ 0 := by norm_num
  rw [hc, ofBits_eleven_halves, Ideal.ofBits_zero_f32, ← EReal.coe_mul, Ideal.div_coe h55, ← EReal.coe_mul,
    Ideal.cos_coe, ← EReal.coe_mul]
  unfold Scalar.select
  split_ifs
  · exact ⟨_, rfl⟩
  · exact ⟨0, EReal.coe_zero.symm⟩

/-! ### The sensitivity -/

/-- At real arguments the sensitivity is a real number. -/
theorem sens_real (d mu sg : ℝ) : ∃ r : ℝ, sens (d : EReal) (mu : EReal) (sg : EReal) = (r : EReal) := by
  unfold sens
  rw [ofBits_neg_half]
  obtain ⟨e, he⟩ := exp_neg_half_sq_real
    (Ideal.div (Ideal.div (Ideal.ofBits .f32 0x3F800000#32) (d : EReal) - (mu : EReal)) (sg : EReal))
  obtain ⟨c, hc⟩ := cut_real d
  rw [he, hc]
  exact ⟨e * c, (EReal.coe_mul e c).symm⟩

/-- At distance `0` the sensitivity is `0`. -/
theorem sens_zero_dist (mu sg : ℝ) : sens ((0 : ℝ) : EReal) (mu : EReal) (sg : EReal) = 0 := by
  unfold sens
  have h1 : Ideal.div (Ideal.ofBits .f32 0x3F800000#32) ((0 : ℝ) : EReal) = ⊤ := by
    rw [ofBits_one, Ideal.div, EReal.coe_zero, if_pos rfl, if_pos zero_lt_one]
  rw [ofBits_neg_half, h1, EReal.top_sub_coe, exp_neg_half_sq_inf _ (top_div_real sg), zero_mul]

end Cert.Interact

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.Algebra.lean ====
/-
  The two arrangements of the interaction layer agree on real inputs.

  One pair's mixed row is, in every channel, `∑ s, ρ s · ∑ j, f j · W s o j` with `ρ` the pair's weighted sensitivities
  (`rho`): in channel 0 by definition; in a vector channel the factor `u = c / d` moves inside the sum over the bins —
  for `d ≠ 0` it is a real number and this is distributivity in the reals, for `d = 0` every sensitivity is 0 and both sides
  are 0. All the `ρ` are real numbers. The rest is an exchange of finite sums of real numbers:
  `∑_p ∑_s ρ p s · ∑_j f p j · w s j = ∑_s ∑_j (∑_p ρ p s · f p j) · w s j`.
-/
import proofs.«170788_j3307124818155_1_alg».proof.Proof.SensFacts
import proofs.«170788_j3307124818155_1_alg».proof.Proof.LibRealSums

noncomputable section

open scoped BigOperators

namespace Cert.Interact

open Idealize.ShloMosaic
open Cert.RealSums

/-! ### The exchange of sums -/

/-- In the reals: weighting each row's mixture and adding over the rows is mixing the weighted sums of the rows. -/
theorem real_exchange {P S J : Type*} [Fintype S] [Fintype J] (T : Finset P) (ρ : P → S → ℝ) (f : P → J → ℝ)
    (w : S → J → ℝ) :
    ∑ p ∈ T, ∑ s, ρ p s * ∑ j, f p j * w s j = ∑ s, ∑ j, (∑ p ∈ T, ρ p s * f p j) * w s j := by
  rw [Finset.sum_comm]
  refine Finset.sum_congr rfl fun s _ => ?_
  simp only [Finset.mul_sum, Finset.sum_mul]
  rw [Finset.sum_comm]
  refine Finset.sum_congr rfl fun j _ => Finset.sum_congr rfl fun p _ => ?_
  ring

/-- The same for extended reals that are real numbers, each sum started at zero as the programs start them. -/
theorem ereal_exchange {P S J : Type*} [Fintype S] [Fintype J] (T : Finset P) (ρ : P → S → EReal)
    (f : P → J → EReal) (w : S → J → EReal) (hρ : ∀ p s, ∃ r : ℝ, ρ p s = (r : EReal))
    (hf : ∀ p j, ∃ r : ℝ, f p j = (r : EReal)) (hw : ∀ s j, ∃ r : ℝ, w s j = (r : EReal)) :
    0 + ∑ p ∈ T, ∑ s, ρ p s * ∑ j, f p j * w s j = ∑ s, ∑ j, (0 + ∑ p ∈ T, ρ p s * f p j) * w s j := by
  choose R hR using hρ
  choose F hF using hf
  choose V hV using hw
  simp only [hR, hF, hV, zero_add, ← EReal.coe_mul, ← coe_sum]
  exact congrArg _ (real_exchange T R F V)

/-! ### One pair -/

/-- A pair's weighted sensitivities are real numbers: at distance 0 the sensitivity is 0, which annihilates the infinite
    unit vector. -/
theorem rho_real (d : EReal) (c3 : Fin 3 → EReal) (mu sg : Fin 20 → EReal) (hd : ∃ r : ℝ, d = (r : EReal))
    (hc : ∀ k, ∃ r : ℝ, c3 k = (r : EReal)) (hmu : ∀ s, ∃ r : ℝ, mu s = (r : EReal))
    (hsg : ∀ s, ∃ r : ℝ, sg s = (r : EReal)) (kk : Fin 4) (s : Fin 20) :
    ∃ r : ℝ, rho d c3 mu sg kk s = (r : EReal) := by
  obtain ⟨dr, rfl⟩ := hd
  obtain ⟨m, hm⟩ := hmu s
  obtain ⟨g, hg⟩ := hsg s
  refine Fin.cases ?_ (fun k => ?_) kk
  · simp only [rho, Fin.cases_zero, hm, hg]
    exact sens_real dr m g
  · simp only [rho, Fin.cases_succ, hm, hg]
    by_cases h0 : dr = 0
    · subst h0
      rw [sens_zero_dist, zero_mul]
      exact ⟨0, EReal.coe_zero.symm⟩
    · obtain ⟨e, he⟩ := sens_real dr m g
      obtain ⟨c, hc'⟩ := hc k
      obtain ⟨u, hu⟩ := div_real c dr h0
      rw [he, hc', hu]
      exact ⟨e * u, (EReal.coe_mul e u).symm⟩

/-- A pair's mixed row is, in every channel, the sum over the bins of the weighted sensitivity times the bin's
    mixture of the features. -/
theorem stackedRow_eq (f : Fin 64 → EReal) (d : EReal) (c3 : Fin 3 → EReal) (mu sg : Fin 20 → EReal)
    (W : Fin 20 → Fin 64 → Fin 64 → EReal) (hf : ∀ j, ∃ r : ℝ, f j = (r : EReal)) (hd : ∃ r : ℝ, d = (r : EReal))
    (hc : ∀ k, ∃ r : ℝ, c3 k = (r : EReal)) (hmu : ∀ s, ∃ r : ℝ, mu s = (r : EReal))
    (hsg : ∀ s, ∃ r : ℝ, sg s = (r : EReal)) (hW : ∀ s o j, ∃ r : ℝ, W s o j = (r : EReal))
    (kk : Fin 4) (o : Fin 64) :
    stackedRow f d c3 mu sg W kk o = ∑ s, rho d c3 mu sg kk s * ∑ j, f j * W s o j := by
  refine Fin.cases ?_ (fun k => ?_) kk
  · simp only [stackedRow, rho, Fin.cases_zero, mix]
  · simp only [stackedRow, rho, Fin.cases_succ, mix]
    obtain ⟨dr, rfl⟩ := hd
    by_cases h0 : dr = 0
    · -- every sensitivity is 0: both sides are 0
      subst h0
      have hs : ∀ s, sens ((0 : ℝ) : EReal) (mu s) (sg s) = 0 := fun s => by
        obtain ⟨m, hm⟩ := hmu s
        obtain ⟨g, hg⟩ := hsg s
        rw [hm, hg]
        exact sens_zero_dist m g
      simp only [hs, zero_mul, Finset.sum_const_zero]
    · -- the unit vector's component is real: distributivity in the reals
      obtain ⟨c, hc'⟩ := hc k
      obtain ⟨u, hu⟩ := div_real c dr h0
      rw [hc', hu]
      have hS : ∀ s, ∃ r : ℝ, sens (dr : EReal) (mu s) (sg s) = (r : EReal) := fun s => by
        obtain ⟨m, hm⟩ := hmu s
        obtain ⟨g, hg⟩ := hsg s
        rw [hm, hg]
        exact sens_real dr m g
      have hM : ∀ s, ∃ r : ℝ, ∑ j, f j * W s o j = (r : EReal) := fun s =>
        IsR.sum _ _ fun j _ => IsR.mul (hf j) (hW s o j)
      choose A hA using hS
      choose M hM' using hM
      simp only [hA, hM', ← EReal.coe_mul, ← coe_sum]
      refine congrArg _ ?_
      rw [Finset.sum_mul]
      exact Finset.sum_congr rfl fun s _ => by ring

/-! ### The sums over the pairs -/

/-- The sum of the pairs' mixed rows at an atom is the mixture of the summed outer products there. -/
theorem envK_eq_mixedEnv
    (x : Fin 8000 → Fin 64 → EReal) (dist : Fin 50000 → EReal) (coord : Fin 50000 → Fin 3 → EReal)
    (W : Fin 20 → Fin 64 → Fin 64 → EReal) (mu sg : Fin 20 → EReal) (src : Fin 50000 → Fin 8000)
    (tgt : Fin 50000 → Int)
    (hx : ∀ a j, ∃ r : ℝ, x a j = (r : EReal)) (hd : ∀ p, ∃ r : ℝ, dist p = (r : EReal))
    (hc : ∀ p k, ∃ r : ℝ, coord p k = (r : EReal)) (hW : ∀ s o j, ∃ r : ℝ, W s o j = (r : EReal))
    (hmu : ∀ s, ∃ r : ℝ, mu s = (r : EReal)) (hsg : ∀ s, ∃ r : ℝ, sg s = (r : EReal))
    (a : Fin 8000) (kk : Fin 4) (o : Fin 64) :
    envK (fun p => stackedRow (x (src p)) (dist p) (coord p) mu sg W) tgt a kk o
      = mixedEnv x dist coord W mu sg src tgt a kk o := by
  unfold envK mixedEnv envR
  rw [Ideal.ofBits_zero_f32]
  rw [Finset.sum_congr rfl fun p _ =>
    stackedRow_eq (x (src p)) (dist p) (coord p) mu sg W (hx (src p)) (hd p) (hc p) hmu hsg hW kk o]
  exact ereal_exchange _ (fun p s => rho (dist p) (coord p) mu sg kk s) (fun p j => x (src p) j) (fun s j => W s o j)
    (fun p s => rho_real (dist p) (coord p) mu sg (hd p) (hc p) hmu hsg kk s) (fun p j => hx (src p) j)
    (fun s j => hW s o j)

/-! ### The layer -/

/-- On real inputs the layer computed with each pair's features mixed first equals the layer computed with the outer
    products summed first. -/
theorem resultK_eq_resultR
    (x : Fin 8000 → Fin 64 → EReal) (dist : Fin 50000 → EReal) (coord : Fin 50000 → Fin 3 → EReal)
    (W : Fin 20 → Fin 64 → Fin 64 → EReal) (sw : Fin 64 → Fin 64 → EReal) (sb vs : Fin 64 → EReal)
    (mu sg : Fin 20 → EReal) (src : Fin 50000 → Fin 8000) (tgt : Fin 50000 → Int)
    (hx : ∀ a j, ∃ r : ℝ, x a j = (r : EReal)) (hd : ∀ p, ∃ r : ℝ, dist p = (r : EReal))
    (hc : ∀ p k, ∃ r : ℝ, coord p k = (r : EReal)) (hW : ∀ s o j, ∃ r : ℝ, W s o j = (r : EReal))
    (hmu : ∀ s, ∃ r : ℝ, mu s = (r : EReal)) (hsg : ∀ s, ∃ r : ℝ, sg s = (r : EReal))
    (a : Fin 8000) (o : Fin 64) :
    resultK x dist coord W sw sb vs mu sg src tgt a o = resultR x dist coord W sw sb vs mu sg src tgt a o := by
  unfold resultK resultR
  have key : (fun kk => envK (fun p => stackedRow (x (src p)) (dist p) (coord p) mu sg W) tgt a kk o)
      = fun kk => mixedEnv x dist coord W mu sg src tgt a kk o :=
    funext fun kk => envK_eq_mixedEnv x dist coord W mu sg src tgt hx hd hc hW hmu hsg a kk o
  rw [key]

end Cert.Interact

end
-- ==== Proof.Finite.lean ====
/-
  From the precondition to real entries. The precondition states, for each of the nine float inputs, that every entry
  has absolute value below +∞, and takes the conjunction. In the extended reals |x| = max x (-x) < ⊤ excludes x = ⊤ and
  x = ⊥, so every entry is (the coercion of) a real number.
-/
import proofs.«170788_j3307124818155_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Cert.Pre_finite_inputs Idealize.ShloMosaic

/-- The scalar shape has one index. -/
instance : Subsingleton S_.Idx := ⟨fun a b => funext fun d => d.elim0⟩

/-- The f32 word 0x7F800000 (exponent all ones, significand zero, sign clear) denotes +∞. -/
theorem inf_word : Ideal.ofBits .f32 0x7F800000#32 = (⊤ : EReal) := by
  simp [Ideal.ofBits, Ideal.ieee]

/-- An extended real whose absolute value max x (-x) is strictly below +∞ is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- all(|x| < +∞) over any shape: if the conjunction over all entries is 1, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : ∃ r : ℝ, x i = (r : EReal) :=
  real_of_abs_lt_inf (x i) (Host.reduce_andi_all _ _ hr hu _ e i)

theorem reals_of_pre [Cert.Pre_finite_inputs.Facts]
    (a0 : FVec Ideal S8000x64 .f32) (a1 : FVec Ideal S50000 .f32) (a2 : FVec Ideal S50000x3 .f32)
    (a3 : FVec Ideal S20x64x64 .f32) (a4 : FVec Ideal S64x64 .f32) (a5 a6 : FVec Ideal S64 .f32)
    (a7 a8 : FVec Ideal S20 .f32) (a9 a10 : IVec S50000 32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a7 i = (r : EReal)) ∧ (∀ i, ∃ r : ℝ, a8 i = (r : EReal)) := by
  have h0 := congrFun h ValueIdx.ix0
  unfold fn at h0
  dsimp only at h0
  unfold fn_part1 at h0
  dsimp only at h0
  unfold fn_part2 at h0
  dsimp only at h0
  -- the result is a nested conjunction, the last input's clause outermost
  obtain ⟨h0, e8⟩ := IntOp.andi_eq_one.1 h0
  obtain ⟨h0, e7⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a7 _ _ _ e7, all_real a8 _ _ _ e8⟩

end Cert.Finite

end
-- ==== Proof.lean ====
/-
  The certificate of an interaction layer on atom pairs: a Pallas pair kernel (20 distance bins' sensitivities, the
  unit vectors, and per pair the source atom's features mixed by the bins' 64×64 matrices) with a gather before it
  and a segment sum after it, and a dense self-interaction kernel, against a reference that forms the outer products
  sensitivity × feature per pair, adds them up per target atom and mixes the sums.

  The three frames are the generated ones (the reference's is its generated run with the result dropped); the ideal
  pass rewrote nothing, so `preserves` is `True`. For `algebraic`: the kernel program's result is read off its run
  (Proof/KernelRun.lean) through the two regions' output arrays (Proof/KernelBlocks.lean over the bodies read at an
  index, Proof/PairBody.lean and Proof/SelfBody.lean), the host operations between them (Proof/KernelHost.lean,
  Proof/KernelEntry.lean) and assembled in Proof/KernelValue.lean as `Interact.resultK` of the arguments; the
  reference's generated run is read operation by operation (Proof/RefValue.lean) as `Interact.resultR`. The two are
  equal when the float inputs are real numbers (Proof/Algebra.lean): mixing is linear, so it commutes with the sum
  over pairs; the sensitivities are real whatever the distance, and a pair at distance 0, whose unit vector is
  infinite, has all sensitivities 0 (Proof/SensFacts.lean). That the inputs are real is the precondition
  (Proof/Finite.lean).
-/
import proofs.«170788_j3307124818155_1_alg».proof.Defs
import proofs.«170788_j3307124818155_1_alg».proof.Proof.Gen.Kernel
import proofs.«170788_j3307124818155_1_alg».proof.Proof.Gen.Kernel.Skeleton
import proofs.«170788_j3307124818155_1_alg».proof.Proof.Gen.Kernel.Launch
import proofs.«170788_j3307124818155_1_alg».proof.Proof.Gen.Kernel.Points
import proofs.«170788_j3307124818155_1_alg».proof.Proof.Gen.Kernel.Frame
import proofs.«170788_j3307124818155_1_alg».proof.Proof.Gen.KernelIdeal
import proofs.«170788_j3307124818155_1_alg».proof.Proof.Gen.KernelIdeal.Skeleton
import proofs.«170788_j3307124818155_1_alg».proof.Proof.Gen.KernelIdeal.Launch
import proofs.«170788_j3307124818155_1_alg».proof.Proof.Gen.KernelIdeal.Points
import proofs.«170788_j3307124818155_1_alg».proof.Proof.Gen.KernelIdeal.Frame
import proofs.«170788_j3307124818155_1_alg».proof.Proof.Gen.ReferenceIdeal
import proofs.«170788_j3307124818155_1_alg».proof.Proof.Gen.Pre_finite_inputs
import proofs.«170788_j3307124818155_1_alg».proof.Proof.Gen.ReferenceIdeal.Run
import proofs.«170788_j3307124818155_1_alg».proof.Proof.Gen.ReferenceIdeal.Read
import proofs.«170788_j3307124818155_1_alg».proof.Proof.KernelRun
import proofs.«170788_j3307124818155_1_alg».proof.Proof.KernelValue
import proofs.«170788_j3307124818155_1_alg».proof.Proof.IndexBridge
import proofs.«170788_j3307124818155_1_alg».proof.Proof.RefValue
import proofs.«170788_j3307124818155_1_alg».proof.Proof.Algebra
import proofs.«170788_j3307124818155_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel :=
  fun m ρ _ => Cert.Kernel.Gen.frame m ρ

theorem frame_pi : Cert.frame_KernelIdeal :=
  fun m ρ _ => Cert.KernelIdeal.Gen.frame m ρ

/-- The reference's frame: its generated run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Both programs end with the same result array, element by element: the kernel program's is `resultK` of the
    arguments, the reference's `resultR`, and the two agree on real inputs. -/
theorem algebraic : Cert.algebraic_KernelIdeal_ReferenceIdeal := by
  intro m ρ m' ρ' hpre hagree
  refine ⟨fun c => Cert.KernelIdeal.Gen.W5 m ρ c (Proc.devRef .tc Cert.KernelIdeal.main_v30),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq]
  obtain ⟨h0, h1, h2, h3, h4, h5, h6, h7, h8, h9, h10⟩ := hagree c
  rw [h0, h1, h2, h3, h4, h5, h6, h7, h8, h9, h10]
  obtain ⟨r0, r1, r2, r3, r7, r8⟩ := Cert.Finite.reals_of_pre _ _ _ _ _ _ _ _ _ _ _ (hpre c)
  funext i
  obtain ⟨a, o, rfl⟩ : ∃ (a : Fin 8000) (o : Fin 64), i = ix2 a o := ⟨i 0, i 1, eq_ix2 i⟩
  refine (Cert.ReferenceIdeal.RefValue.result_apply _ _ _ _ _ _ _ _ _ _ _ a o).trans ?_
  refine Eq.trans ?_ (Cert.KernelIdeal.Value2.kernel_result_apply m ρ c a o).symm
  rw [← Cert.Bridge.idxCol_eq, ← Cert.Bridge.tgtCol_eq]
  exact (Cert.Interact.resultK_eq_resultR _ _ _ _ _ _ _ _ _ _ _ (fun a j => r0 _) (fun p => r1 _) (fun p k => r2 _)
    (fun s o' j => r3 _) (fun s => r7 _) (fun s => r8 _) a o).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
